-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S256x128 : Shape := ⟨2, ![256, 128]⟩
abbrev S128 : Shape := ⟨1, ![128]⟩
abbrev S128x256 : Shape := ⟨2, ![128, 256]⟩
abbrev S256 : Shape := ⟨1, ![256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg7 : FVec F S256x128 .f32) (main_arg8 : FVec F S128 .f32) (main_arg9 : FVec F S128x256 .f32) (main_arg10 : FVec F S256 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x256 .f32 := Host.absf main_arg9
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg4 : FVec F S128 .f32) (main_arg5 : FVec F S256x128 .f32) (main_arg6 : FVec F S128 .f32) (main_arg7 : FVec F S256x128 .f32) (main_arg8 : FVec F S128 .f32) (main_arg9 : FVec F S128x256 .f32) (main_arg10 : FVec F S256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x256 .f32) (main_arg1 : FVec F S16384x256 .f32) (main_arg2 : FVec F S16384x256 .f32) (main_arg3 : FVec F S256x128 .f32) (main_arg4 : FVec F S128 .f32) (main_arg5 : FVec F S256x128 .f32) (main_arg6 : FVec F S128 .f32) (main_arg7 : FVec F S256x128 .f32) (main_arg8 : FVec F S128 .f32) (main_arg9 : FVec F S128x256 .f32) (main_arg10 : FVec F S256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  let main_v9 : FVec F S16384x256 .f32 := Host.absf main_arg2
  let main_cst_2 : FVec F S_ .f32 := constant S_ .f32 0x7F800000#32
  let main_v10 : FVec F S16384x256 .f32 := broadcastInDim S16384x256 ![] bcast_S_S16384x256 main_cst_2
  let main_v11 : IVec S16384x256 1 := cmpf .olt main_v9 main_v10
  let main_c_3 : IVec S_ 1 := constantI S_ 1 1#1
  let main_v12 : IVec S_ 1 := (fun x v => Host.reduce IntOp.andi x v reducesTo_S16384x256_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_arg8 main_arg9 main_arg10 main_v13 main_v16
-- ==== Kernel.lean ====
abbrev S16384x256 : Shape := ⟨2, ![16384, 256]⟩
abbrev S256x128 : Shape := ⟨2, ![256, 128]⟩
abbrev S128 : Shape := ⟨1, ![128]⟩
abbrev S128x256 : Shape := ⟨2, ![128, 256]⟩
abbrev S256 : Shape := ⟨1, ![256]⟩
abbrev S16384x128 : Shape := ⟨2, ![16384, 128]⟩
abbrev S2048x256 : Shape := ⟨2, ![2048, 256]⟩
abbrev S2048x128 : Shape := ⟨2, ![2048, 128]⟩
abbrev S1x128 : Shape := ⟨2, ![1, 128]⟩
abbrev S1024x128 : Shape := ⟨2, ![1024, 128]⟩
abbrev S1024x256 : Shape := ⟨2, ![1024, 256]⟩
abbrev S1024x1 : Shape := ⟨2, ![1024, 1]⟩
abbrev S128x2048 : Shape := ⟨2, ![128, 2048]⟩
abbrev S1024x2048 : Shape := ⟨2, ![1024, 2048]⟩
abbrev S1024 : Shape := ⟨1, ![1024]⟩
abbrev S1x256 : Shape := ⟨2, ![1, 256]⟩

abbrev nBuf : Space → Nat
  | .hbm => 15
  | .vmem => 29
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x256, .f32⟩
  | .hbm, ⟨3, _⟩ => ⟨S256x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x256, .f32⟩
  | .hbm, ⟨10, _⟩ => ⟨S256, .f32⟩
  | .hbm, ⟨11, _⟩ => ⟨S16384x128, .bf16⟩
  | .hbm, ⟨12, _⟩ => ⟨S16384x128, .bf16⟩
  | .hbm, ⟨13, _⟩ => ⟨S16384x128, .bf16⟩
  | .hbm, ⟨14, _⟩ => ⟨S16384x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S256x128, .f32⟩
  | .local _ .vmem, ⟨7, _⟩ => ⟨S128, .f32⟩
  | .local _ .vmem, ⟨8, _⟩ => ⟨S256x128, .f32⟩
  | .local _ .vmem, ⟨9, _⟩ => ⟨S128, .f32⟩
  | .local _ .vmem, ⟨10, _⟩ => ⟨S256x128, .f32⟩
  | .local _ .vmem, ⟨11, _⟩ => ⟨S128, .f32⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S1024x128, .bf16⟩
  | .local _ .vmem, ⟨19, _⟩ => ⟨S1024x128, .bf16⟩
  | .local _ .vmem, ⟨20, _⟩ => ⟨S16384x128, .bf16⟩
  | .local _ .vmem, ⟨21, _⟩ => ⟨S16384x128, .bf16⟩
  | .local _ .vmem, ⟨22, _⟩ => ⟨S128x256, .f32⟩
  | .local _ .vmem, ⟨23, _⟩ => ⟨S256, .f32⟩
  | .local _ .vmem, ⟨24, _⟩ => ⟨S1024x256, .f32⟩
  | .local _ .vmem, ⟨25, _⟩ => ⟨S1024x256, .f32⟩
  | .local _ .vmem, ⟨26, _⟩ => ⟨S1024x128, .f32⟩
  | .local _ .vmem, ⟨27, _⟩ => ⟨S1024x1, .f32⟩
  | .local _ .vmem, ⟨28, _⟩ => ⟨S1024x1, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg5_1 : Ref sig .tc := ⟨.vmem, 25, rfl⟩
abbrev cc1_scratch0 : Ref sig .tc := ⟨.vmem, 26, rfl⟩
abbrev cc1_scratch1 : Ref sig .tc := ⟨.vmem, 27, rfl⟩
abbrev cc1_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem2_0 : DmaSem sig := 21
abbrev cc1_sem3_0 : DmaSem sig := 22
abbrev cc1_sem4_0 : DmaSem sig := 23
abbrev cc1_sem5_0 : DmaSem sig := 24
abbrev cc1_sem5_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨2, ![16, 8], ![false, false]⟩

def k1_mult1 (i : grid1.Coords) : BitVec 32 :=
  let arg1 : BitVec 32 := BitVec.ofNat 32 (i 1).val
  let c2048_i32 : BitVec 32 := 2048#32
  let v3 : BitVec 32 := Scalar.muli arg1 c2048_i32
  v3
def k1_off1 (i : grid1.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c7_i32 : BitVec 32 := 7#32
  let v47 : BitVec 1 := Scalar.cmpi .eq arg1 c7_i32
  let v48 : BitVec 32 := Scalar.extui v47
  let c0_i32_22 : BitVec 32 := 0#32
  let v49 : BitVec 1 := Scalar.cmpi .ne v48 c0_i32_22
  v49

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S16384x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S16384x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  packedbf16_S2048x128_S2048x128_0_0 : (Rect.unit (s := S2048x128) ![0, 0] S2048x128.size inb_S2048x128_S2048x128_0_0).PackedRows (EltTy.packing .bf16)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S2048x128_S2048x128 : S2048x128.ShapeCasts S2048x128
  transposes_S2048x128_p1_0_S128x2048 : S2048x128.Transposes [1, 0] S128x2048
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x128 : S1024x1.Broadcasts S1024x128
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  dot_S2048x256_S256x128_S2048x128_1_0_0_1_n_n_wf : DotDims.WF S2048x256 S256x128 S2048x128 [1] [0] [0] [1] [] []
  dot_S1024x128_S128x2048_S1024x2048_1_0_0_1_n_n_wf : DotDims.WF S1024x128 S128x2048 S1024x2048 [1] [0] [0] [1] [] []
  dot_S1024x2048_S2048x128_S1024x128_1_0_0_1_n_n_wf : DotDims.WF S1024x2048 S2048x128 S1024x128 [1] [0] [0] [1] [] []
  dot_S1024x128_S128x256_S1024x256_1_0_0_1_n_n_wf : DotDims.WF S1024x128 S128x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S16384x256.size a
  hwx0_1 : ∀ i : grid0.Coords, EltTy.bits .f32 = 32 ∨ (Rect.block (s := S16384x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S16384x256.size a
  hwx0_2 : ∀ i : grid0.Coords, EltTy.bits .f32 = 32 ∨ (Rect.block (s := S16384x256) S2048x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .f32 = 32 ∨ (Rect.block (s := S256x128) S256x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x128.size a ≤ S16384x128.size a
  hwx0_9 : ∀ i : grid0.Coords, EltTy.bits .bf16 = 32 ∨ (Rect.block (s := S16384x128) S2048x128.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x128.size a ≤ S16384x128.size a
  hwx0_10 : ∀ i : grid0.Coords, EltTy.bits .bf16 = 32 ∨ (Rect.block (s := S16384x128) S2048x128.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x128.size a ≤ S16384x128.size a
  hwx0_11 : ∀ i : grid0.Coords, EltTy.bits .bf16 = 32 ∨ (Rect.block (s := S16384x128) S2048x128.size (cc0_transform_11 i) (hinb0_11 i)).WholeWords (EltTy.packing .bf16)
  hrank1 : 0 < grid1.rank
  k1_mult1_dvd : ∀ i : grid1.Coords, 2048 ∣ (k1_mult1 i).toNat
  k1_off1_inb : ∀ i : grid1.Coords, ∀ a, (k1_off1 i) a + S2048x128.size a ≤ S16384x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S16384x128.size a
  hwx1_0 : ∀ i : grid1.Coords, EltTy.bits .bf16 = 32 ∨ (Rect.block (s := S16384x128) S1024x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x128.size a ≤ S16384x128.size a
  hwx1_1 : ∀ i : grid1.Coords, EltTy.bits .bf16 = 32 ∨ (Rect.block (s := S16384x128) S16384x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16384x128.size a ≤ S16384x128.size a
  hwx1_2 : ∀ i : grid1.Coords, EltTy.bits .bf16 = 32 ∨ (Rect.block (s := S16384x128) S16384x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x256.size a ≤ S16384x256.size a
  hwx1_5 : ∀ i : grid1.Coords, EltTy.bits .f32 = 32 ∨ (Rect.block (s := S16384x256) S1024x256.size (cc1_transform_5 i) (hinb1_5 i)).WholeWords (EltTy.packing .f32)

variable [Facts₀]

def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0_0) S2048x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_1) S2048x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_2) S2048x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v0_0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S16384x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S16384x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S1024x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S16384x256 : Shape := ⟨2, ![16384, 256]⟩
abbrev S256x128 : Shape := ⟨2, ![256, 128]⟩
abbrev S128 : Shape := ⟨1, ![128]⟩
abbrev S128x256 : Shape := ⟨2, ![128, 256]⟩
abbrev S256 : Shape := ⟨1, ![256]⟩
abbrev S16384x128 : Shape := ⟨2, ![16384, 128]⟩
abbrev S1x128 : Shape := ⟨2, ![1, 128]⟩
abbrev S128x16384 : Shape := ⟨2, ![128, 16384]⟩
abbrev S16384x16384 : Shape := ⟨2, ![16384, 16384]⟩
abbrev S_ : Shape := ⟨0, ![]⟩
abbrev S16384 : Shape := ⟨1, ![16384]⟩
abbrev S16384x1 : Shape := ⟨2, ![16384, 1]⟩
abbrev S1x256 : Shape := ⟨2, ![1, 256]⟩

abbrev nBuf : Space → Nat
  | .hbm => 47
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x256, .f32⟩
  | .hbm, ⟨3, _⟩ => ⟨S256x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x256, .f32⟩
  | .hbm, ⟨10, _⟩ => ⟨S256, .f32⟩
  | .hbm, ⟨11, _⟩ => ⟨S16384x128, .f32⟩
  | .hbm, ⟨12, _⟩ => ⟨S1x128, .f32⟩
  | .hbm, ⟨13, _⟩ => ⟨S16384x128, .f32⟩
  | .hbm, ⟨14, _⟩ => ⟨S16384x128, .f32⟩
  | .hbm, ⟨15, _⟩ => ⟨S16384x128, .f32⟩
  | .hbm, ⟨16, _⟩ => ⟨S1x128, .f32⟩
  | .hbm, ⟨17, _⟩ => ⟨S16384x128, .f32⟩
  | .hbm, ⟨18, _⟩ => ⟨S16384x128, .f32⟩
  | .hbm, ⟨19, _⟩ => ⟨S16384x128, .f32⟩
  | .hbm, ⟨20, _⟩ => ⟨S1x128, .f32⟩
  | .hbm, ⟨21, _⟩ => ⟨S16384x128, .f32⟩
  | .hbm, ⟨22, _⟩ => ⟨S16384x128, .f32⟩
  | .hbm, ⟨23, _⟩ => ⟨S128x16384, .f32⟩
  | .hbm, ⟨24, _⟩ => ⟨S16384x16384, .f32⟩
  | .hbm, ⟨25, _⟩ => ⟨S_, .f32⟩
  | .hbm, ⟨26, _⟩ => ⟨S16384x16384, .f32⟩
  | .hbm, ⟨27, _⟩ => ⟨S16384x16384, .f32⟩
  | .hbm, ⟨28, _⟩ => ⟨S_, .f32⟩
  | .hbm, ⟨29, _⟩ => ⟨S16384, .f32⟩
  | .hbm, ⟨30, _⟩ => ⟨S_, .f32⟩
  | .hbm, ⟨31, _⟩ => ⟨S16384, .f32⟩
  | .hbm, ⟨32, _⟩ => ⟨S16384, .f32⟩
  | .hbm, ⟨33, _⟩ => ⟨S16384x1, .f32⟩
  | .hbm, ⟨34, _⟩ => ⟨S16384x16384, .f32⟩
  | .hbm, ⟨35, _⟩ => ⟨S16384x16384, .f32⟩
  | .hbm, ⟨36, _⟩ => ⟨S16384x16384, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S16384x16384, .f32⟩
  | .hbm, ⟨41, _⟩ => ⟨S16384x16384, .f32⟩
  | .hbm, ⟨42, _⟩ => ⟨S16384x128, .f32⟩
  | .hbm, ⟨43, _⟩ => ⟨S16384x256, .f32⟩
  | .hbm, ⟨44, _⟩ => ⟨S1x256, .f32⟩
  | .hbm, ⟨45, _⟩ => ⟨S16384x256, .f32⟩
  | .hbm, ⟨46, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  transposes_S16384x128_S128x16384_1_0 : S16384x128.Transposes [1, 0] S128x16384
  bcast_S_S16384x16384 : S_.BroadcastsInDim S16384x16384 (![] : Fin 0 → Fin S16384x16384.rank)
  reducesTo_S16384x16384_S16384_d1 : S16384x16384.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x16384_0_1 : S16384x1.BroadcastsInDim S16384x16384 (![0, 1] : Fin 2 → Fin S16384x16384.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  dot_S16384x256_S256x128_S16384x128_1_0_0_1_n_n_wf : DotDims.WF S16384x256 S256x128 S16384x128 [1] [0] [0] [1] [] []
  dot_S16384x128_S128x16384_S16384x16384_1_0_0_1_n_n_wf : DotDims.WF S16384x128 S128x16384 S16384x16384 [1] [0] [0] [1] [] []
  dot_S16384x16384_S16384x128_S16384x128_1_0_0_1_n_n_wf : DotDims.WF S16384x16384 S16384x128 S16384x128 [1] [0] [0] [1] [] []
  dot_S16384x128_S128x256_S16384x256_1_0_0_1_n_n_wf : DotDims.WF S16384x128 S128x256 S16384x256 [1] [0] [0] [1] [] []

variable [Facts₀]

def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S16384x128_S128x16384_S16384x16384_1_0_0_1_n_n : DotDims S16384x128 S128x16384 S16384x16384 where
  lhsContracting := [1]
  rhsContracting := [0]
  lhsNonContracting := [0]
  rhsNonContracting := [1]
  lhsBatch := []
  rhsBatch := []
  wf := dot_S16384x128_S128x16384_S16384x16384_1_0_0_1_n_n_wf
def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf
def dot_S16384x128_S128x256_S16384x256_1_0_0_1_n_n : DotDims S16384x128 S128x256 S16384x256 where
  lhsContracting := [1]
  rhsContracting := [0]
  lhsNonContracting := [0]
  rhsNonContracting := [1]
  lhsBatch := []
  rhsBatch := []
  wf := dot_S16384x128_S128x256_S16384x256_1_0_0_1_n_n_wf

class Facts : Prop extends Facts₀ where

variable [Facts]
-- ==== Proof.KR0.lean ====
/- Region 0 of @main (the q/k/v projection call), at a parameter `V` — the TensorCore's buffer contents when the
   region is entered: each window's block at a grid point, what the body leaves in the three output buffers, the
   body's triple, the pipeline's proof data and its body obligation. -/
import proofs.«160914_j72550587564439_2_alg».proof.Proof.Gen.Kernel.Launch
import proofs.«160914_j72550587564439_2_alg».proof.Proof.Gen.Kernel.Skeleton
import proofs.«160914_j72550587564439_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s and whose body leaves the block in place: unfetched, the block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof
    data whose array is `V`'s and whose body leaves the block in place: unfetched, the block index has not moved. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not, for any proof
    data whose array is `V`'s and whose body leaves the block in place: unfetched, the block index has not moved. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not, for any proof
    data whose array is `V`'s and whose body leaves the block in place: unfetched, the block index has not moved. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rA : Rect S2048x256 := Rect.unit (s := S2048x256) ![0, 0] S2048x256.size inb_S2048x256_S2048x256_0_0
abbrev rW : Rect S256x128 := Rect.unit (s := S256x128) ![0, 0] S256x128.size inb_S256x128_S256x128_0_0
abbrev rB : Rect S128 := Rect.unit (s := S128) ![0] S128.size inb_S128_S128_0
abbrev rO : Rect S2048x128 := Rect.unit (s := S2048x128) ![0, 0] S2048x128.size inb_S2048x128_S2048x128_0_0

/-! ## What the body leaves in each output window's buffer -/

/-- Window 9's staging buffer after the body, from the input windows' blocks: its one store, of the whole buffer. -/
def out0_9 (x0 : Vec F S2048x256 .f32) (x3 : Vec F S256x128 .f32) (x4 : Vec F S128 .f32) : Vec F S2048x128 .bf16 :=
  View.canon [⟨rO, k0_pay1 (View.ld x0 rA) (View.ld x3 rW) (View.ld x4 rB)⟩]

/-- Window 10's staging buffer after the body, from the input windows' blocks: its one store, of the whole buffer. -/
def out0_10 (x1 : Vec F S2048x256 .f32) (x5 : Vec F S256x128 .f32) (x6 : Vec F S128 .f32) : Vec F S2048x128 .bf16 :=
  View.canon [⟨rO, k0_pay2 (View.ld x1 rA) (View.ld x5 rW) (View.ld x6 rB)⟩]

/-- Window 11's staging buffer after the body, from the input windows' blocks: its one store, of the whole buffer. -/
def out0_11 (x2 : Vec F S2048x256 .f32) (x7 : Vec F S256x128 .f32) (x8 : Vec F S128 .f32) : Vec F S2048x128 .bf16 :=
  View.canon [⟨rO, k0_pay3 (View.ld x2 rA) (View.ld x7 rW) (View.ld x8 rB)⟩]

/-- A store of the whole buffer covers it. -/
theorem cover0_O (p0 : Vec F S2048x128 .bf16) (y : S2048x128.Idx) :
    ∃ pc ∈ ([⟨rO, p0⟩] : List (View.Piece (Elt F) S2048x128 .bf16)), y ∈ pc.1.set :=
  View.cover_of_tiled [⟨rO, p0⟩] S2048x128.size (by rfl) y

/-! ## The body's triple -/

set_option maxHeartbeats 4000000 in
/-- The kernel body on whole staging memrefs, the inputs' at read contents `xW` and the outputs' at anything, runs to
    the continuation holding the inputs' as they were and each output's at `out0_W` of the inputs'. -/
theorem sound_kernel0 (c : Dev nD) (E : Set ℕ) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S256x128 .f32) (harg6 : arg6.IsWhole) (arg7 : Memref sig .tc .vmem S128 .f32) (harg7 : arg7.IsWhole) (arg8 : Memref sig .tc .vmem S256x128 .f32) (harg8 : arg8.IsWhole) (arg9 : Memref sig .tc .vmem S128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole)
    (x0 : Vec F S2048x256 .f32) (x1 : Vec F S2048x256 .f32) (x2 : Vec F S2048x256 .f32) (x3 : Vec F S256x128 .f32) (x4 : Vec F S128 .f32) (x5 : Vec F S256x128 .f32) (x6 : Vec F S128 .f32) (x7 : Vec F S256x128 .f32) (x8 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x3 x4) ∗ owns (c : Thread nD τ) arg11 fullShare (out0_10 x1 x5 x6) ∗ owns (c : Thread nD τ) arg12 fullShare (out0_11 x2 x7 x8)) -∗ K ⟨⟩))
      ⊢ wp frame (wpE (defs₀ (F := F)) Variants.none c none) E (cc0__qkv_proj_kernel i arg1 harg1 arg2 harg2 arg3 harg3 arg4 harg4 arg5 harg5 arg6 harg6 arg7 harg7 arg8 harg8 arg9 harg9 arg10 harg10 arg11 harg11 arg12 harg12) K := by
  simp only [cc0__qkv_proj_kernel_eq_skeleton]; unfold cc0__qkv_proj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover0_O _)
  isplitl [H10]
  · iexists _; isplitr
    swap; · iexact H10
    ipureintro
    exact View.read_writes_eq_canon _ _ _ (cover0_O _)
  iexists _; isplitr
  swap; · iexact H11
  ipureintro
  exact View.read_writes_eq_canon _ _ _ (cover0_O _)

/-! ## The pipeline's proof data -/

/-- The proof data of pipeline 0 on core `c`: the arrays as the region finds them (`V`); after the body at
    point `t` each input's buffer at its block and each output's at `out0_W` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 3 t) (iblk0 V c 4 t)
    | ⟨10, _⟩ => out0_10 (iblk0 V c 1 t) (iblk0 V c 5 t) (iblk0 V c 6 t)
    | ⟨11, _⟩ => out0_11 (iblk0 V c 2 t) (iblk0 V c 7 t) (iblk0 V c 8 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 3 t) (iblk0 V c 4 t) := by dsimp only [dat0]
theorem after0_10 (c : Dev nD) (t : Fin cfg0.N) : (dat0 V c).after 10 t = out0_10 (iblk0 V c 1 t) (iblk0 V c 5 t) (iblk0 V c 6 t) := by dsimp only [dat0]
theorem after0_11 (c : Dev nD) (t : Fin cfg0.N) : (dat0 V c).after 11 t = out0_11 (iblk0 V c 2 t) (iblk0 V c 7 t) (iblk0 V c 8 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

set_option maxHeartbeats 1000000 in
/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ (grid0.coords t) _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KR1Runs.lean ====
/-
  Region 1 (the attention call: grid 16 × 8, the second coordinate the key tile): what its three
  whole-body runs share. The body branches twice on the key-tile coordinate: at the first key tile it
  resets the three running buffers (the weighted sum, the running maximum, the running normaliser),
  at the last it divides, projects and stores the output block. So a point is in one of three cases:
  A (first key tile), B (an inner key tile), C (the last key tile). The conditions are decided over the
  128 points in closed form; the output window is idle (not stored, not written back) in cases A and B.
-/
import proofs.«160914_j72550587564439_2_alg».proof.Proof.Gen.Kernel.Launch
import proofs.«160914_j72550587564439_2_alg».proof.Proof.Gen.Kernel.Skeleton
import proofs.«160914_j72550587564439_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions -/

/-- The first branch: the key-tile coordinate is zero. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The second branch: the key-tile coordinate is the last one. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Away from the last key tile the output block is not stored, -/
theorem idleAt1_5 : ∀ t : Fin cfg1.N, ¬cond1_1 (grid1.coords t) → cfg1.idle 5 (grid1.coords t) = true := by decide +kernel
/-- nor written back; -/
theorem noFlush1_5 : ∀ t : Fin cfg1.N, ¬cond1_1 (grid1.coords t) → (cfg1.win 5).flush t = false := by decide +kernel
/-- at the last key tile it is stored. -/
theorem liveAt1_5 : ∀ t : Fin cfg1.N, cond1_1 (grid1.coords t) → cfg1.idle 5 (grid1.coords t) = false := by decide +kernel

/-! ## The memrefs the body is called with -/

abbrev VO1_5 : View sig .tc .vmem S1024x256 .f32 := (Memref.whole cc1_stg5_0 : Memref sig .tc .vmem S1024x256 .f32).view
abbrev ms1_0 (t : Fin cfg1.N) : Memref sig .tc .vmem S1024x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16384x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x256 .f32 := win1_5.stage (cfg1.slots t 5)
abbrev hs1_5 (t : Fin cfg1.N) : (ms1_5 t).IsWhole := hstage1_5 ((cfg1.slots t 5).cast nbuf1_5)
/-- The three running buffers: the weighted sum, the running maximum, the running normaliser. -/
abbrev scM1_0 : Memref sig .tc .vmem S1024x128 .f32 := Memref.whole cc1_scratch0
abbrev scM1_1 : Memref sig .tc .vmem S1024x1 .f32 := Memref.whole cc1_scratch1
abbrev scM1_2 : Memref sig .tc .vmem S1024x1 .f32 := Memref.whole cc1_scratch2
abbrev VS1_0 : View sig .tc .vmem S1024x128 .f32 := scM1_0.view
abbrev VS1_1 : View sig .tc .vmem S1024x1 .f32 := scM1_1.view
abbrev VS1_2 : View sig .tc .vmem S1024x1 .f32 := scM1_2.view

/-! ## The region invariant opened -/

/-- The scoped buffers of the other call, which this region never touches. -/
abbrev others1 : List (Ref sig .tc) := [cc0_stg0_0, cc0_stg0_1, cc0_stg1_0, cc0_stg1_1, cc0_stg2_0, cc0_stg2_1, cc0_stg3_0, cc0_stg4_0, cc0_stg5_0, cc0_stg6_0, cc0_stg7_0, cc0_stg8_0, cc0_stg9_0, cc0_stg9_1, cc0_stg10_0, cc0_stg10_1, cc0_stg11_0, cc0_stg11_1]

/-- Those buffers, each whole at some contents. -/
def otherBufs (c : Dev nD) : sProp 𝕄 :=
  bigSepL others1 fun b => iprop(∃ f : Buf (Elt F) ((c.tc : Thread nD τ).loc b), ((c.tc : Thread nD τ).loc b) ↦{fullShare} f)

/-- The class invariant with the three running buffers named: each at some contents, beside the other call's
    buffers and the generator register. -/
theorem PhiA1_eq (c : Dev nD) :
    (Pipeline.ΦA spec1 c : sProp 𝕄)
      = iprop(((∃ d, owns (c : Thread nD τ) scM1_0 fullShare d) ∗ (∃ d, owns (c : Thread nD τ) scM1_1 fullShare d)
          ∗ (∃ d, owns (c : Thread nD τ) scM1_2 fullShare d) ∗ otherBufs c) ∗ (∃ r, prngReg c r)) := by
  unfold Pipeline.ΦA otherBufs
  rw [Pipeline.scopedRest_eq_of_list spec1 c (cc1_scratch0 :: cc1_scratch1 :: cc1_scratch2 :: others1) (by decide) (by decide)]
  simp only [bigSepL_cons_cons, bigSepL_singleton, scM1_0, scM1_1, scM1_2, owns_whole]
  try rfl

end Cert.Kernel.Hand

end
-- ==== Proof.KR1RunA.lean ====
/-
  Region 1, case A: one whole run of the attention body, on whole buffers at given contents.
-/
import proofs.«160914_j72550587564439_2_alg».proof.Proof.KR1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in case A (the first key tile: the three running buffers are reset before anything reads them, so they may hold anything on entry; the output block is not stored): on whole memrefs, the five inputs at their contents, the body runs to the
    continuation holding the inputs as they were and each buffer it stored into with its stores written, as pieces,
    last first. The pieces are the witness the run finds. -/
noncomputable def kernelRun1_A (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x128 .bf16) (x1 : Vec F S16384x128 .bf16) (x2 : Vec F S16384x128 .bf16) (x3 : Vec F S128x256 .f32) (x4 : Vec F S256 .f32) :
    Σ' (LS0 : List (View.Piece (Elt F) S1024x128 .f32)) (LS1 : List (View.Piece (Elt F) S1024x1 .f32)), { LS2 : List (View.Piece (Elt F) S1024x1 .f32) //
      ∀ (xi5 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10) K } := by
  refine ⟨?_, ?_, ?_, fun xi5 E K => ?run⟩
  case run =>
    simp only [cc1__attn_kernel_eq_skeleton]; unfold cc1__attn_kernel_skel
    simp only [k1_part1_eq_skeleton]
    unfold owns
    iintro ⟨⟨%fH0, %hfH0, H0⟩, ⟨%fH1, %hfH1, H1⟩, ⟨%fH2, %hfH2, H2⟩, ⟨%fH3, %hfH3, H3⟩, ⟨%fH4, %hfH4, H4⟩, ⟨%fH5, %hfH5, H5⟩, ⟨%dHS0, %fHS0, -, HS0⟩, ⟨%dHS1, %fHS1, -, HS1⟩, ⟨%dHS2, %fHS2, -, HS2⟩, Hk⟩
    obtain rfl := harg2.eq_unread hfH0; obtain rfl := harg3.eq_unread hfH1; obtain rfl := harg4.eq_unread hfH2; obtain rfl := harg5.eq_unread hfH3; obtain rfl := harg6.eq_unread hfH4; obtain rfl := harg7.eq_unread hfH5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; iexact HS0
    isplitl [HS1]
    · iexists _; iexact HS1
    iexists _; iexact HS2

end Cert.Kernel.Hand

end
-- ==== Proof.KR1RunB.lean ====
/-
  Region 1, case B: one whole run of the attention body, on whole buffers at given contents.
-/
import proofs.«160914_j72550587564439_2_alg».proof.Proof.KR1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in case B (an inner key tile: the running buffers hold what the previous key tile left; the output block is not stored): on whole memrefs, the five inputs at their contents, the body runs to the
    continuation holding the inputs as they were and each buffer it stored into with its stores written, as pieces,
    last first. The pieces are the witness the run finds. -/
noncomputable def kernelRun1_B (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x128 .bf16) (x1 : Vec F S16384x128 .bf16) (x2 : Vec F S16384x128 .bf16) (x3 : Vec F S128x256 .f32) (x4 : Vec F S256 .f32) (xs0 : Vec F S1024x128 .f32) (xs1 : Vec F S1024x1 .f32) (xs2 : Vec F S1024x1 .f32) :
    Σ' (LS0 : List (View.Piece (Elt F) S1024x128 .f32)) (LS1 : List (View.Piece (Elt F) S1024x1 .f32)), { LS2 : List (View.Piece (Elt F) S1024x1 .f32) //
      ∀ (xi5 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10) K } := by
  refine ⟨?_, ?_, ?_, fun xi5 E K => ?run⟩
  case run =>
    simp only [cc1__attn_kernel_eq_skeleton]; unfold cc1__attn_kernel_skel
    simp only [k1_part1_eq_skeleton]
    unfold owns
    iintro ⟨⟨%fH0, %hfH0, H0⟩, ⟨%fH1, %hfH1, H1⟩, ⟨%fH2, %hfH2, H2⟩, ⟨%fH3, %hfH3, H3⟩, ⟨%fH4, %hfH4, H4⟩, ⟨%fH5, %hfH5, H5⟩, ⟨%fHS0, %hfHS0, HS0⟩, ⟨%fHS1, %hfHS1, HS1⟩, ⟨%fHS2, %hfHS2, HS2⟩, Hk⟩
    obtain rfl := harg2.eq_unread hfH0; obtain rfl := harg3.eq_unread hfH1; obtain rfl := harg4.eq_unread hfH2; obtain rfl := harg5.eq_unread hfH3; obtain rfl := harg6.eq_unread hfH4; obtain rfl := harg7.eq_unread hfH5; obtain rfl := harg8.eq_unread hfHS0; obtain rfl := harg9.eq_unread hfHS1; obtain rfl := harg10.eq_unread hfHS2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; iexact HS0
    isplitl [HS1]
    · iexists _; iexact HS1
    iexists _; iexact HS2

end Cert.Kernel.Hand

end
-- ==== Proof.KR1RunC.lean ====
/-
  Region 1, case C: one whole run of the attention body, on whole buffers at given contents.
-/
import proofs.«160914_j72550587564439_2_alg».proof.Proof.KR1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in case C (the last key tile: the running buffers hold what the previous key tile left; the output block is stored): on whole memrefs, the five inputs at their contents, the body runs to the
    continuation holding the inputs as they were and each buffer it stored into with its stores written, as pieces,
    last first. The pieces are the witness the run finds. -/
noncomputable def kernelRun1_C (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x128 .bf16) (x1 : Vec F S16384x128 .bf16) (x2 : Vec F S16384x128 .bf16) (x3 : Vec F S128x256 .f32) (x4 : Vec F S256 .f32) (xs0 : Vec F S1024x128 .f32) (xs1 : Vec F S1024x1 .f32) (xs2 : Vec F S1024x1 .f32) :
    Σ' (L5 : List (View.Piece (Elt F) S1024x256 .f32)) (LS0 : List (View.Piece (Elt F) S1024x128 .f32)) (LS1 : List (View.Piece (Elt F) S1024x1 .f32)), { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%fH0, %hfH0, H0⟩, ⟨%fH1, %hfH1, H1⟩, ⟨%fH2, %hfH2, H2⟩, ⟨%fH3, %hfH3, H3⟩, ⟨%fH4, %hfH4, H4⟩, ⟨%dH5, %fH5, -, H5⟩, ⟨%fHS0, %hfHS0, HS0⟩, ⟨%fHS1, %hfHS1, HS1⟩, ⟨%fHS2, %hfHS2, HS2⟩, Hk⟩
    obtain rfl := harg2.eq_unread hfH0; obtain rfl := harg3.eq_unread hfH1; obtain rfl := harg4.eq_unread hfH2; obtain rfl := harg5.eq_unread hfH3; obtain rfl := harg6.eq_unread hfH4; obtain rfl := harg8.eq_unread hfHS0; obtain rfl := harg9.eq_unread hfHS1; obtain rfl := harg10.eq_unread hfHS2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [HS0]
    · iexists _; iexact HS0
    isplitl [HS1]
    · iexists _; iexact HS1
    iexists _; iexact HS2

end Cert.Kernel.Hand

end
-- ==== Proof.KR1.lean ====
/-
  Region 1 (the attention call), its proof data. After each grid point the output block's buffer and the three
  running buffers hold what that point's case leaves (`outsAt1`, by recursion on the point: a case that reads a
  running buffer reads what the point before left). The region invariant names the running buffers' contents from
  the second point on; the output window is idle away from the last key tile.
-/
import proofs.«160914_j72550587564439_2_alg».proof.Proof.KR1RunA
import proofs.«160914_j72550587564439_2_alg».proof.Proof.KR1RunB
import proofs.«160914_j72550587564439_2_alg».proof.Proof.KR1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- Case A: the stores into running buffer 0 tile it, so they cover it. -/
theorem scover1_A_0 (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x128 .bf16) (x1 : Vec F S16384x128 .bf16) (x2 : Vec F S16384x128 .bf16) (x3 : Vec F S128x256 .f32) (x4 : Vec F S256 .f32) (y : S1024x128.Idx) :
    ∃ pc ∈ (kernelRun1_A c i arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4).1 S1024x128.size (by sl_kernel_rfl) y

/-- What case A leaves in running buffer 0: its stores read back. -/
def sout1_A_0 (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x128 .bf16) (x1 : Vec F S16384x128 .bf16) (x2 : Vec F S16384x128 .bf16) (x3 : Vec F S128x256 .f32) (x4 : Vec F S256 .f32) : Vec F S1024x128 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 hc0 hc1 x0 x1 x2 x3 x4).1)

/-- Case A: the stores into running buffer 1 tile it, so they cover it. -/
theorem scover1_A_1 (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x128 .bf16) (x1 : Vec F S16384x128 .bf16) (x2 : Vec F S16384x128 .bf16) (x3 : Vec F S128x256 .f32) (x4 : Vec F S256 .f32) (y : S1024x1.Idx) :
    ∃ pc ∈ (kernelRun1_A c i arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4).2.1 S1024x1.size (by sl_kernel_rfl) y

/-- What case A leaves in running buffer 1: its stores read back. -/
def sout1_A_1 (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x128 .bf16) (x1 : Vec F S16384x128 .bf16) (x2 : Vec F S16384x128 .bf16) (x3 : Vec F S128x256 .f32) (x4 : Vec F S256 .f32) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 hc0 hc1 x0 x1 x2 x3 x4).2.1)

/-- Case A: the stores into running buffer 2 tile it, so they cover it. -/
theorem scover1_A_2 (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x128 .bf16) (x1 : Vec F S16384x128 .bf16) (x2 : Vec F S16384x128 .bf16) (x3 : Vec F S128x256 .f32) (x4 : Vec F S256 .f32) (y : S1024x1.Idx) :
    ∃ pc ∈ (kernelRun1_A c i arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4).2.2.1 S1024x1.size (by sl_kernel_rfl) y

/-- What case A leaves in running buffer 2: its stores read back. -/
def sout1_A_2 (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x128 .bf16) (x1 : Vec F S16384x128 .bf16) (x2 : Vec F S16384x128 .bf16) (x3 : Vec F S128x256 .f32) (x4 : Vec F S256 .f32) : Vec F S1024x1 .f32 :=
  VS1_2.read (Elt F) (VS1_2.writes (Elt F) VS1_2.junk (kernelRun1_A c i arg2 harg2 arg3 harg3 arg4 harg4 arg5 harg5 arg6 harg6 arg7 harg7 arg8 harg8 arg9 harg9 arg10 harg10 hc0 hc1 x0 x1 x2 x3 x4).2.2.1)

/-- Case B: the stores into running buffer 0 tile it, so they cover it. -/
theorem scover1_B_0 (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x128 .bf16) (x1 : Vec F S16384x128 .bf16) (x2 : Vec F S16384x128 .bf16) (x3 : Vec F S128x256 .f32) (x4 : Vec F S256 .f32) (xs0 : Vec F S1024x128 .f32) (xs1 : Vec F S1024x1 .f32) (xs2 : Vec F S1024x1 .f32) (y : S1024x128.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0 xs1 xs2).1 S1024x128.size (by sl_kernel_rfl) y

/-- What case B leaves in running buffer 0: its stores read back. -/
def sout1_B_0 (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x128 .bf16) (x1 : Vec F S16384x128 .bf16) (x2 : Vec F S16384x128 .bf16) (x3 : Vec F S128x256 .f32) (x4 : Vec F S256 .f32) (xs0 : Vec F S1024x128 .f32) (xs1 : Vec F S1024x1 .f32) (xs2 : Vec F S1024x1 .f32) : Vec F S1024x128 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 hc0 hc1 x0 x1 x2 x3 x4 xs0 xs1 xs2).1)

/-- Case B: the stores into running buffer 1 tile it, so they cover it. -/
theorem scover1_B_1 (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x128 .bf16) (x1 : Vec F S16384x128 .bf16) (x2 : Vec F S16384x128 .bf16) (x3 : Vec F S128x256 .f32) (x4 : Vec F S256 .f32) (xs0 : Vec F S1024x128 .f32) (xs1 : Vec F S1024x1 .f32) (xs2 : Vec F S1024x1 .f32) (y : S1024x1.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0 xs1 xs2).2.1 S1024x1.size (by sl_kernel_rfl) y

/-- What case B leaves in running buffer 1: its stores read back. -/
def sout1_B_1 (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x128 .bf16) (x1 : Vec F S16384x128 .bf16) (x2 : Vec F S16384x128 .bf16) (x3 : Vec F S128x256 .f32) (x4 : Vec F S256 .f32) (xs0 : Vec F S1024x128 .f32) (xs1 : Vec F S1024x1 .f32) (xs2 : Vec F S1024x1 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 hc0 hc1 x0 x1 x2 x3 x4 xs0 xs1 xs2).2.1)

/-- Case B: the stores into running buffer 2 tile it, so they cover it. -/
theorem scover1_B_2 (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x128 .bf16) (x1 : Vec F S16384x128 .bf16) (x2 : Vec F S16384x128 .bf16) (x3 : Vec F S128x256 .f32) (x4 : Vec F S256 .f32) (xs0 : Vec F S1024x128 .f32) (xs1 : Vec F S1024x1 .f32) (xs2 : Vec F S1024x1 .f32) (y : S1024x1.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).2.2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0 xs1 xs2).2.2.1 S1024x1.size (by sl_kernel_rfl) y

/-- What case B leaves in running buffer 2: its stores read back. -/
def sout1_B_2 (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x128 .bf16) (x1 : Vec F S16384x128 .bf16) (x2 : Vec F S16384x128 .bf16) (x3 : Vec F S128x256 .f32) (x4 : Vec F S256 .f32) (xs0 : Vec F S1024x128 .f32) (xs1 : Vec F S1024x1 .f32) (xs2 : Vec F S1024x1 .f32) : Vec F S1024x1 .f32 :=
  VS1_2.read (Elt F) (VS1_2.writes (Elt F) VS1_2.junk (kernelRun1_B c i arg2 harg2 arg3 harg3 arg4 harg4 arg5 harg5 arg6 harg6 arg7 harg7 arg8 harg8 arg9 harg9 arg10 harg10 hc0 hc1 x0 x1 x2 x3 x4 xs0 xs1 xs2).2.2.1)

/-- Case C: the stores into running buffer 0 tile it, so they cover it. -/
theorem scover1_C_0 (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x128 .bf16) (x1 : Vec F S16384x128 .bf16) (x2 : Vec F S16384x128 .bf16) (x3 : Vec F S128x256 .f32) (x4 : Vec F S256 .f32) (xs0 : Vec F S1024x128 .f32) (xs1 : Vec F S1024x1 .f32) (xs2 : Vec F S1024x1 .f32) (y : S1024x128.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1 xs2).2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0 xs1 xs2).2.1 S1024x128.size (by sl_kernel_rfl) y

/-- What case C leaves in running buffer 0: its stores read back. -/
def sout1_C_0 (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x128 .bf16) (x1 : Vec F S16384x128 .bf16) (x2 : Vec F S16384x128 .bf16) (x3 : Vec F S128x256 .f32) (x4 : Vec F S256 .f32) (xs0 : Vec F S1024x128 .f32) (xs1 : Vec F S1024x1 .f32) (xs2 : Vec F S1024x1 .f32) : Vec F S1024x128 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 hc0 hc1 x0 x1 x2 x3 x4 xs0 xs1 xs2).2.1)

/-- Case C: the stores into running buffer 1 tile it, so they cover it. -/
theorem scover1_C_1 (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x128 .bf16) (x1 : Vec F S16384x128 .bf16) (x2 : Vec F S16384x128 .bf16) (x3 : Vec F S128x256 .f32) (x4 : Vec F S256 .f32) (xs0 : Vec F S1024x128 .f32) (xs1 : Vec F S1024x1 .f32) (xs2 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1 xs2).2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0 xs1 xs2).2.2.1 S1024x1.size (by sl_kernel_rfl) y

/-- What case C leaves in running buffer 1: its stores read back. -/
def sout1_C_1 (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x128 .bf16) (x1 : Vec F S16384x128 .bf16) (x2 : Vec F S16384x128 .bf16) (x3 : Vec F S128x256 .f32) (x4 : Vec F S256 .f32) (xs0 : Vec F S1024x128 .f32) (xs1 : Vec F S1024x1 .f32) (xs2 : Vec F S1024x1 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 hc0 hc1 x0 x1 x2 x3 x4 xs0 xs1 xs2).2.2.1)

/-- Case C: the stores into running buffer 2 tile it, so they cover it. -/
theorem scover1_C_2 (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x128 .bf16) (x1 : Vec F S16384x128 .bf16) (x2 : Vec F S16384x128 .bf16) (x3 : Vec F S128x256 .f32) (x4 : Vec F S256 .f32) (xs0 : Vec F S1024x128 .f32) (xs1 : Vec F S1024x1 .f32) (xs2 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1 xs2).2.2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0 xs1 xs2).2.2.2.1 S1024x1.size (by sl_kernel_rfl) y

/-- What case C leaves in running buffer 2: its stores read back. -/
def sout1_C_2 (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x128 .bf16) (x1 : Vec F S16384x128 .bf16) (x2 : Vec F S16384x128 .bf16) (x3 : Vec F S128x256 .f32) (x4 : Vec F S256 .f32) (xs0 : Vec F S1024x128 .f32) (xs1 : Vec F S1024x1 .f32) (xs2 : Vec F S1024x1 .f32) : Vec F S1024x1 .f32 :=
  VS1_2.read (Elt F) (VS1_2.writes (Elt F) VS1_2.junk (kernelRun1_C c i arg2 harg2 arg3 harg3 arg4 harg4 arg5 harg5 arg6 harg6 arg7 harg7 arg8 harg8 arg9 harg9 arg10 harg10 hc0 hc1 x0 x1 x2 x3 x4 xs0 xs1 xs2).2.2.2.1)

/-- Case C: the one store into the output block covers it. -/
theorem cover1_C_5 (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x128 .bf16) (x1 : Vec F S16384x128 .bf16) (x2 : Vec F S16384x128 .bf16) (x3 : Vec F S128x256 .f32) (x4 : Vec F S256 .f32) (xs0 : Vec F S1024x128 .f32) (xs1 : Vec F S1024x1 .f32) (xs2 : Vec F S1024x1 .f32) (y : S1024x256.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1 xs2).1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0 xs1 xs2).1 S1024x256.size (by sl_kernel_rfl) y

/-- What case C leaves in the output block's buffer. -/
def out1_C_5 (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x128 .bf16) (x1 : Vec F S16384x128 .bf16) (x2 : Vec F S16384x128 .bf16) (x3 : Vec F S128x256 .f32) (x4 : Vec F S256 .f32) (xs0 : Vec F S1024x128 .f32) (xs1 : Vec F S1024x1 .f32) (xs2 : Vec F S1024x1 .f32) : Vec F S1024x256 .f32 :=
  VO1_5.read (Elt F) (VO1_5.writes (Elt F) VO1_5.junk (kernelRun1_C c i arg2 harg2 arg3 harg3 arg4 harg4 arg5 harg5 arg6 harg6 arg7 harg7 arg8 harg8 arg9 harg9 arg10 harg10 hc0 hc1 x0 x1 x2 x3 x4 xs0 xs1 xs2).1)

/-! ## What the buffers hold after each point -/

/-- The output block's buffer and the three running buffers after a point of case A. -/
def outA (c : Dev nD) (t : Fin cfg1.N) (h0 : t.val % 8 = 0) (h1 : ¬t.val % 8 = 7) : (Vec F S1024x256 .f32 × Vec F S1024x128 .f32 × Vec F S1024x1 .f32 × Vec F S1024x1 .f32) :=
  ((VO1_5.read (Elt F) (VO1_5.writes (Elt F) VO1_5.junk [])), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t))
/-- … of case B, from what the point before left (`p`). -/
def outB (c : Dev nD) (t : Fin cfg1.N) (h0 : ¬t.val % 8 = 0) (h1 : ¬t.val % 8 = 7) (p : (Vec F S1024x256 .f32 × Vec F S1024x128 .f32 × Vec F S1024x1 .f32 × Vec F S1024x1 .f32)) : (Vec F S1024x256 .f32 × Vec F S1024x128 .f32 × Vec F S1024x1 .f32 × Vec F S1024x1 .f32) :=
  ((VO1_5.read (Elt F) (VO1_5.writes (Elt F) VO1_5.junk [])), sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.1 p.2.2.1 p.2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.1 p.2.2.1 p.2.2.2, sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.1 p.2.2.1 p.2.2.2)
/-- … of case C, from what the point before left (`p`). -/
def outC (c : Dev nD) (t : Fin cfg1.N) (h0 : ¬t.val % 8 = 0) (h1 : t.val % 8 = 7) (p : (Vec F S1024x256 .f32 × Vec F S1024x128 .f32 × Vec F S1024x1 .f32 × Vec F S1024x1 .f32)) : (Vec F S1024x256 .f32 × Vec F S1024x128 .f32 × Vec F S1024x1 .f32 × Vec F S1024x1 .f32) :=
  (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2, sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2)

/-- THE ACCUMULATION: what the four buffers hold after the body at position `n`. -/
def outsAt1 (c : Dev nD) : (n : ℕ) → n < cfg1.N → (Vec F S1024x256 .f32 × Vec F S1024x128 .f32 × Vec F S1024x1 .f32 × Vec F S1024x1 .f32)
  | 0, hn => outA V c ⟨0, hn⟩ (Nat.zero_mod _) (by show ¬(0 % 8 = 7); decide)
  | n + 1, hn =>
    if h0 : (n + 1) % 8 = 0 then outA V c ⟨n + 1, hn⟩ h0 (by show ¬((n + 1) % 8 = 7); omega)
    else if h1 : (n + 1) % 8 = 7 then outC V c ⟨n + 1, hn⟩ h0 h1 (outsAt1 c n (Nat.lt_of_succ_lt hn))
    else outB V c ⟨n + 1, hn⟩ h0 h1 (outsAt1 c n (Nat.lt_of_succ_lt hn))

theorem outsAt1_A (c : Dev nD) (t : Fin cfg1.N) (h0 : t.val % 8 = 0) (h1 : ¬t.val % 8 = 7) :
    outsAt1 V c t.val t.isLt = outA V c t h0 h1 := by
  obtain ⟨n, hn⟩ := t
  cases n with
  | zero => rfl
  | succ n => exact (dif_pos h0).trans rfl

theorem outsAt1_B (c : Dev nD) (t : Fin cfg1.N) (h0 : ¬t.val % 8 = 0) (h1 : ¬t.val % 8 = 7) :
    outsAt1 V c t.val t.isLt = outB V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = outC V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-! ## The region invariant -/

/-- Before the first point the class invariant (the running buffers at anything); afterwards the running buffers at
    what the point before left, beside the other call's buffers and the generator register. -/
def PhiS1 (c : Dev nD) : (n : ℕ) → n ≤ cfg1.N → sProp 𝕄
  | 0, _ => Pipeline.ΦA spec1 c
  | n + 1, hn => iprop((owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2 ∗ otherBufs c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2 ∗ otherBufs c) ∗ (∃ r, prngReg c r)) := rfl

theorem PhiS1_pos (c : Dev nD) (n : ℕ) (h : n ≤ cfg1.N) (hz : n ≠ 0) :
    PhiS1 V c n h = iprop((owns (c : Thread nD τ) scM1_0 fullShare (outsAt1 V c (n - 1) (by omega)).2.1 ∗ owns (c : Thread nD τ) scM1_1 fullShare (outsAt1 V c (n - 1) (by omega)).2.2.1
      ∗ owns (c : Thread nD τ) scM1_2 fullShare (outsAt1 V c (n - 1) (by omega)).2.2.2 ∗ otherBufs c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t ∗ (dat1 V c).leavesExact 4 t ∗ (dat1 V c).leavesExact 5 t)

set_option maxHeartbeats 8000000 in
/-- The body at any point: the closed forms of the two conditions say which case the point is in; the invariant hands the
    body the running buffers at what the point before left (at anything at the first point) and takes them back at this
    point's contents; the inputs' buffers hold their blocks; the output buffer is handed back untouched away from the
    last key tile. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 8 = 0
  · have h1 : ¬t.val % 8 = 7 := by omega
    rw [Dat.leavesExact_idle (dat1 V c) 5 t (idleAt1_5 t (fun h => h1 ((hcond1_1 t).mp h))) (noFlush1_5 t (fun h => h1 ((hcond1_1 t).mp h)))]
    rw [outsAt1_A V c t h0 h1]
    unfold outA sout1_A_0 sout1_A_1 sout1_A_2; (try dsimp only)
    by_cases hz : t.val = 0
    · rw [PhiS1_castSucc V c t, PhiS1_zero V c _ _ hz, PhiA1_eq]
      iintro ⟨⟨⟨HS0, HS1, HS2, Hoth⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 Hoth Hg]
      · isplitl [HS0 HS1 HS2 Hoth]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      iintro ⟨⟨⟨HS0, HS1, HS2, Hoth⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, ⟨%es0, HS0⟩, ⟨%es1, HS1⟩, ⟨%es2, HS2⟩⟩
      isplitl [HS0 HS1 HS2 Hoth Hg]
      · isplitl [HS0 HS1 HS2 Hoth]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun hz => h0 (by rw [hz])
    by_cases h1 : t.val % 8 = 7
    · rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold outC out1_C_5 sout1_C_0 sout1_C_1 sout1_C_2; (try dsimp only)
      rw [PhiS1_castSucc V c t, PhiS1_pos V c _ _ hz]
      iintro ⟨⟨⟨HS0, HS1, HS2, Hoth⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, ⟨%es0, HS0⟩, ⟨%es1, HS1⟩, ⟨%es2, HS2⟩⟩
      isplitl [HS0 HS1 HS2 Hoth Hg]
      · isplitl [HS0 HS1 HS2 Hoth]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_C_2 c _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _ _ _ _ _ _ _)
    · rw [Dat.leavesExact_idle (dat1 V c) 5 t (idleAt1_5 t (fun h => h1 ((hcond1_1 t).mp h))) (noFlush1_5 t (fun h => h1 ((hcond1_1 t).mp h)))]
      rw [outsAt1_B V c t h0 h1]
      unfold outB sout1_B_0 sout1_B_1 sout1_B_2; (try dsimp only)
      rw [PhiS1_castSucc V c t, PhiS1_pos V c _ _ hz]
      iintro ⟨⟨⟨HS0, HS1, HS2, Hoth⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 Hoth Hg]
      · isplitl [HS0 HS1 HS2 Hoth]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_B_2 c _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HS1, HS2, Hoth⟩, Hg⟩
  isplitl [HS0 HS1 HS2 Hoth]
  · isplitl [HS0]; · iexists _; iexact HS0
    isplitl [HS1]; · iexists _; iexact HS1
    isplitl [HS2]; · iexists _; iexact HS2
    iexact Hoth
  iexact Hg

theorem hout1 (c : Dev nD) : (dat1 V c).Φ (Fin.last cfg1.N) ⊢ Pipeline.ΦA spec1 c :=
  Phi_out1 V c _ (by rw [Fin.val_last]; have : cfg1.N = 128 := N_1; omega)

end Cert.Kernel.Hand

end
-- ==== Proof.KRun.lean ====
/- The run of @main: two kernel regions in sequence, no host operation between them. The buffer contents at each
   boundary as a fold from the launch memory, each argument array read back through the fold to its launch contents,
   each region as a segment over the thread state "every unscoped buffer at the boundary's contents, the generator
   register at some state, nothing owed", and the frame: every weakly fair execution terminates without fault and
   every final state holds the unscoped buffers at the last boundary's contents. -/
import proofs.«160914_j72550587564439_2_alg».proof.Proof.KR0
import proofs.«160914_j72550587564439_2_alg».proof.Proof.KR1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch (region 0's entry). -/
abbrev W0 : Dev nD → Valuation τ sig (Elt F) := fun c b => (s₀ m ρ).mem ((c : Dev nD), b)
/-- The same read at the TensorCore's references (what region 0's proof data take). -/
abbrev V0r : (c : Dev nD) → (b : Ref sig .tc) → Buf (Elt F) ((c : Thread nD τ).loc b) := fun c b => W0 m ρ c b
/-- At region 0's exit: its arrays at what the pipeline leaves (the inputs as entered, each output's write-backs
    folded), every other buffer as entered. -/
def W2 (c : Dev nD) : Valuation τ sig (Elt F) :=
  Pipeline.withArrays spec0 c (W0 m ρ c) fun w => (dat0 (V0r m ρ) c).arrAt w cfg0.N
theorem W2_arr (c : Dev nD) (w : Fin cfg0.W) :
    W2 m ρ c (Proc.devRef .tc (Pipeline.arrRef spec0 w)) = (dat0 (V0r m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
/-- The same read at the TensorCore's references (region 0's exit contents, region 1's entry). -/
abbrev V2 : (c : Dev nD) → (b : Ref sig .tc) → Buf (Elt F) ((c : Thread nD τ).loc b) := fun c b => W2 m ρ c b
/-- At region 0's exit each of its arrays holds what the pipeline leaves and every other buffer what it held at entry. -/
theorem hF0 (c : Dev nD) (w : Fin cfg0.W) : (dat0 (V0r m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V0r m ρ c b :=
  fun b hb => W2_of_ne m ρ c b fun w e => hb (Finset.mem_image.mpr ⟨w, Finset.mem_univ _, e⟩)

/-- At region 1's exit: its arrays at what the pipeline leaves, every other buffer as entered. -/
def W4 (c : Dev nD) : Valuation τ sig (Elt F) :=
  Pipeline.withArrays spec1 c (W2 m ρ c) fun w => (dat1 (V2 m ρ) c).arrAt w cfg1.N
theorem W4_arr (c : Dev nD) (w : Fin cfg1.W) :
    W4 m ρ c (Proc.devRef .tc (Pipeline.arrRef spec1 w)) = (dat1 (V2 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W2 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
theorem hF1 (c : Dev nD) (w : Fin cfg1.W) : (dat1 (V2 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V2 m ρ c b :=
  fun b hb => W4_of_ne m ρ c b fun w e => hb (Finset.mem_image.mpr ⟨w, Finset.mem_univ _, e⟩)

/-! ### The arguments end as launched: no region writes one (a region reads it through an input window or bypasses
    it), so the fold at an argument's buffer walks back to the launch memory -/

theorem W4_main_arg0 (c : Dev nD) : W4 m ρ c (Proc.devRef .tc main_arg0) = m ((c : Thread nD τ).loc main_arg0) :=
  calc W4 m ρ c (Proc.devRef .tc main_arg0)
    _ = W2 m ρ c (Proc.devRef .tc main_arg0) := W4_of_ne m ρ c main_arg0 (by decide)
    _ = W0 m ρ c (Proc.devRef .tc main_arg0) := (W2_arr m ρ c 0).trans (((dat0 (V0r m ρ) c).arrAt_in 0 rfl _).trans (A_eq0 (V0r m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W2 m ρ c (Proc.devRef .tc main_arg1) := W4_of_ne m ρ c main_arg1 (by decide)
    _ = W0 m ρ c (Proc.devRef .tc main_arg1) := (W2_arr m ρ c 1).trans (((dat0 (V0r m ρ) c).arrAt_in 1 rfl _).trans (A_eq0 (V0r m ρ) c 1))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W2 m ρ c (Proc.devRef .tc main_arg2) := W4_of_ne m ρ c main_arg2 (by decide)
    _ = W0 m ρ c (Proc.devRef .tc main_arg2) := (W2_arr m ρ c 2).trans (((dat0 (V0r m ρ) c).arrAt_in 2 rfl _).trans (A_eq0 (V0r m ρ) c 2))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W2 m ρ c (Proc.devRef .tc main_arg3) := W4_of_ne m ρ c main_arg3 (by decide)
    _ = W0 m ρ c (Proc.devRef .tc main_arg3) := (W2_arr m ρ c 3).trans (((dat0 (V0r m ρ) c).arrAt_in 3 rfl _).trans (A_eq0 (V0r m ρ) c 3))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W2 m ρ c (Proc.devRef .tc main_arg4) := W4_of_ne m ρ c main_arg4 (by decide)
    _ = W0 m ρ c (Proc.devRef .tc main_arg4) := (W2_arr m ρ c 4).trans (((dat0 (V0r m ρ) c).arrAt_in 4 rfl _).trans (A_eq0 (V0r m ρ) c 4))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W2 m ρ c (Proc.devRef .tc main_arg5) := W4_of_ne m ρ c main_arg5 (by decide)
    _ = W0 m ρ c (Proc.devRef .tc main_arg5) := (W2_arr m ρ c 5).trans (((dat0 (V0r m ρ) c).arrAt_in 5 rfl _).trans (A_eq0 (V0r m ρ) c 5))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W2 m ρ c (Proc.devRef .tc main_arg6) := W4_of_ne m ρ c main_arg6 (by decide)
    _ = W0 m ρ c (Proc.devRef .tc main_arg6) := (W2_arr m ρ c 6).trans (((dat0 (V0r m ρ) c).arrAt_in 6 rfl _).trans (A_eq0 (V0r m ρ) c 6))
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W2 m ρ c (Proc.devRef .tc main_arg7) := W4_of_ne m ρ c main_arg7 (by decide)
    _ = W0 m ρ c (Proc.devRef .tc main_arg7) := (W2_arr m ρ c 7).trans (((dat0 (V0r m ρ) c).arrAt_in 7 rfl _).trans (A_eq0 (V0r m ρ) c 7))
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W2 m ρ c (Proc.devRef .tc main_arg8) := W4_of_ne m ρ c main_arg8 (by decide)
    _ = W0 m ρ c (Proc.devRef .tc main_arg8) := (W2_arr m ρ c 8).trans (((dat0 (V0r m ρ) c).arrAt_in 8 rfl _).trans (A_eq0 (V0r m ρ) c 8))
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W2 m ρ c (Proc.devRef .tc main_arg9) := (W4_arr m ρ c 3).trans (((dat1 (V2 m ρ) c).arrAt_in 3 rfl _).trans (A_eq1 (V2 m ρ) c 3))
    _ = W0 m ρ c (Proc.devRef .tc main_arg9) := W2_of_ne m ρ c main_arg9 (by decide)
    _ = m ((c : Thread nD τ).loc main_arg9) := rfl

theorem W4_main_arg10 (c : Dev nD) : W4 m ρ c (Proc.devRef .tc main_arg10) = m ((c : Thread nD τ).loc main_arg10) :=
  calc W4 m ρ c (Proc.devRef .tc main_arg10)
    _ = W2 m ρ c (Proc.devRef .tc main_arg10) := (W4_arr m ρ c 4).trans (((dat1 (V2 m ρ) c).arrAt_in 4 rfl _).trans (A_eq1 (V2 m ρ) c 4))
    _ = W0 m ρ c (Proc.devRef .tc main_arg10) := W2_of_ne m ρ c main_arg10 (by decide)
    _ = m ((c : Thread nD τ).loc main_arg10) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0r m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W4`, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- REGION 0 over the thread state: entered from every unscoped buffer at `W0`, left at `W2`. Its arrays split
    out of the unscoped buffers and put back at the exit contents; the generator register into the pipeline's
    invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0r m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V0r m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0r m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W4`. Its arrays split
    out of the unscoped buffers and put back at the exit contents; the generator register into the pipeline's
    invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    have h := hin1 (V2 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (dat1 (V2 m ρ) c).Φ (Fin.last cfg1.N) from rfl]
    have h := hout1 (V2 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 2 segments in order: a region per kernel call. -/
abbrev segs : List (Pipeline.Seg (pcfgs (F := F)) adm (pdats m ρ) () defs₀ 𝒱₀ L lv) :=
  [ .region (reg0 m ρ),
    .region (reg1 m ρ) ]
/-- @main is the run of the segments. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and every final state holds every unscoped buffer at the last boundary's
    contents `W4`. -/
theorem run : θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every final state has the argument arrays as launched: each argument read off `W4`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c),
      (h c _ (mem_uc main_arg10 (by decide))).trans (W4_main_arg10 m ρ c)⟩) (run m ρ)

end Cert.Kernel.Hand

end
-- ==== Proof.KIR1Runs.lean ====
/-
  Region 1 (the attention call: grid 16 × 8, the second coordinate the key tile): what its three
  whole-body runs share. The body branches twice on the key-tile coordinate: at the first key tile it
  resets the three running buffers (the weighted sum, the running maximum, the running normaliser),
  at the last it divides, projects and stores the output block. So a point is in one of three cases:
  A (first key tile), B (an inner key tile), C (the last key tile). The conditions are decided over the
  128 points in closed form; the output window is idle (not stored, not written back) in cases A and B.
-/
import proofs.«160914_j72550587564439_2_alg».proof.Proof.Gen.KernelIdeal.Launch
import proofs.«160914_j72550587564439_2_alg».proof.Proof.Gen.KernelIdeal.Skeleton
import proofs.«160914_j72550587564439_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions -/

/-- The first branch: the key-tile coordinate is zero. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The second branch: the key-tile coordinate is the last one. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Away from the last key tile the output block is not stored, -/
theorem idleAt1_5 : ∀ t : Fin cfg1.N, ¬cond1_1 (grid1.coords t) → cfg1.idle 5 (grid1.coords t) = true := by decide +kernel
/-- nor written back; -/
theorem noFlush1_5 : ∀ t : Fin cfg1.N, ¬cond1_1 (grid1.coords t) → (cfg1.win 5).flush t = false := by decide +kernel
/-- at the last key tile it is stored. -/
theorem liveAt1_5 : ∀ t : Fin cfg1.N, cond1_1 (grid1.coords t) → cfg1.idle 5 (grid1.coords t) = false := by decide +kernel

/-! ## The memrefs the body is called with -/

abbrev VO1_5 : View sig .tc .vmem S1024x256 .f32 := (Memref.whole cc1_stg5_0 : Memref sig .tc .vmem S1024x256 .f32).view
abbrev ms1_0 (t : Fin cfg1.N) : Memref sig .tc .vmem S1024x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16384x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x256 .f32 := win1_5.stage (cfg1.slots t 5)
abbrev hs1_5 (t : Fin cfg1.N) : (ms1_5 t).IsWhole := hstage1_5 ((cfg1.slots t 5).cast nbuf1_5)
/-- The three running buffers: the weighted sum, the running maximum, the running normaliser. -/
abbrev scM1_0 : Memref sig .tc .vmem S1024x128 .f32 := Memref.whole cc1_scratch0
abbrev scM1_1 : Memref sig .tc .vmem S1024x1 .f32 := Memref.whole cc1_scratch1
abbrev scM1_2 : Memref sig .tc .vmem S1024x1 .f32 := Memref.whole cc1_scratch2
abbrev VS1_0 : View sig .tc .vmem S1024x128 .f32 := scM1_0.view
abbrev VS1_1 : View sig .tc .vmem S1024x1 .f32 := scM1_1.view
abbrev VS1_2 : View sig .tc .vmem S1024x1 .f32 := scM1_2.view

/-! ## The region invariant opened -/

/-- The scoped buffers of the other call, which this region never touches. -/
abbrev others1 : List (Ref sig .tc) := [cc0_stg0_0, cc0_stg0_1, cc0_stg1_0, cc0_stg1_1, cc0_stg2_0, cc0_stg2_1, cc0_stg3_0, cc0_stg4_0, cc0_stg5_0, cc0_stg6_0, cc0_stg7_0, cc0_stg8_0, cc0_stg9_0, cc0_stg9_1, cc0_stg10_0, cc0_stg10_1, cc0_stg11_0, cc0_stg11_1]

/-- Those buffers, each whole at some contents. -/
def otherBufs (c : Dev nD) : sProp 𝕄 :=
  bigSepL others1 fun b => iprop(∃ f : Buf (Elt F) ((c.tc : Thread nD τ).loc b), ((c.tc : Thread nD τ).loc b) ↦{fullShare} f)

/-- The class invariant with the three running buffers named: each at some contents, beside the other call's
    buffers and the generator register. -/
theorem PhiA1_eq (c : Dev nD) :
    (Pipeline.ΦA spec1 c : sProp 𝕄)
      = iprop(((∃ d, owns (c : Thread nD τ) scM1_0 fullShare d) ∗ (∃ d, owns (c : Thread nD τ) scM1_1 fullShare d)
          ∗ (∃ d, owns (c : Thread nD τ) scM1_2 fullShare d) ∗ otherBufs c) ∗ (∃ r, prngReg c r)) := by
  unfold Pipeline.ΦA otherBufs
  rw [Pipeline.scopedRest_eq_of_list spec1 c (cc1_scratch0 :: cc1_scratch1 :: cc1_scratch2 :: others1) (by decide) (by decide)]
  simp only [bigSepL_cons_cons, bigSepL_singleton, scM1_0, scM1_1, scM1_2, owns_whole]
  try rfl

end Cert.KernelIdeal.Hand

end
-- ==== Proof.KIR1RunA.lean ====
/-
  Region 1, case A: one whole run of the attention body, on whole buffers at given contents.
-/
import proofs.«160914_j72550587564439_2_alg».proof.Proof.KIR1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in case A (the first key tile: the three running buffers are reset before anything reads them, so they may hold anything on entry; the output block is not stored): on whole memrefs, the five inputs at their contents, the body runs to the
    continuation holding the inputs as they were and each buffer it stored into with its stores written, as pieces,
    last first. The pieces are the witness the run finds. -/
noncomputable def kernelRun1_A (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x128 .bf16) (x1 : Vec F S16384x128 .bf16) (x2 : Vec F S16384x128 .bf16) (x3 : Vec F S128x256 .f32) (x4 : Vec F S256 .f32) :
    Σ' (LS0 : List (View.Piece (Elt F) S1024x128 .f32)) (LS1 : List (View.Piece (Elt F) S1024x1 .f32)), { LS2 : List (View.Piece (Elt F) S1024x1 .f32) //
      ∀ (xi5 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10) K } := by
  refine ⟨?_, ?_, ?_, fun xi5 E K => ?run⟩
  case run =>
    simp only [cc1__attn_kernel_eq_skeleton]; unfold cc1__attn_kernel_skel
    simp only [k1_part1_eq_skeleton]
    unfold owns
    iintro ⟨⟨%fH0, %hfH0, H0⟩, ⟨%fH1, %hfH1, H1⟩, ⟨%fH2, %hfH2, H2⟩, ⟨%fH3, %hfH3, H3⟩, ⟨%fH4, %hfH4, H4⟩, ⟨%fH5, %hfH5, H5⟩, ⟨%dHS0, %fHS0, -, HS0⟩, ⟨%dHS1, %fHS1, -, HS1⟩, ⟨%dHS2, %fHS2, -, HS2⟩, Hk⟩
    obtain rfl := harg2.eq_unread hfH0; obtain rfl := harg3.eq_unread hfH1; obtain rfl := harg4.eq_unread hfH2; obtain rfl := harg5.eq_unread hfH3; obtain rfl := harg6.eq_unread hfH4; obtain rfl := harg7.eq_unread hfH5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; iexact HS0
    isplitl [HS1]
    · iexists _; iexact HS1
    iexists _; iexact HS2

end Cert.KernelIdeal.Hand

end
-- ==== Proof.KIR1RunB.lean ====
/-
  Region 1, case B: one whole run of the attention body, on whole buffers at given contents.
-/
import proofs.«160914_j72550587564439_2_alg».proof.Proof.KIR1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in case B (an inner key tile: the running buffers hold what the previous key tile left; the output block is not stored): on whole memrefs, the five inputs at their contents, the body runs to the
    continuation holding the inputs as they were and each buffer it stored into with its stores written, as pieces,
    last first. The pieces are the witness the run finds. -/
noncomputable def kernelRun1_B (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x128 .bf16) (x1 : Vec F S16384x128 .bf16) (x2 : Vec F S16384x128 .bf16) (x3 : Vec F S128x256 .f32) (x4 : Vec F S256 .f32) (xs0 : Vec F S1024x128 .f32) (xs1 : Vec F S1024x1 .f32) (xs2 : Vec F S1024x1 .f32) :
    Σ' (LS0 : List (View.Piece (Elt F) S1024x128 .f32)) (LS1 : List (View.Piece (Elt F) S1024x1 .f32)), { LS2 : List (View.Piece (Elt F) S1024x1 .f32) //
      ∀ (xi5 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10) K } := by
  refine ⟨?_, ?_, ?_, fun xi5 E K => ?run⟩
  case run =>
    simp only [cc1__attn_kernel_eq_skeleton]; unfold cc1__attn_kernel_skel
    simp only [k1_part1_eq_skeleton]
    unfold owns
    iintro ⟨⟨%fH0, %hfH0, H0⟩, ⟨%fH1, %hfH1, H1⟩, ⟨%fH2, %hfH2, H2⟩, ⟨%fH3, %hfH3, H3⟩, ⟨%fH4, %hfH4, H4⟩, ⟨%fH5, %hfH5, H5⟩, ⟨%fHS0, %hfHS0, HS0⟩, ⟨%fHS1, %hfHS1, HS1⟩, ⟨%fHS2, %hfHS2, HS2⟩, Hk⟩
    obtain rfl := harg2.eq_unread hfH0; obtain rfl := harg3.eq_unread hfH1; obtain rfl := harg4.eq_unread hfH2; obtain rfl := harg5.eq_unread hfH3; obtain rfl := harg6.eq_unread hfH4; obtain rfl := harg7.eq_unread hfH5; obtain rfl := harg8.eq_unread hfHS0; obtain rfl := harg9.eq_unread hfHS1; obtain rfl := harg10.eq_unread hfHS2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; iexact HS0
    isplitl [HS1]
    · iexists _; iexact HS1
    iexists _; iexact HS2

end Cert.KernelIdeal.Hand

end
-- ==== Proof.KIR1RunC.lean ====
/-
  Region 1, case C: one whole run of the attention body, on whole buffers at given contents.
-/
import proofs.«160914_j72550587564439_2_alg».proof.Proof.KIR1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in case C (the last key tile: the running buffers hold what the previous key tile left; the output block is stored): on whole memrefs, the five inputs at their contents, the body runs to the
    continuation holding the inputs as they were and each buffer it stored into with its stores written, as pieces,
    last first. The pieces are the witness the run finds. -/
noncomputable def kernelRun1_C (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x128 .bf16) (x1 : Vec F S16384x128 .bf16) (x2 : Vec F S16384x128 .bf16) (x3 : Vec F S128x256 .f32) (x4 : Vec F S256 .f32) (xs0 : Vec F S1024x128 .f32) (xs1 : Vec F S1024x1 .f32) (xs2 : Vec F S1024x1 .f32) :
    Σ' (L5 : List (View.Piece (Elt F) S1024x256 .f32)) (LS0 : List (View.Piece (Elt F) S1024x128 .f32)) (LS1 : List (View.Piece (Elt F) S1024x1 .f32)), { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%fH0, %hfH0, H0⟩, ⟨%fH1, %hfH1, H1⟩, ⟨%fH2, %hfH2, H2⟩, ⟨%fH3, %hfH3, H3⟩, ⟨%fH4, %hfH4, H4⟩, ⟨%dH5, %fH5, -, H5⟩, ⟨%fHS0, %hfHS0, HS0⟩, ⟨%fHS1, %hfHS1, HS1⟩, ⟨%fHS2, %hfHS2, HS2⟩, Hk⟩
    obtain rfl := harg2.eq_unread hfH0; obtain rfl := harg3.eq_unread hfH1; obtain rfl := harg4.eq_unread hfH2; obtain rfl := harg5.eq_unread hfH3; obtain rfl := harg6.eq_unread hfH4; obtain rfl := harg8.eq_unread hfHS0; obtain rfl := harg9.eq_unread hfHS1; obtain rfl := harg10.eq_unread hfHS2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [HS0]
    · iexists _; iexact HS0
    isplitl [HS1]
    · iexists _; iexact HS1
    iexists _; iexact HS2

end Cert.KernelIdeal.Hand

end
-- ==== Proof.KIR1.lean ====
/-
  Region 1 (the attention call), its proof data. After each grid point the output block's buffer and the three
  running buffers hold what that point's case leaves (`outsAt1`, by recursion on the point: a case that reads a
  running buffer reads what the point before left). The region invariant names the running buffers' contents from
  the second point on; the output window is idle away from the last key tile.
-/
import proofs.«160914_j72550587564439_2_alg».proof.Proof.KIR1RunA
import proofs.«160914_j72550587564439_2_alg».proof.Proof.KIR1RunB
import proofs.«160914_j72550587564439_2_alg».proof.Proof.KIR1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- Case A: the stores into running buffer 0 tile it, so they cover it. -/
theorem scover1_A_0 (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x128 .bf16) (x1 : Vec F S16384x128 .bf16) (x2 : Vec F S16384x128 .bf16) (x3 : Vec F S128x256 .f32) (x4 : Vec F S256 .f32) (y : S1024x128.Idx) :
    ∃ pc ∈ (kernelRun1_A c i arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4).1 S1024x128.size (by sl_kernel_rfl) y

/-- What case A leaves in running buffer 0: its stores read back. -/
def sout1_A_0 (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x128 .bf16) (x1 : Vec F S16384x128 .bf16) (x2 : Vec F S16384x128 .bf16) (x3 : Vec F S128x256 .f32) (x4 : Vec F S256 .f32) : Vec F S1024x128 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 hc0 hc1 x0 x1 x2 x3 x4).1)

/-- Case A: the stores into running buffer 1 tile it, so they cover it. -/
theorem scover1_A_1 (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x128 .bf16) (x1 : Vec F S16384x128 .bf16) (x2 : Vec F S16384x128 .bf16) (x3 : Vec F S128x256 .f32) (x4 : Vec F S256 .f32) (y : S1024x1.Idx) :
    ∃ pc ∈ (kernelRun1_A c i arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4).2.1 S1024x1.size (by sl_kernel_rfl) y

/-- What case A leaves in running buffer 1: its stores read back. -/
def sout1_A_1 (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x128 .bf16) (x1 : Vec F S16384x128 .bf16) (x2 : Vec F S16384x128 .bf16) (x3 : Vec F S128x256 .f32) (x4 : Vec F S256 .f32) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 hc0 hc1 x0 x1 x2 x3 x4).2.1)

/-- Case A: the stores into running buffer 2 tile it, so they cover it. -/
theorem scover1_A_2 (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x128 .bf16) (x1 : Vec F S16384x128 .bf16) (x2 : Vec F S16384x128 .bf16) (x3 : Vec F S128x256 .f32) (x4 : Vec F S256 .f32) (y : S1024x1.Idx) :
    ∃ pc ∈ (kernelRun1_A c i arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4).2.2.1 S1024x1.size (by sl_kernel_rfl) y

/-- What case A leaves in running buffer 2: its stores read back. -/
def sout1_A_2 (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x128 .bf16) (x1 : Vec F S16384x128 .bf16) (x2 : Vec F S16384x128 .bf16) (x3 : Vec F S128x256 .f32) (x4 : Vec F S256 .f32) : Vec F S1024x1 .f32 :=
  VS1_2.read (Elt F) (VS1_2.writes (Elt F) VS1_2.junk (kernelRun1_A c i arg2 harg2 arg3 harg3 arg4 harg4 arg5 harg5 arg6 harg6 arg7 harg7 arg8 harg8 arg9 harg9 arg10 harg10 hc0 hc1 x0 x1 x2 x3 x4).2.2.1)

/-- Case B: the stores into running buffer 0 tile it, so they cover it. -/
theorem scover1_B_0 (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x128 .bf16) (x1 : Vec F S16384x128 .bf16) (x2 : Vec F S16384x128 .bf16) (x3 : Vec F S128x256 .f32) (x4 : Vec F S256 .f32) (xs0 : Vec F S1024x128 .f32) (xs1 : Vec F S1024x1 .f32) (xs2 : Vec F S1024x1 .f32) (y : S1024x128.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0 xs1 xs2).1 S1024x128.size (by sl_kernel_rfl) y

/-- What case B leaves in running buffer 0: its stores read back. -/
def sout1_B_0 (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x128 .bf16) (x1 : Vec F S16384x128 .bf16) (x2 : Vec F S16384x128 .bf16) (x3 : Vec F S128x256 .f32) (x4 : Vec F S256 .f32) (xs0 : Vec F S1024x128 .f32) (xs1 : Vec F S1024x1 .f32) (xs2 : Vec F S1024x1 .f32) : Vec F S1024x128 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 hc0 hc1 x0 x1 x2 x3 x4 xs0 xs1 xs2).1)

/-- Case B: the stores into running buffer 1 tile it, so they cover it. -/
theorem scover1_B_1 (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x128 .bf16) (x1 : Vec F S16384x128 .bf16) (x2 : Vec F S16384x128 .bf16) (x3 : Vec F S128x256 .f32) (x4 : Vec F S256 .f32) (xs0 : Vec F S1024x128 .f32) (xs1 : Vec F S1024x1 .f32) (xs2 : Vec F S1024x1 .f32) (y : S1024x1.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0 xs1 xs2).2.1 S1024x1.size (by sl_kernel_rfl) y

/-- What case B leaves in running buffer 1: its stores read back. -/
def sout1_B_1 (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x128 .bf16) (x1 : Vec F S16384x128 .bf16) (x2 : Vec F S16384x128 .bf16) (x3 : Vec F S128x256 .f32) (x4 : Vec F S256 .f32) (xs0 : Vec F S1024x128 .f32) (xs1 : Vec F S1024x1 .f32) (xs2 : Vec F S1024x1 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 hc0 hc1 x0 x1 x2 x3 x4 xs0 xs1 xs2).2.1)

/-- Case B: the stores into running buffer 2 tile it, so they cover it. -/
theorem scover1_B_2 (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x128 .bf16) (x1 : Vec F S16384x128 .bf16) (x2 : Vec F S16384x128 .bf16) (x3 : Vec F S128x256 .f32) (x4 : Vec F S256 .f32) (xs0 : Vec F S1024x128 .f32) (xs1 : Vec F S1024x1 .f32) (xs2 : Vec F S1024x1 .f32) (y : S1024x1.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).2.2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0 xs1 xs2).2.2.1 S1024x1.size (by sl_kernel_rfl) y

/-- What case B leaves in running buffer 2: its stores read back. -/
def sout1_B_2 (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x128 .bf16) (x1 : Vec F S16384x128 .bf16) (x2 : Vec F S16384x128 .bf16) (x3 : Vec F S128x256 .f32) (x4 : Vec F S256 .f32) (xs0 : Vec F S1024x128 .f32) (xs1 : Vec F S1024x1 .f32) (xs2 : Vec F S1024x1 .f32) : Vec F S1024x1 .f32 :=
  VS1_2.read (Elt F) (VS1_2.writes (Elt F) VS1_2.junk (kernelRun1_B c i arg2 harg2 arg3 harg3 arg4 harg4 arg5 harg5 arg6 harg6 arg7 harg7 arg8 harg8 arg9 harg9 arg10 harg10 hc0 hc1 x0 x1 x2 x3 x4 xs0 xs1 xs2).2.2.1)

/-- Case C: the stores into running buffer 0 tile it, so they cover it. -/
theorem scover1_C_0 (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x128 .bf16) (x1 : Vec F S16384x128 .bf16) (x2 : Vec F S16384x128 .bf16) (x3 : Vec F S128x256 .f32) (x4 : Vec F S256 .f32) (xs0 : Vec F S1024x128 .f32) (xs1 : Vec F S1024x1 .f32) (xs2 : Vec F S1024x1 .f32) (y : S1024x128.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1 xs2).2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0 xs1 xs2).2.1 S1024x128.size (by sl_kernel_rfl) y

/-- What case C leaves in running buffer 0: its stores read back. -/
def sout1_C_0 (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x128 .bf16) (x1 : Vec F S16384x128 .bf16) (x2 : Vec F S16384x128 .bf16) (x3 : Vec F S128x256 .f32) (x4 : Vec F S256 .f32) (xs0 : Vec F S1024x128 .f32) (xs1 : Vec F S1024x1 .f32) (xs2 : Vec F S1024x1 .f32) : Vec F S1024x128 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 hc0 hc1 x0 x1 x2 x3 x4 xs0 xs1 xs2).2.1)

/-- Case C: the stores into running buffer 1 tile it, so they cover it. -/
theorem scover1_C_1 (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x128 .bf16) (x1 : Vec F S16384x128 .bf16) (x2 : Vec F S16384x128 .bf16) (x3 : Vec F S128x256 .f32) (x4 : Vec F S256 .f32) (xs0 : Vec F S1024x128 .f32) (xs1 : Vec F S1024x1 .f32) (xs2 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1 xs2).2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0 xs1 xs2).2.2.1 S1024x1.size (by sl_kernel_rfl) y

/-- What case C leaves in running buffer 1: its stores read back. -/
def sout1_C_1 (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x128 .bf16) (x1 : Vec F S16384x128 .bf16) (x2 : Vec F S16384x128 .bf16) (x3 : Vec F S128x256 .f32) (x4 : Vec F S256 .f32) (xs0 : Vec F S1024x128 .f32) (xs1 : Vec F S1024x1 .f32) (xs2 : Vec F S1024x1 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 hc0 hc1 x0 x1 x2 x3 x4 xs0 xs1 xs2).2.2.1)

/-- Case C: the stores into running buffer 2 tile it, so they cover it. -/
theorem scover1_C_2 (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x128 .bf16) (x1 : Vec F S16384x128 .bf16) (x2 : Vec F S16384x128 .bf16) (x3 : Vec F S128x256 .f32) (x4 : Vec F S256 .f32) (xs0 : Vec F S1024x128 .f32) (xs1 : Vec F S1024x1 .f32) (xs2 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1 xs2).2.2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0 xs1 xs2).2.2.2.1 S1024x1.size (by sl_kernel_rfl) y

/-- What case C leaves in running buffer 2: its stores read back. -/
def sout1_C_2 (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x128 .bf16) (x1 : Vec F S16384x128 .bf16) (x2 : Vec F S16384x128 .bf16) (x3 : Vec F S128x256 .f32) (x4 : Vec F S256 .f32) (xs0 : Vec F S1024x128 .f32) (xs1 : Vec F S1024x1 .f32) (xs2 : Vec F S1024x1 .f32) : Vec F S1024x1 .f32 :=
  VS1_2.read (Elt F) (VS1_2.writes (Elt F) VS1_2.junk (kernelRun1_C c i arg2 harg2 arg3 harg3 arg4 harg4 arg5 harg5 arg6 harg6 arg7 harg7 arg8 harg8 arg9 harg9 arg10 harg10 hc0 hc1 x0 x1 x2 x3 x4 xs0 xs1 xs2).2.2.2.1)

/-- Case C: the one store into the output block covers it. -/
theorem cover1_C_5 (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x128 .bf16) (x1 : Vec F S16384x128 .bf16) (x2 : Vec F S16384x128 .bf16) (x3 : Vec F S128x256 .f32) (x4 : Vec F S256 .f32) (xs0 : Vec F S1024x128 .f32) (xs1 : Vec F S1024x1 .f32) (xs2 : Vec F S1024x1 .f32) (y : S1024x256.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1 xs2).1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0 xs1 xs2).1 S1024x256.size (by sl_kernel_rfl) y

/-- What case C leaves in the output block's buffer. -/
def out1_C_5 (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x128 .bf16) (x1 : Vec F S16384x128 .bf16) (x2 : Vec F S16384x128 .bf16) (x3 : Vec F S128x256 .f32) (x4 : Vec F S256 .f32) (xs0 : Vec F S1024x128 .f32) (xs1 : Vec F S1024x1 .f32) (xs2 : Vec F S1024x1 .f32) : Vec F S1024x256 .f32 :=
  VO1_5.read (Elt F) (VO1_5.writes (Elt F) VO1_5.junk (kernelRun1_C c i arg2 harg2 arg3 harg3 arg4 harg4 arg5 harg5 arg6 harg6 arg7 harg7 arg8 harg8 arg9 harg9 arg10 harg10 hc0 hc1 x0 x1 x2 x3 x4 xs0 xs1 xs2).1)

/-! ## What the buffers hold after each point -/

/-- The output block's buffer and the three running buffers after a point of case A. -/
def outA (c : Dev nD) (t : Fin cfg1.N) (h0 : t.val % 8 = 0) (h1 : ¬t.val % 8 = 7) : (Vec F S1024x256 .f32 × Vec F S1024x128 .f32 × Vec F S1024x1 .f32 × Vec F S1024x1 .f32) :=
  ((VO1_5.read (Elt F) (VO1_5.writes (Elt F) VO1_5.junk [])), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t))
/-- … of case B, from what the point before left (`p`). -/
def outB (c : Dev nD) (t : Fin cfg1.N) (h0 : ¬t.val % 8 = 0) (h1 : ¬t.val % 8 = 7) (p : (Vec F S1024x256 .f32 × Vec F S1024x128 .f32 × Vec F S1024x1 .f32 × Vec F S1024x1 .f32)) : (Vec F S1024x256 .f32 × Vec F S1024x128 .f32 × Vec F S1024x1 .f32 × Vec F S1024x1 .f32) :=
  ((VO1_5.read (Elt F) (VO1_5.writes (Elt F) VO1_5.junk [])), sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.1 p.2.2.1 p.2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.1 p.2.2.1 p.2.2.2, sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.1 p.2.2.1 p.2.2.2)
/-- … of case C, from what the point before left (`p`). -/
def outC (c : Dev nD) (t : Fin cfg1.N) (h0 : ¬t.val % 8 = 0) (h1 : t.val % 8 = 7) (p : (Vec F S1024x256 .f32 × Vec F S1024x128 .f32 × Vec F S1024x1 .f32 × Vec F S1024x1 .f32)) : (Vec F S1024x256 .f32 × Vec F S1024x128 .f32 × Vec F S1024x1 .f32 × Vec F S1024x1 .f32) :=
  (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2, sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2)

/-- THE ACCUMULATION: what the four buffers hold after the body at position `n`. -/
def outsAt1 (c : Dev nD) : (n : ℕ) → n < cfg1.N → (Vec F S1024x256 .f32 × Vec F S1024x128 .f32 × Vec F S1024x1 .f32 × Vec F S1024x1 .f32)
  | 0, hn => outA V c ⟨0, hn⟩ (Nat.zero_mod _) (by show ¬(0 % 8 = 7); decide)
  | n + 1, hn =>
    if h0 : (n + 1) % 8 = 0 then outA V c ⟨n + 1, hn⟩ h0 (by show ¬((n + 1) % 8 = 7); omega)
    else if h1 : (n + 1) % 8 = 7 then outC V c ⟨n + 1, hn⟩ h0 h1 (outsAt1 c n (Nat.lt_of_succ_lt hn))
    else outB V c ⟨n + 1, hn⟩ h0 h1 (outsAt1 c n (Nat.lt_of_succ_lt hn))

theorem outsAt1_A (c : Dev nD) (t : Fin cfg1.N) (h0 : t.val % 8 = 0) (h1 : ¬t.val % 8 = 7) :
    outsAt1 V c t.val t.isLt = outA V c t h0 h1 := by
  obtain ⟨n, hn⟩ := t
  cases n with
  | zero => rfl
  | succ n => exact (dif_pos h0).trans rfl

theorem outsAt1_B (c : Dev nD) (t : Fin cfg1.N) (h0 : ¬t.val % 8 = 0) (h1 : ¬t.val % 8 = 7) :
    outsAt1 V c t.val t.isLt = outB V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = outC V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-! ## The region invariant -/

/-- Before the first point the class invariant (the running buffers at anything); afterwards the running buffers at
    what the point before left, beside the other call's buffers and the generator register. -/
def PhiS1 (c : Dev nD) : (n : ℕ) → n ≤ cfg1.N → sProp 𝕄
  | 0, _ => Pipeline.ΦA spec1 c
  | n + 1, hn => iprop((owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2 ∗ otherBufs c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2 ∗ otherBufs c) ∗ (∃ r, prngReg c r)) := rfl

theorem PhiS1_pos (c : Dev nD) (n : ℕ) (h : n ≤ cfg1.N) (hz : n ≠ 0) :
    PhiS1 V c n h = iprop((owns (c : Thread nD τ) scM1_0 fullShare (outsAt1 V c (n - 1) (by omega)).2.1 ∗ owns (c : Thread nD τ) scM1_1 fullShare (outsAt1 V c (n - 1) (by omega)).2.2.1
      ∗ owns (c : Thread nD τ) scM1_2 fullShare (outsAt1 V c (n - 1) (by omega)).2.2.2 ∗ otherBufs c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t ∗ (dat1 V c).leavesExact 4 t ∗ (dat1 V c).leavesExact 5 t)

set_option maxHeartbeats 8000000 in
/-- The body at any point: the closed forms of the two conditions say which case the point is in; the invariant hands the
    body the running buffers at what the point before left (at anything at the first point) and takes them back at this
    point's contents; the inputs' buffers hold their blocks; the output buffer is handed back untouched away from the
    last key tile. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 8 = 0
  · have h1 : ¬t.val % 8 = 7 := by omega
    rw [Dat.leavesExact_idle (dat1 V c) 5 t (idleAt1_5 t (fun h => h1 ((hcond1_1 t).mp h))) (noFlush1_5 t (fun h => h1 ((hcond1_1 t).mp h)))]
    rw [outsAt1_A V c t h0 h1]
    unfold outA sout1_A_0 sout1_A_1 sout1_A_2; (try dsimp only)
    by_cases hz : t.val = 0
    · rw [PhiS1_castSucc V c t, PhiS1_zero V c _ _ hz, PhiA1_eq]
      iintro ⟨⟨⟨HS0, HS1, HS2, Hoth⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 Hoth Hg]
      · isplitl [HS0 HS1 HS2 Hoth]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      iintro ⟨⟨⟨HS0, HS1, HS2, Hoth⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, ⟨%es0, HS0⟩, ⟨%es1, HS1⟩, ⟨%es2, HS2⟩⟩
      isplitl [HS0 HS1 HS2 Hoth Hg]
      · isplitl [HS0 HS1 HS2 Hoth]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun hz => h0 (by rw [hz])
    by_cases h1 : t.val % 8 = 7
    · rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold outC out1_C_5 sout1_C_0 sout1_C_1 sout1_C_2; (try dsimp only)
      rw [PhiS1_castSucc V c t, PhiS1_pos V c _ _ hz]
      iintro ⟨⟨⟨HS0, HS1, HS2, Hoth⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, ⟨%es0, HS0⟩, ⟨%es1, HS1⟩, ⟨%es2, HS2⟩⟩
      isplitl [HS0 HS1 HS2 Hoth Hg]
      · isplitl [HS0 HS1 HS2 Hoth]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_C_2 c _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _ _ _ _ _ _ _)
    · rw [Dat.leavesExact_idle (dat1 V c) 5 t (idleAt1_5 t (fun h => h1 ((hcond1_1 t).mp h))) (noFlush1_5 t (fun h => h1 ((hcond1_1 t).mp h)))]
      rw [outsAt1_B V c t h0 h1]
      unfold outB sout1_B_0 sout1_B_1 sout1_B_2; (try dsimp only)
      rw [PhiS1_castSucc V c t, PhiS1_pos V c _ _ hz]
      iintro ⟨⟨⟨HS0, HS1, HS2, Hoth⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 Hoth Hg]
      · isplitl [HS0 HS1 HS2 Hoth]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_B_2 c _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HS1, HS2, Hoth⟩, Hg⟩
  isplitl [HS0 HS1 HS2 Hoth]
  · isplitl [HS0]; · iexists _; iexact HS0
    isplitl [HS1]; · iexists _; iexact HS1
    isplitl [HS2]; · iexists _; iexact HS2
    iexact Hoth
  iexact Hg

theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Hand

end
-- ==== Proof.KIValue1a.lean ====
/-
  Region 1: what each case leaves in the running buffers and in the output block, as the body's arithmetic applied to
  the blocks it loads. The key and value tiles are the rows of the whole key / value arrays from the key tile's offset.
-/
import proofs.«160914_j72550587564439_2_alg».proof.Proof.KIR1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz1 : (![0] : Fin 1 → Nat) = fun _ => 0 := funext fun a => by fin_cases a <;> rfl

/-- The rows of the current key tile inside the whole key (or value) array. -/
abbrev rK (i : grid1.Coords) : Rect S16384x128 := Rect.unit (s := S16384x128) (k1_off1 i) S2048x128.size (k1_off1_inb i)

theorem sout1_A_0_eq (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x128 .bf16) (x1 : Vec F S16384x128 .bf16) (x2 : Vec F S16384x128 .bf16) (x3 : Vec F S128x256 .f32) (x4 : Vec F S256 .f32) :
    sout1_A_0 c i arg2 harg2 arg3 harg3 arg4 harg4 arg5 harg5 arg6 harg6 arg7 harg7 arg8 harg8 arg9 harg9 arg10 harg10 hc0 hc1 x0 x1 x2 x3 x4 = k1_pay1 (k1_pay7 (View.ld x2 (rK i))) (k1_pay10 (View.ld x1 (rK i)) x0 (k1_pay5 (F := F)) (k1_pay5 (F := F))) (k1_pay11 (View.ld x1 (rK i)) x0 (k1_pay5 (F := F))) (k1_pay4 (F := F)) := by
  unfold sout1_A_0
  rw [View.read_writes_eq_canon _ _ _ (scover1_A_0 c i arg2 harg2 arg3 harg3 arg4 harg4 arg5 harg5 arg6 harg6 arg7 harg7 arg8 harg8 arg9 harg9 arg10 harg10 hc0 hc1 x0 x1 x2 x3 x4)]
  unfold kernelRun1_A
  dsimp only
  sl_unfold_run_names
  first
    | rw [View.canon_unit_zero hz2]
    | rw [View.canon_cons_unit_zero (S := S1024x128) hz2]
  simp only [View.readAt_eq_ld, harg2.read_unread, harg3.read_unread, harg4.read_unread, harg5.read_unread, harg6.read_unread, harg7.read_unread, harg8.read_unread, harg9.read_unread, harg10.read_unread, View.ld_unit_zero (S := S1024x128) hz2, View.ld_unit_zero (S := S1024x1) hz2, View.ld_unit_zero (S := S128x256) hz2, View.ld_unit_zero (S := S256) hz1,
    View.readCov_unit_zero (S := S1024x128) _ hz2, View.readCov_unit_zero (S := S1024x1) _ hz2]
  try rfl

theorem sout1_A_1_eq (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x128 .bf16) (x1 : Vec F S16384x128 .bf16) (x2 : Vec F S16384x128 .bf16) (x3 : Vec F S128x256 .f32) (x4 : Vec F S256 .f32) :
    sout1_A_1 c i arg2 harg2 arg3 harg3 arg4 harg4 arg5 harg5 arg6 harg6 arg7 harg7 arg8 harg8 arg9 harg9 arg10 harg10 hc0 hc1 x0 x1 x2 x3 x4 = k1_pay2 (k1_pay9 (View.ld x1 (rK i)) x0 (k1_pay5 (F := F))) := by
  unfold sout1_A_1
  rw [View.read_writes_eq_canon _ _ _ (scover1_A_1 c i arg2 harg2 arg3 harg3 arg4 harg4 arg5 harg5 arg6 harg6 arg7 harg7 arg8 harg8 arg9 harg9 arg10 harg10 hc0 hc1 x0 x1 x2 x3 x4)]
  unfold kernelRun1_A
  dsimp only
  sl_unfold_run_names
  first
    | rw [View.canon_unit_zero hz2]
    | rw [View.canon_cons_unit_zero (S := S1024x1) hz2]
  simp only [View.readAt_eq_ld, harg2.read_unread, harg3.read_unread, harg4.read_unread, harg5.read_unread, harg6.read_unread, harg7.read_unread, harg8.read_unread, harg9.read_unread, harg10.read_unread, View.ld_unit_zero (S := S1024x128) hz2, View.ld_unit_zero (S := S1024x1) hz2, View.ld_unit_zero (S := S128x256) hz2, View.ld_unit_zero (S := S256) hz1,
    View.readCov_unit_zero (S := S1024x128) _ hz2, View.readCov_unit_zero (S := S1024x1) _ hz2]
  try rfl

theorem sout1_A_2_eq (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x128 .bf16) (x1 : Vec F S16384x128 .bf16) (x2 : Vec F S16384x128 .bf16) (x3 : Vec F S128x256 .f32) (x4 : Vec F S256 .f32) :
    sout1_A_2 c i arg2 harg2 arg3 harg3 arg4 harg4 arg5 harg5 arg6 harg6 arg7 harg7 arg8 harg8 arg9 harg9 arg10 harg10 hc0 hc1 x0 x1 x2 x3 x4 = k1_pay12 (View.ld x1 (rK i)) x0 (k1_pay5 (F := F)) (k1_pay5 (F := F)) (k1_pay6 (F := F)) := by
  unfold sout1_A_2
  rw [View.read_writes_eq_canon _ _ _ (scover1_A_2 c i arg2 harg2 arg3 harg3 arg4 harg4 arg5 harg5 arg6 harg6 arg7 harg7 arg8 harg8 arg9 harg9 arg10 harg10 hc0 hc1 x0 x1 x2 x3 x4)]
  unfold kernelRun1_A
  dsimp only
  sl_unfold_run_names
  first
    | rw [View.canon_unit_zero hz2]
    | rw [View.canon_cons_unit_zero (S := S1024x1) hz2]
  simp only [View.readAt_eq_ld, harg2.read_unread, harg3.read_unread, harg4.read_unread, harg5.read_unread, harg6.read_unread, harg7.read_unread, harg8.read_unread, harg9.read_unread, harg10.read_unread, View.ld_unit_zero (S := S1024x128) hz2, View.ld_unit_zero (S := S1024x1) hz2, View.ld_unit_zero (S := S128x256) hz2, View.ld_unit_zero (S := S256) hz1,
    View.readCov_unit_zero (S := S1024x128) _ hz2, View.readCov_unit_zero (S := S1024x1) _ hz2]
  try rfl

theorem sout1_B_0_eq (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x128 .bf16) (x1 : Vec F S16384x128 .bf16) (x2 : Vec F S16384x128 .bf16) (x3 : Vec F S128x256 .f32) (x4 : Vec F S256 .f32) (xs0 : Vec F S1024x128 .f32) (xs1 : Vec F S1024x1 .f32) (xs2 : Vec F S1024x1 .f32) :
    sout1_B_0 c i arg2 harg2 arg3 harg3 arg4 harg4 arg5 harg5 arg6 harg6 arg7 harg7 arg8 harg8 arg9 harg9 arg10 harg10 hc0 hc1 x0 x1 x2 x3 x4 xs0 xs1 xs2 = k1_pay1 (k1_pay7 (View.ld x2 (rK i))) (k1_pay10 (View.ld x1 (rK i)) x0 xs1 xs1) (k1_pay11 (View.ld x1 (rK i)) x0 xs1) xs0 := by
  unfold sout1_B_0
  rw [View.read_writes_eq_canon _ _ _ (scover1_B_0 c i arg2 harg2 arg3 harg3 arg4 harg4 arg5 harg5 arg6 harg6 arg7 harg7 arg8 harg8 arg9 harg9 arg10 harg10 hc0 hc1 x0 x1 x2 x3 x4 xs0 xs1 xs2)]
  unfold kernelRun1_B
  dsimp only
  sl_unfold_run_names
  first
    | rw [View.canon_unit_zero hz2]
    | rw [View.canon_cons_unit_zero (S := S1024x128) hz2]
  simp only [View.readAt_eq_ld, harg2.read_unread, harg3.read_unread, harg4.read_unread, harg5.read_unread, harg6.read_unread, harg7.read_unread, harg8.read_unread, harg9.read_unread, harg10.read_unread, View.ld_unit_zero (S := S1024x128) hz2, View.ld_unit_zero (S := S1024x1) hz2, View.ld_unit_zero (S := S128x256) hz2, View.ld_unit_zero (S := S256) hz1,
    View.readCov_unit_zero (S := S1024x128) _ hz2, View.readCov_unit_zero (S := S1024x1) _ hz2]
  try rfl

theorem sout1_B_1_eq (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x128 .bf16) (x1 : Vec F S16384x128 .bf16) (x2 : Vec F S16384x128 .bf16) (x3 : Vec F S128x256 .f32) (x4 : Vec F S256 .f32) (xs0 : Vec F S1024x128 .f32) (xs1 : Vec F S1024x1 .f32) (xs2 : Vec F S1024x1 .f32) :
    sout1_B_1 c i arg2 harg2 arg3 harg3 arg4 harg4 arg5 harg5 arg6 harg6 arg7 harg7 arg8 harg8 arg9 harg9 arg10 harg10 hc0 hc1 x0 x1 x2 x3 x4 xs0 xs1 xs2 = k1_pay2 (k1_pay9 (View.ld x1 (rK i)) x0 xs1) := by
  unfold sout1_B_1
  rw [View.read_writes_eq_canon _ _ _ (scover1_B_1 c i arg2 harg2 arg3 harg3 arg4 harg4 arg5 harg5 arg6 harg6 arg7 harg7 arg8 harg8 arg9 harg9 arg10 harg10 hc0 hc1 x0 x1 x2 x3 x4 xs0 xs1 xs2)]
  unfold kernelRun1_B
  dsimp only
  sl_unfold_run_names
  first
    | rw [View.canon_unit_zero hz2]
    | rw [View.canon_cons_unit_zero (S := S1024x1) hz2]
  simp only [View.readAt_eq_ld, harg2.read_unread, harg3.read_unread, harg4.read_unread, harg5.read_unread, harg6.read_unread, harg7.read_unread, harg8.read_unread, harg9.read_unread, harg10.read_unread, View.ld_unit_zero (S := S1024x128) hz2, View.ld_unit_zero (S := S1024x1) hz2, View.ld_unit_zero (S := S128x256) hz2, View.ld_unit_zero (S := S256) hz1,
    View.readCov_unit_zero (S := S1024x128) _ hz2, View.readCov_unit_zero (S := S1024x1) _ hz2]
  try rfl

theorem sout1_B_2_eq (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x128 .bf16) (x1 : Vec F S16384x128 .bf16) (x2 : Vec F S16384x128 .bf16) (x3 : Vec F S128x256 .f32) (x4 : Vec F S256 .f32) (xs0 : Vec F S1024x128 .f32) (xs1 : Vec F S1024x1 .f32) (xs2 : Vec F S1024x1 .f32) :
    sout1_B_2 c i arg2 harg2 arg3 harg3 arg4 harg4 arg5 harg5 arg6 harg6 arg7 harg7 arg8 harg8 arg9 harg9 arg10 harg10 hc0 hc1 x0 x1 x2 x3 x4 xs0 xs1 xs2 = k1_pay12 (View.ld x1 (rK i)) x0 xs1 xs1 xs2 := by
  unfold sout1_B_2
  rw [View.read_writes_eq_canon _ _ _ (scover1_B_2 c i arg2 harg2 arg3 harg3 arg4 harg4 arg5 harg5 arg6 harg6 arg7 harg7 arg8 harg8 arg9 harg9 arg10 harg10 hc0 hc1 x0 x1 x2 x3 x4 xs0 xs1 xs2)]
  unfold kernelRun1_B
  dsimp only
  sl_unfold_run_names
  first
    | rw [View.canon_unit_zero hz2]
    | rw [View.canon_cons_unit_zero (S := S1024x1) hz2]
  simp only [View.readAt_eq_ld, harg2.read_unread, harg3.read_unread, harg4.read_unread, harg5.read_unread, harg6.read_unread, harg7.read_unread, harg8.read_unread, harg9.read_unread, harg10.read_unread, View.ld_unit_zero (S := S1024x128) hz2, View.ld_unit_zero (S := S1024x1) hz2, View.ld_unit_zero (S := S128x256) hz2, View.ld_unit_zero (S := S256) hz1,
    View.readCov_unit_zero (S := S1024x128) _ hz2, View.readCov_unit_zero (S := S1024x1) _ hz2]
  try rfl

theorem sout1_C_0_eq (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x128 .bf16) (x1 : Vec F S16384x128 .bf16) (x2 : Vec F S16384x128 .bf16) (x3 : Vec F S128x256 .f32) (x4 : Vec F S256 .f32) (xs0 : Vec F S1024x128 .f32) (xs1 : Vec F S1024x1 .f32) (xs2 : Vec F S1024x1 .f32) :
    sout1_C_0 c i arg2 harg2 arg3 harg3 arg4 harg4 arg5 harg5 arg6 harg6 arg7 harg7 arg8 harg8 arg9 harg9 arg10 harg10 hc0 hc1 x0 x1 x2 x3 x4 xs0 xs1 xs2 = k1_pay1 (k1_pay7 (View.ld x2 (rK i))) (k1_pay10 (View.ld x1 (rK i)) x0 xs1 xs1) (k1_pay11 (View.ld x1 (rK i)) x0 xs1) xs0 := by
  unfold sout1_C_0
  rw [View.read_writes_eq_canon _ _ _ (scover1_C_0 c i arg2 harg2 arg3 harg3 arg4 harg4 arg5 harg5 arg6 harg6 arg7 harg7 arg8 harg8 arg9 harg9 arg10 harg10 hc0 hc1 x0 x1 x2 x3 x4 xs0 xs1 xs2)]
  unfold kernelRun1_C
  dsimp only
  sl_unfold_run_names
  first
    | rw [View.canon_unit_zero hz2]
    | rw [View.canon_cons_unit_zero (S := S1024x128) hz2]
  simp only [View.readAt_eq_ld, harg2.read_unread, harg3.read_unread, harg4.read_unread, harg5.read_unread, harg6.read_unread, harg7.read_unread, harg8.read_unread, harg9.read_unread, harg10.read_unread, View.ld_unit_zero (S := S1024x128) hz2, View.ld_unit_zero (S := S1024x1) hz2, View.ld_unit_zero (S := S128x256) hz2, View.ld_unit_zero (S := S256) hz1,
    View.readCov_unit_zero (S := S1024x128) _ hz2, View.readCov_unit_zero (S := S1024x1) _ hz2]
  try rfl

theorem sout1_C_1_eq (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x128 .bf16) (x1 : Vec F S16384x128 .bf16) (x2 : Vec F S16384x128 .bf16) (x3 : Vec F S128x256 .f32) (x4 : Vec F S256 .f32) (xs0 : Vec F S1024x128 .f32) (xs1 : Vec F S1024x1 .f32) (xs2 : Vec F S1024x1 .f32) :
    sout1_C_1 c i arg2 harg2 arg3 harg3 arg4 harg4 arg5 harg5 arg6 harg6 arg7 harg7 arg8 harg8 arg9 harg9 arg10 harg10 hc0 hc1 x0 x1 x2 x3 x4 xs0 xs1 xs2 = k1_pay2 (k1_pay9 (View.ld x1 (rK i)) x0 xs1) := by
  unfold sout1_C_1
  rw [View.read_writes_eq_canon _ _ _ (scover1_C_1 c i arg2 harg2 arg3 harg3 arg4 harg4 arg5 harg5 arg6 harg6 arg7 harg7 arg8 harg8 arg9 harg9 arg10 harg10 hc0 hc1 x0 x1 x2 x3 x4 xs0 xs1 xs2)]
  unfold kernelRun1_C
  dsimp only
  sl_unfold_run_names
  first
    | rw [View.canon_unit_zero hz2]
    | rw [View.canon_cons_unit_zero (S := S1024x1) hz2]
  simp only [View.readAt_eq_ld, harg2.read_unread, harg3.read_unread, harg4.read_unread, harg5.read_unread, harg6.read_unread, harg7.read_unread, harg8.read_unread, harg9.read_unread, harg10.read_unread, View.ld_unit_zero (S := S1024x128) hz2, View.ld_unit_zero (S := S1024x1) hz2, View.ld_unit_zero (S := S128x256) hz2, View.ld_unit_zero (S := S256) hz1,
    View.readCov_unit_zero (S := S1024x128) _ hz2, View.readCov_unit_zero (S := S1024x1) _ hz2]
  try rfl

theorem sout1_C_2_eq (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x128 .bf16) (x1 : Vec F S16384x128 .bf16) (x2 : Vec F S16384x128 .bf16) (x3 : Vec F S128x256 .f32) (x4 : Vec F S256 .f32) (xs0 : Vec F S1024x128 .f32) (xs1 : Vec F S1024x1 .f32) (xs2 : Vec F S1024x1 .f32) :
    sout1_C_2 c i arg2 harg2 arg3 harg3 arg4 harg4 arg5 harg5 arg6 harg6 arg7 harg7 arg8 harg8 arg9 harg9 arg10 harg10 hc0 hc1 x0 x1 x2 x3 x4 xs0 xs1 xs2 = k1_pay12 (View.ld x1 (rK i)) x0 xs1 xs1 xs2 := by
  unfold sout1_C_2
  rw [View.read_writes_eq_canon _ _ _ (scover1_C_2 c i arg2 harg2 arg3 harg3 arg4 harg4 arg5 harg5 arg6 harg6 arg7 harg7 arg8 harg8 arg9 harg9 arg10 harg10 hc0 hc1 x0 x1 x2 x3 x4 xs0 xs1 xs2)]
  unfold kernelRun1_C
  dsimp only
  sl_unfold_run_names
  first
    | rw [View.canon_unit_zero hz2]
    | rw [View.canon_cons_unit_zero (S := S1024x1) hz2]
  simp only [View.readAt_eq_ld, harg2.read_unread, harg3.read_unread, harg4.read_unread, harg5.read_unread, harg6.read_unread, harg7.read_unread, harg8.read_unread, harg9.read_unread, harg10.read_unread, View.ld_unit_zero (S := S1024x128) hz2, View.ld_unit_zero (S := S1024x1) hz2, View.ld_unit_zero (S := S128x256) hz2, View.ld_unit_zero (S := S256) hz1,
    View.readCov_unit_zero (S := S1024x128) _ hz2, View.readCov_unit_zero (S := S1024x1) _ hz2]
  try rfl

theorem out1_C_5_eq (c : Dev nD) (i : grid1.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x256 .f32) (harg5 : arg5.IsWhole) (arg6 : Memref sig .tc .vmem S256 .f32) (harg6 : arg6.IsWhole) (arg7 : Memref sig .tc .vmem S1024x256 .f32) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x128 .bf16) (x1 : Vec F S16384x128 .bf16) (x2 : Vec F S16384x128 .bf16) (x3 : Vec F S128x256 .f32) (x4 : Vec F S256 .f32) (xs0 : Vec F S1024x128 .f32) (xs1 : Vec F S1024x1 .f32) (xs2 : Vec F S1024x1 .f32) :
    out1_C_5 c i arg2 harg2 arg3 harg3 arg4 harg4 arg5 harg5 arg6 harg6 arg7 harg7 arg8 harg8 arg9 harg9 arg10 harg10 hc0 hc1 x0 x1 x2 x3 x4 xs0 xs1 xs2 = k1_pay3 (k1_pay1 (k1_pay7 (View.ld x2 (rK i))) (k1_pay10 (View.ld x1 (rK i)) x0 xs1 xs1) (k1_pay11 (View.ld x1 (rK i)) x0 xs1) xs0) (k1_pay12 (View.ld x1 (rK i)) x0 xs1 xs1 xs2) x3 x4 := by
  unfold out1_C_5
  rw [View.read_writes_eq_canon _ _ _ (cover1_C_5 c i arg2 harg2 arg3 harg3 arg4 harg4 arg5 harg5 arg6 harg6 arg7 harg7 arg8 harg8 arg9 harg9 arg10 harg10 hc0 hc1 x0 x1 x2 x3 x4 xs0 xs1 xs2)]
  unfold kernelRun1_C
  dsimp only
  sl_unfold_run_names
  first
    | rw [View.canon_unit_zero hz2]
    | rw [View.canon_cons_unit_zero (S := S1024x256) hz2]
  simp only [View.readAt_eq_ld, harg2.read_unread, harg3.read_unread, harg4.read_unread, harg5.read_unread, harg6.read_unread, harg7.read_unread, harg8.read_unread, harg9.read_unread, harg10.read_unread, View.ld_unit_zero (S := S1024x128) hz2, View.ld_unit_zero (S := S1024x1) hz2, View.ld_unit_zero (S := S128x256) hz2, View.ld_unit_zero (S := S256) hz1,
    View.readCov_unit_zero (S := S1024x128) _ hz2, View.readCov_unit_zero (S := S1024x1) _ hz2]
  try rfl

end Cert.KernelIdeal.Hand

end
-- ==== Proof.KIValue1b.lean ====
/-
  Region 1 at the extended reals: where the blocks the body loads sit in the arrays. The query block of grid point
  (a, k) is rows 1024·a … of the query array; the key and value arrays are staged whole and the body reads rows
  2048·k … of them; the output block is rows 1024·a … of the result.
-/
import proofs.«160914_j72550587564439_2_alg».proof.Proof.KIValue1a
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## The index maps, decided over the grid -/

theorem idx1_0 : ∀ t : Fin cfg1.N, win1_0.index t (0 : Fin 2) = t.val / 8 ∧ win1_0.index t (1 : Fin 2) = 0 :=
  (by decide +kernel : ∀ t : Fin grid1.N, win1_0.index t (0 : Fin 2) = t.val / 8 ∧ win1_0.index t (1 : Fin 2) = 0)
theorem idx1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
theorem idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem idx1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem idx1_4 : ∀ t : Fin cfg1.N, win1_4.index t (0 : Fin 1) = 0 :=
  (by decide +kernel : ∀ t : Fin grid1.N, win1_4.index t (0 : Fin 1) = 0)
theorem idx1_5 : ∀ t : Fin cfg1.N, win1_5.index t (0 : Fin 2) = t.val / 8 ∧ win1_5.index t (1 : Fin 2) = 0 :=
  (by decide +kernel : ∀ t : Fin grid1.N, win1_5.index t (0 : Fin 2) = t.val / 8 ∧ win1_5.index t (1 : Fin 2) = 0)
/-- The key-tile coordinate of a point. -/
theorem coord1_1 : ∀ t : Fin cfg1.N, ((grid1.coords t) 1).val = t.val % 8 :=
  (by decide +kernel : ∀ t : Fin grid1.N, ((grid1.coords t) 1).val = t.val % 8)

variable {F : FTy → Type} [FloatOps F]
variable (V : (c : Dev nD) → (b : Ref sig .tc) → Buf (Elt F) ((c : Thread nD τ).loc b)) (c : Dev nD)

/-! ## The blocks read off the arrays -/

/-- The query block at a point is rows `1024 · (t / 8) + ·` of the query array. -/
theorem iblk1_0_apply (t : Fin cfg1.N) (y : S1024x128.Idx) (i : S16384x128.Idx)
    (h0 : (i 0).val = t.val / 8 * 1024 + (y 0).val) (h1 : (i 1).val = (y 1).val) :
    iblk1 V c 0 t y = V c main_v0_0 i := by
  show V c main_v0_0 (((cfg1.win 0).blk t).view.emb y) = V c main_v0_0 i
  refine congrArg _ (funext fun a => Fin.ext ?_)
  match a with
  | ⟨0, _⟩ =>
    show win1_0.index t 0 * 1024 + 1 * (y 0).val = (i 0).val
    rw [(idx1_0 t).1, h0]; omega
  | ⟨1, _⟩ =>
    show win1_0.index t 1 * 128 + 1 * (y 1).val = (i 1).val
    rw [(idx1_0 t).2, h1]; omega

/-- The key array is staged whole. -/
theorem iblk1_1_apply (t : Fin cfg1.N) (y : S16384x128.Idx) : iblk1 V c 1 t y = V c main_v0_1 y := by
  show V c main_v0_1 (((cfg1.win 1).blk t).view.emb y) = V c main_v0_1 y
  refine congrArg _ (funext fun a => Fin.ext ?_)
  match a with
  | ⟨0, _⟩ =>
    show win1_1.index t 0 * 16384 + 1 * (y 0).val = (y 0).val
    rw [(idx1_1 t).1]; omega
  | ⟨1, _⟩ =>
    show win1_1.index t 1 * 128 + 1 * (y 1).val = (y 1).val
    rw [(idx1_1 t).2]; omega

/-- The value array is staged whole. -/
theorem iblk1_2_apply (t : Fin cfg1.N) (y : S16384x128.Idx) : iblk1 V c 2 t y = V c main_v0_2 y := by
  show V c main_v0_2 (((cfg1.win 2).blk t).view.emb y) = V c main_v0_2 y
  refine congrArg _ (funext fun a => Fin.ext ?_)
  match a with
  | ⟨0, _⟩ =>
    show win1_2.index t 0 * 16384 + 1 * (y 0).val = (y 0).val
    rw [(idx1_2 t).1]; omega
  | ⟨1, _⟩ =>
    show win1_2.index t 1 * 128 + 1 * (y 1).val = (y 1).val
    rw [(idx1_2 t).2]; omega

/-- The output weights are staged whole. -/
theorem iblk1_3_apply (t : Fin cfg1.N) (y : S128x256.Idx) : iblk1 V c 3 t y = V c main_arg9 y := by
  show V c main_arg9 (((cfg1.win 3).blk t).view.emb y) = V c main_arg9 y
  refine congrArg _ (funext fun a => Fin.ext ?_)
  match a with
  | ⟨0, _⟩ =>
    show win1_3.index t 0 * 128 + 1 * (y 0).val = (y 0).val
    rw [(idx1_3 t).1]; omega
  | ⟨1, _⟩ =>
    show win1_3.index t 1 * 256 + 1 * (y 1).val = (y 1).val
    rw [(idx1_3 t).2]; omega

/-- The output bias is staged whole. -/
theorem iblk1_4_apply (t : Fin cfg1.N) (y : S256.Idx) : iblk1 V c 4 t y = V c main_arg10 y := by
  show V c main_arg10 (((cfg1.win 4).blk t).view.emb y) = V c main_arg10 y
  refine congrArg _ (funext fun a => Fin.ext ?_)
  match a with
  | ⟨0, _⟩ =>
    show win1_4.index t 0 * 256 + 1 * (y 0).val = (y 0).val
    rw [idx1_4 t]; omega

/-- The key tile of a point inside the whole key (or value) array: rows `2048 · k + ·`. -/
theorem ldK_apply (x : Vec F S16384x128 .bf16) (i : grid1.Coords) (y : S2048x128.Idx) (q : S16384x128.Idx)
    (h0 : (q 0).val = 2048 * (i 1).val + (y 0).val) (h1 : (q 1).val = (y 1).val) :
    View.ld x (rK i) y = x q := by
  show x ((rK i).idx y) = x q
  refine congrArg _ (funext fun a => Fin.ext ?_)
  match a with
  | ⟨0, _⟩ =>
    show k1_off1 i 0 + 1 * (y 0).val = (q 0).val
    rw [k1_off1_eq i, h0]; show 2048 * (i 1).val + 1 * (y 0).val = _; omega
  | ⟨1, _⟩ =>
    show k1_off1 i 1 + 1 * (y 1).val = (q 1).val
    rw [k1_off1_eq i, h1]; show 0 + 1 * (y 1).val = _; omega

end Cert.KernelIdeal.Hand

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibSlabLayout.lean ====
/-
  Reusable lemmas: an [a, b] array of rows and an [a, b, c] array of slabs read at an entry.

  A kernel that treats each of a blocks separately reduces along the middle axis of an [a, b, c] array (a sum over the b
  rows of every slab, leaving [a, c]) and along the rows of an [a, b] array (a sum or a running maximum over b, leaving
  [a]), and lays an [a, b] array along a new trailing axis ([a, b] → [a, b, 1] → [a, b, c]).  Each lemma reads one such
  operation at an entry written by its coordinates; the sums are over the extended reals.  Generic in the extents.
-/
import Idealize.ShloMosaic.Lib.Pipeline.Value
import Idealize.ShloMosaic.Lib.ValueIdx
import Idealize.ShloMosaic.PureOps.Ideal.Laws

noncomputable section

namespace Cert.SlabLayout

open Idealize.ShloMosaic Idealize.ShloMosaic.ValueIdx

variable {α : Type} {a b c : ℕ}

/-- An [a, b] array viewed [a, b, 1] reads, at (i, k, u), the operand at (i, k). -/
theorem shapeCast_ab_ab1_apply (x : (⟨2, ![a, b]⟩ : Shape).Idx → α)
    (h : (⟨2, ![a, b]⟩ : Shape).ShapeCasts ⟨3, ![a, b, 1]⟩) (i : Fin a) (k : Fin b) (u : Fin 1) :
    shapeCast ⟨3, ![a, b, 1]⟩ x h (ix3 i k u) = x (ix2 i k) :=
  shapeCast_apply x h _ _ (by
    have hu : u.val = 0 := by omega
    rw [Shape.rowMajor_val_three, Shape.rowMajor_val_two]
    show i.val * b + k.val = (i.val * b + k.val) * 1 + u.val
    rw [hu, Nat.mul_one, Nat.add_zero])

/-- An [a, b, 1] array broadcast to [a, b, c] reads, at (i, k, j), the operand at (i, k, 0). -/
theorem broadcastTo_ab1_abc_apply (x : (⟨3, ![a, b, 1]⟩ : Shape).Idx → α)
    (h : (⟨3, ![a, b, 1]⟩ : Shape).Broadcasts ⟨3, ![a, b, c]⟩) (i : Fin a) (k : Fin b) (j : Fin c) :
    broadcastTo ⟨3, ![a, b, c]⟩ x h (ix3 i k j) = x (ix3 i k (0 : Fin 1)) := by
  refine broadcastTo_apply x h (ix3 i k j) (ix3 i k (0 : Fin 1)) fun ax => ?_
  match ax with
  | ⟨0, _⟩ =>
    show i.val = if a = 1 then 0 else i.val
    split
    · have := i.isLt; omega
    · rfl
  | ⟨1, _⟩ =>
    show k.val = if b = 1 then 0 else k.val
    split
    · have := k.isLt; omega
    · rfl
  | ⟨2, _⟩ => rfl

/-- The source index of a reduction over the middle axis: the pair (i, j) with the row k inserted is (i, k, j). -/
theorem lift_mid (h : (⟨3, ![a, b, c]⟩ : Shape).Reduces [(1 : Fin 3)] ⟨2, ![a, c]⟩) (i : Fin a) (j : Fin c) (k : Fin b) :
    h.lift (ix2 i j) k = ix3 i k j := by
  funext d
  apply Fin.ext
  show h.liftVal (ix2 i j) k.val d = (ix3 i k j d).val
  unfold Shape.Reduces.liftVal
  match d with
  | ⟨0, _⟩ => rfl
  | ⟨1, _⟩ => rfl
  | ⟨2, _⟩ => rfl

/-- Over the extended reals a sum over the middle axis of an [a, b, c] array, from the zero accumulator, is at (i, j)
    the sum over the rows k of the entries (i, k, j). -/
theorem midSum_apply {φ : FTy} (src : FVec Ideal ⟨3, ![a, b, c]⟩ φ) (acc : BitVec φ.bits)
    (h : (⟨3, ![a, b, c]⟩ : Shape).Reduces [(1 : Fin 3)] ⟨2, ![a, c]⟩) (hφ : FKind.Formats φ)
    (hacc : acc = FKind.add.neutral φ hφ) (i : Fin a) (j : Fin c) :
    multiReduction .add [(1 : Fin 3)] ⟨2, ![a, c]⟩ src acc h hφ hacc (ix2 i j) = ∑ k : Fin b, src (ix3 i k j) := by
  refine (Ideal.multiReduction_add_single src acc h hφ hacc (ix2 i j)).trans ?_
  show ∑ k : Fin b, src (h.lift (ix2 i j) k) = _
  exact Finset.sum_congr rfl fun k _ => congrArg src (lift_mid h i j k)

/-- The source index of a reduction over the rows of an [a, b] array: i with the column k inserted is (i, k). -/
theorem lift_row (h : (⟨2, ![a, b]⟩ : Shape).Reduces [(1 : Fin 2)] ⟨1, ![a]⟩) (i : Fin a) (k : Fin b) :
    h.lift (ix1 i) k = ix2 i k := by
  funext d
  apply Fin.ext
  show h.liftVal (ix1 i) k.val d = (ix2 i k d).val
  unfold Shape.Reduces.liftVal
  match d with
  | ⟨0, _⟩ => rfl
  | ⟨1, _⟩ => rfl

/-- Over the extended reals a sum along the rows of an [a, b] array, from the zero accumulator, is at i the sum over k
    of the entries (i, k). -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  exact Finset.sum_congr rfl fun k _ => congrArg src (lift_row h i k)

/-- Over the extended reals a running maximum along the rows of an [a, b] array is at i the fold of max, from the
    accumulator's value, over the entries (i, k). -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (i : Fin a) :
    multiReduction .maximumf [(1 : Fin 2)] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  have e : (src ∘ h.lift (ix1 i)) = fun k => src (ix2 i k) := funext fun k => congrArg src (lift_row h i k)
  show (Finset.univ : Finset (Fin b)).fold max (Ideal.ofBits φ acc) (src ∘ h.lift (ix1 i)) = _
  rw [e]
  rfl

end Cert.SlabLayout

end
-- ==== Proof.LibKeepdimsColumn.lean ====
/-
  A reusable lemma pair: a column kept as a trailing unit axis, read at an entry.

  A reduction over the last axis of an [a, b] array with the axis kept leaves a column: the [a] result is cast to
  [a, 1] and then broadcast back to [a, b'] to meet the array it came from. Read at an entry,

      cast [a] → [a, 1]        at (i, u) is the operand at i,
      broadcast [a, 1] → [a, b] at (p, c) is the operand at (p, 0):

  every entry of row p sees the row's one value. Generic in the extents and in the element type.
-/
import Idealize.ShloMosaic.Lib.Pipeline.Value
import Idealize.ShloMosaic.Lib.ValueIdx

noncomputable section

namespace Cert.KeepdimsColumn

open Idealize.ShloMosaic Idealize.ShloMosaic.ValueIdx

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KeepdimsColumn

end
-- ==== Proof.KIPay1.lean ====
/-
  The attention kernel's payloads read at an entry, over the extended reals.

  Each value the attention kernel stores or carries is a composition of elementwise operations, layout operations
  (a cast to the same shape, a transpose, a column kept as a trailing unit axis and broadcast back along the rows) and
  three contractions (a matrix product into zeros, a row maximum, a row sum).  Read at an entry written by its
  coordinates, every one of them is a closed expression in the entries of the values it is computed from:

    scores      s[r, j] = (Σ_h q[r, h] · k[j, h]) · c                     (c the splat scale)
    new maximum m'[r]   = max (m[r]) (max_j s[r, j])
    rescale     a[r]    = exp (m[r] − m'[r])
    weights     p[r, j] = exp (s[r, j] − m'[r])
    new sum     l'[r]   = a[r] · l[r] + Σ_j p[r, j]
    new acc     acc'[r, h] = a[r] · acc[r, h] + Σ_j p[r, j] · v[j, h]
    output      o[r, o] = (Σ_h (acc[r, h] / l[r]) · W[h, o]) + b[o]

  A narrowing format change is the identity on extended reals and the zero accumulators vanish.
-/
import proofs.«160914_j72550587564439_2_alg».proof.Proof.Gen.KernelIdeal.Skeleton
import proofs.«160914_j72550587564439_2_alg».proof.Proof.LibMatmulNN
import proofs.«160914_j72550587564439_2_alg».proof.Proof.LibSlabLayout
import proofs.«160914_j72550587564439_2_alg».proof.Proof.LibKeepdimsColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-! ## Casts to the same shape and the three initial values -/

/-- The carried maximum is stored as it is: a cast to the same shape changes nothing. -/
theorem pay2_eq (v20 : FVec Ideal S1024x1 .f32) : k1_pay2 (F := Ideal) v20 = v20 := by
  unfold k1_pay2
  exact shapeCast_self v20 _

/-- The value block is carried as it is. -/
theorem pay7_eq (v9 : Vec Ideal S2048x128 .bf16) : k1_pay7 (F := Ideal) v9 = v9 := by
  unfold k1_pay7
  exact shapeCast_self v9 _

/-- The f32 pattern of minus infinity is the bottom extended real. -/
theorem ofBits_neg_inf_f32 : Ideal.ofBits .f32 0xFF800000#32 = ⊥ := by simp [Ideal.ofBits, Ideal.ieee]

/-- The accumulator starts at zero everywhere. -/
theorem pay4_apply (i : S1024x128.Idx) : k1_pay4 (F := Ideal) i = 0 := by
  unfold k1_pay4
  rw [shapeCast_self]
  exact Ideal.ofBits_zero_f32

/-- The running maximum starts at minus infinity everywhere. -/
theorem pay5_apply (i : S1024x1.Idx) : k1_pay5 (F := Ideal) i = ⊥ := by
  unfold k1_pay5
  rw [shapeCast_self]
  exact ofBits_neg_inf_f32

/-- The running sum starts at zero everywhere. -/
theorem pay6_apply (i : S1024x1.Idx) : k1_pay6 (F := Ideal) i = 0 := by
  unfold k1_pay6
  rw [shapeCast_self]
  exact Ideal.ofBits_zero_f32

/-! ## The rescaling factor and the weights -/

/-- The rescaling factor of row r is the exponential of the old maximum minus the new one. -/
theorem pay10_apply (v6 : Vec Ideal S2048x128 .bf16) (v11 : Vec Ideal S1024x128 .bf16) (v17 : Vec Ideal S1024x1 .f32)
    (v21 : Vec Ideal S1024x1 .f32) (r : Fin 1024) :
    k1_pay10 (F := Ideal) v6 v11 v17 v21 (ix2 r (0 : Fin 1))
      = Ideal.exp (v21 (ix2 r (0 : Fin 1)) - k1_pay9 (F := Ideal) v6 v11 v17 (ix2 r (0 : Fin 1))) := by
  unfold k1_pay10
  rfl

/-- The weight of key j in row r is the exponential of its score minus the row's new maximum. -/
theorem pay11_apply (v6 : Vec Ideal S2048x128 .bf16) (v11 : Vec Ideal S1024x128 .bf16) (v17 : Vec Ideal S1024x1 .f32)
    (r : Fin 1024) (j : Fin 2048) :
    k1_pay11 (F := Ideal) v6 v11 v17 (ix2 r j)
      = Ideal.exp (k1_pay8 (F := Ideal) v6 v11 (ix2 r j) - k1_pay9 (F := Ideal) v6 v11 v17 (ix2 r (0 : Fin 1))) := by
  unfold k1_pay11
  show Ideal.exp (k1_pay8 (F := Ideal) v6 v11 (ix2 r j)
    - broadcastTo S1024x2048 (k1_pay9 (F := Ideal) v6 v11 v17) broadcasts_S1024x1_S1024x2048 (ix2 r j)) = _
  rw [Cert.KeepdimsColumn.broadcastTo_a1_ab_apply]

/-! ## The scores -/

/-- The score of key j in row r: the inner product of the query row with the key row, times the splat scale.  The key
    block is transposed before the matrix product, so the product's column j is the key's row j. -/
theorem pay8_apply (v6 : Vec Ideal S2048x128 .bf16) (v11 : Vec Ideal S1024x128 .bf16) (r : Fin 1024) (j : Fin 2048) :
    k1_pay8 (F := Ideal) v6 v11 (ix2 r j)
      = (∑ h : Fin 128, v11 (ix2 r h) * v6 (ix2 j h)) * Ideal.ofBits .f32 0x3DB504F3#32 := by
  unfold k1_pay8
  show FloatOps.matmul dot_S1024x128_S128x2048_S1024x2048_1_0_0_1_n_n none
        (shapeCast S1024x128 v11 shapeCasts_S1024x128_S1024x128)
        (transpose S128x2048 [1, 0] (shapeCast S2048x128 v6 shapeCasts_S2048x128_S2048x128) transposes_S2048x128_p1_0_S128x2048)
        (constant (F := Ideal) S1024x2048 .f32 0x00000000#32) (ix2 r j) * Ideal.ofBits .f32 0x3DB504F3#32 = _
  rw [shapeCast_self, shapeCast_self]
  refine congrArg (· * Ideal.ofBits .f32 0x3DB504F3#32) ?_
  refine (Cert.MatmulNN.matmul_zero_apply dot_S1024x128_S128x2048_S1024x2048_1_0_0_1_n_n rfl none v11 _ r j).trans ?_
  refine Finset.sum_congr rfl fun h _ => ?_
  rw [transpose_ix2_apply]

/-! ## The row maximum and the row sum -/

/-- The new maximum of row r: the larger of the old one and the largest score of the row. -/
theorem pay9_apply (v6 : Vec Ideal S2048x128 .bf16) (v11 : Vec Ideal S1024x128 .bf16) (v17 : Vec Ideal S1024x1 .f32)
    (r : Fin 1024) :
    k1_pay9 (F := Ideal) v6 v11 v17 (ix2 r (0 : Fin 1))
      = max (v17 (ix2 r (0 : Fin 1)))
          (Finset.univ.fold max ⊥ fun j : Fin 2048 => k1_pay8 (F := Ideal) v6 v11 (ix2 r j)) := by
  unfold k1_pay9
  refine (maximumf_apply (s := S1024x1) (φ := .f32) v17 _ (ix2 r (0 : Fin 1))).trans ?_
  refine congrArg (max (v17 (ix2 r (0 : Fin 1)))) ?_
  refine (Cert.KeepdimsColumn.shapeCast_a_a1_apply _ shapeCasts_S1024_S1024x1 r (0 : Fin 1)).trans ?_
  refine (Cert.SlabLayout.rowMax_apply (k1_pay8 (F := Ideal) v6 v11) 0xFF800000#32 reduces_S1024x2048_S1024
    (.inl rfl) rfl r).trans ?_
  rw [ofBits_neg_inf_f32]

/-- The new sum of row r: the old one rescaled plus the row's weights. -/
theorem pay12_apply (v6 : Vec Ideal S2048x128 .bf16) (v11 : Vec Ideal S1024x128 .bf16) (v17 : Vec Ideal S1024x1 .f32)
    (v21 : Vec Ideal S1024x1 .f32) (v27 : Vec Ideal S1024x1 .f32) (r : Fin 1024) :
    k1_pay12 (F := Ideal) v6 v11 v17 v21 v27 (ix2 r (0 : Fin 1))
      = k1_pay10 (F := Ideal) v6 v11 v17 v21 (ix2 r (0 : Fin 1)) * v27 (ix2 r (0 : Fin 1))
        + ∑ j : Fin 2048, k1_pay11 (F := Ideal) v6 v11 v17 (ix2 r j) := by
  unfold k1_pay12
  refine (congrFun (shapeCast_self _ shapeCasts_S1024x1_S1024x1) (ix2 r (0 : Fin 1))).trans ?_
  show k1_pay10 (F := Ideal) v6 v11 v17 v21 (ix2 r (0 : Fin 1)) * v27 (ix2 r (0 : Fin 1))
      + shapeCast S1024x1 (multiReduction .add [1] S1024 (k1_pay11 (F := Ideal) v6 v11 v17) 0x00000000#32
          reduces_S1024x2048_S1024 (.inl rfl) rfl) shapeCasts_S1024_S1024x1 (ix2 r (0 : Fin 1)) = _
  refine congrArg (k1_pay10 (F := Ideal) v6 v11 v17 v21 (ix2 r (0 : Fin 1)) * v27 (ix2 r (0 : Fin 1)) + ·) ?_
  refine (Cert.KeepdimsColumn.shapeCast_a_a1_apply _ shapeCasts_S1024_S1024x1 r (0 : Fin 1)).trans ?_
  exact Cert.SlabLayout.rowSum_apply (k1_pay11 (F := Ideal) v6 v11 v17) 0x00000000#32 reduces_S1024x2048_S1024
    (.inl rfl) rfl r

/-! ## The accumulator and the output -/

/-- The new accumulator at (r, h): the old one rescaled plus the row's weights applied to column h of the values. -/
theorem pay1_apply (v10 : FVec Ideal S2048x128 .bf16) (v23 : FVec Ideal S1024x1 .f32) (v26 : FVec Ideal S1024x2048 .f32)
    (v35 : Vec Ideal S1024x128 .f32) (r : Fin 1024) (h : Fin 128) :
    k1_pay1 (F := Ideal) v10 v23 v26 v35 (ix2 r h)
      = v23 (ix2 r (0 : Fin 1)) * v35 (ix2 r h) + ∑ j : Fin 2048, v26 (ix2 r j) * v10 (ix2 j h) := by
  unfold k1_pay1
  refine (congrFun (shapeCast_self _ shapeCasts_S1024x128_S1024x128) (ix2 r h)).trans ?_
  show broadcastTo S1024x128 v23 broadcasts_S1024x1_S1024x128 (ix2 r h) * v35 (ix2 r h)
      + FloatOps.matmul dot_S1024x2048_S2048x128_S1024x128_1_0_0_1_n_n none (truncf .bf16 v26 bitsLt_bf16_f32) v10
          (constant (F := Ideal) S1024x128 .f32 0x00000000#32) (ix2 r h) = _
  rw [Cert.KeepdimsColumn.broadcastTo_a1_ab_apply]
  refine congrArg (v23 (ix2 r (0 : Fin 1)) * v35 (ix2 r h) + ·) ?_
  exact Cert.MatmulNN.matmul_zero_apply dot_S1024x2048_S2048x128_S1024x128_1_0_0_1_n_n rfl none
    (truncf .bf16 v26 bitsLt_bf16_f32) v10 r h

/-- The output at (r, o): the accumulator's row divided by the row's sum, applied to column o of the output weights,
    plus the bias. -/
theorem pay3_apply (v50 : Vec Ideal S1024x128 .f32) (v51 : Vec Ideal S1024x1 .f32) (v54 : Vec Ideal S128x256 .f32)
    (v58 : Vec Ideal S256 .f32) (r : Fin 1024) (o : Fin 256) :
    k1_pay3 (F := Ideal) v50 v51 v54 v58 (ix2 r o)
      = (∑ h : Fin 128, Ideal.div (v50 (ix2 r h)) (v51 (ix2 r (0 : Fin 1))) * v54 (ix2 h o)) + v58 (ix1 o) := by
  unfold k1_pay3
  show FloatOps.matmul dot_S1024x128_S128x256_S1024x256_1_0_0_1_n_n none
        (truncf .bf16 (divf v50 (broadcastTo S1024x128 v51 broadcasts_S1024x1_S1024x128)) bitsLt_bf16_f32)
        (truncf .bf16 v54 bitsLt_bf16_f32) (constant (F := Ideal) S1024x256 .f32 0x00000000#32) (ix2 r o)
      + broadcastTo S1024x256 (shapeCast S1x256 v58 shapeCasts_S256_S1x256) broadcasts_S1x256_S1024x256 (ix2 r o) = _
  rw [broadcastTo_1b_ab_apply, shapeCast_a_1a_apply]
  refine congrArg (· + v58 (ix1 o)) ?_
  refine (Cert.MatmulNN.matmul_zero_apply dot_S1024x128_S128x256_S1024x256_1_0_0_1_n_n rfl none
    (truncf .bf16 (divf v50 (broadcastTo S1024x128 v51 broadcasts_S1024x1_S1024x128)) bitsLt_bf16_f32)
    (truncf .bf16 v54 bitsLt_bf16_f32) r o).trans ?_
  refine Finset.sum_congr rfl fun h _ => ?_
  show Ideal.div (v50 (ix2 r h)) (broadcastTo S1024x128 v51 broadcasts_S1024x1_S1024x128 (ix2 r h)) * v54 (ix2 h o) = _
  rw [Cert.KeepdimsColumn.broadcastTo_a1_ab_apply]

end Cert.KernelIdeal.Hand

end
-- ==== Proof.LibOnlineSoftmax.lean ====
/- Online (blocked) softmax attention equals plain softmax attention, over the extended reals.

   One query row: scores `s` against `K` keys and values `v`. The plain form subtracts the row maximum,
   exponentiates, normalises by the sum, and takes the weighted sum of the values. The blocked form walks the
   keys in `B` blocks of `n`, carrying a running maximum `m`, a running denominator `l` and a running
   numerator `acc`, rescaling both by `exp (m_old - m_new)` at each block, and divides once at the end.
   For real scores and values the two agree: every term `exp (s - m)` is `exp s * exp (-m)`, so the choice of
   the subtracted constant cancels between numerator and denominator. -/
import Mathlib
import Idealize.ShloMosaic.PureOps.Ideal

noncomputable section

namespace Cert.OnlineSoftmax

open Idealize.ShloMosaic
open scoped BigOperators

variable {n B H : ℕ}

/-- The maximum of a row of scores, folded from `⊥`. -/
def rowMax {K : ℕ} (s : Fin K → EReal) : EReal := Finset.univ.fold max ⊥ s

/-- One row of plain softmax attention: `K` keys, scores `s` (already scaled), values `v`; output feature `h`. -/
def refRow {K : ℕ} (s : Fin K → EReal) (v : Fin K → Fin H → EReal) (h : Fin H) : EReal :=
  ∑ j, Ideal.div (Ideal.exp (s j - max ⊥ (rowMax s))) (∑ j', Ideal.exp (s j' - max ⊥ (rowMax s))) * v j h

/-- The running state of the blocked form: maximum so far, denominator so far, numerator so far. -/
structure St (H : ℕ) where
  /-- the running maximum of the scores seen -/
  m : EReal
  /-- the running denominator, relative to `m` -/
  l : EReal
  /-- the running numerator, relative to `m` -/
  acc : Fin H → EReal

/-- The state before any block: maximum `⊥`, empty sums. -/
def St.init : St H := ⟨⊥, 0, fun _ => 0⟩

/-- Absorb one block of `n` scores `sb` and values `vb`: raise the maximum, rescale the old sums to it,
    add the block's terms. -/
def step (st : St H) (sb : Fin n → EReal) (vb : Fin n → Fin H → EReal) : St H :=
  let m' := max st.m (rowMax sb)
  ⟨m', Ideal.exp (st.m - m') * st.l + ∑ j, Ideal.exp (sb j - m'),
       fun h => Ideal.exp (st.m - m') * st.acc h + ∑ j, Ideal.exp (sb j - m') * vb j h⟩

/-- The state after the first `k` of the `B` blocks. -/
def run (s : Fin B → Fin n → EReal) (v : Fin B → Fin n → Fin H → EReal) : (k : ℕ) → k ≤ B → St H
  | 0, _ => St.init
  | k + 1, hk => step (run s v k (Nat.le_of_succ_le hk)) (s ⟨k, hk⟩) (v ⟨k, hk⟩)

@[simp] theorem run_zero (s : Fin B → Fin n → EReal) (v : Fin B → Fin n → Fin H → EReal) (h0 : 0 ≤ B) :
    run s v 0 h0 = St.init := rfl

theorem run_succ (s : Fin B → Fin n → EReal) (v : Fin B → Fin n → Fin H → EReal) (k : ℕ) (hk : k + 1 ≤ B) :
    run s v (k + 1) hk = step (run s v k (Nat.le_of_succ_le hk)) (s ⟨k, hk⟩) (v ⟨k, hk⟩) := rfl

/-- The blocked form's output: numerator over denominator after all `B` blocks. -/
def flashRow (s : Fin B → Fin n → EReal) (v : Fin B → Fin n → Fin H → EReal) (h : Fin H) : EReal :=
  Ideal.div ((run s v B le_rfl).acc h) ((run s v B le_rfl).l)

/-- The coercion of reals into the extended reals commutes with finite sums. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The folded maximum is the finite supremum. -/
theorem rowMax_eq_sup {K : ℕ} (s : Fin K → EReal) : rowMax s = Finset.univ.sup s := rfl

/-- The maximum of a nonempty row of reals is one of them, hence real. -/
theorem rowMax_coe {K : ℕ} (hK : 0 < K) (f : Fin K → ℝ) :
    ∃ M : ℝ, rowMax (fun j => (f j : EReal)) = M := by
  obtain ⟨i, -, hi⟩ := Finset.exists_mem_eq_sup (Finset.univ : Finset (Fin K))
    ⟨⟨0, hK⟩, Finset.mem_univ _⟩ (fun j => (f j : EReal))
  exact ⟨f i, by rw [rowMax_eq_sup, hi]⟩

/-- One step on real data, with the rescaling factor `c` and the new maximum `M'` named:
    every component of the new state is the coercion of the real expression. -/
theorem step_coe (st : St H) (M' c l0 : ℝ) (a0 : Fin H → ℝ) (sbr : Fin n → ℝ) (vbr : Fin n → Fin H → ℝ)
    (hm : max st.m (rowMax fun j => (sbr j : EReal)) = M')
    (hc : Ideal.exp (st.m - M') = c) (hl : st.l = l0) (ha : ∀ h, st.acc h = a0 h) :
    step st (fun j => (sbr j : EReal)) (fun j h => (vbr j h : EReal)) =
      ⟨M', ((c * l0 + ∑ j, Real.exp (sbr j - M') : ℝ) : EReal),
        fun h => ((c * a0 h + ∑ j, Real.exp (sbr j - M') * vbr j h : ℝ) : EReal)⟩ := by
  simp only [step, hm, hc, hl, ha, ← EReal.coe_sub, Ideal.exp_coe, ← EReal.coe_mul, ← coe_sum,
    ← EReal.coe_add]

/-- A family indexed by the blocks, extended by `0` beyond the last block, so that sums over the
    first `k` blocks can be written over `Finset.range k`. -/
def ext {α : Type*} [Zero α] (f : Fin B → α) (b : ℕ) : α := if hb : b < B then f ⟨b, hb⟩ else 0

theorem ext_of_lt {α : Type*} [Zero α] (f : Fin B → α) {b : ℕ} (hb : b < B) : ext f b = f ⟨b, hb⟩ :=
  dif_pos hb

/-- Moving the subtracted constant from `M` to `M'` multiplies every term by `exp (M - M')`. -/
theorem exp_shift (M M' x : ℝ) : Real.exp (M - M') * Real.exp (x - M) = Real.exp (x - M') := by
  rw [← Real.exp_add]; congr 1; ring

/-- The invariant of the blocked form on real data: after `k + 1` blocks the maximum is a real `M`, the
    denominator is the sum of `exp (s - M)` over the keys seen, the numerator the same sum weighted by the
    values. (Which real `M` is does not matter for the quotient.) -/
theorem run_inv (hn : 0 < n) (sr : Fin B → Fin n → ℝ) (vr : Fin B → Fin n → Fin H → ℝ) (k : ℕ)
    (hk : k + 1 ≤ B) :
    ∃ M : ℝ, run (fun b j => (sr b j : EReal)) (fun b j h => (vr b j h : EReal)) (k + 1) hk =
      ⟨M, ((∑ b ∈ Finset.range (k + 1), ∑ j, Real.exp (ext sr b j - M) : ℝ) : EReal),
        fun h => ((∑ b ∈ Finset.range (k + 1), ∑ j, Real.exp (ext sr b j - M) * ext vr b j h : ℝ) : EReal)⟩ := by
  induction k with
  | zero =>
    obtain ⟨M', hM'⟩ := rowMax_coe hn (sr ⟨0, hk⟩)
    refine ⟨M', ?_⟩
    rw [run_succ, run_zero,
      step_coe (St.init) M' 0 0 (fun _ => 0) (sr ⟨0, hk⟩) (vr ⟨0, hk⟩)
        (by rw [St.init, hM']; exact max_eq_right bot_le)
        (by simp [St.init, EReal.bot_sub]) (by simp [St.init]) (by simp [St.init])]
    simp only [Finset.sum_range_one, ext_of_lt sr hk, ext_of_lt vr hk, mul_zero, zero_add]
  | succ k ih =>
    obtain ⟨M, hM⟩ := ih (Nat.le_of_succ_le hk)
    obtain ⟨Mb, hMb⟩ := rowMax_coe hn (sr ⟨k + 1, hk⟩)
    refine ⟨max M Mb, ?_⟩
    rw [run_succ, hM,
      step_coe _ (max M Mb) (Real.exp (M - max M Mb)) _ _ (sr ⟨k + 1, hk⟩) (vr ⟨k + 1, hk⟩)
        (by rw [hMb]; exact (EReal.coe_strictMono.monotone.map_max).symm)
        (by rw [← EReal.coe_sub, Ideal.exp_coe]) rfl (fun _ => rfl)]
    have e1 : ext sr (k + 1) = sr ⟨k + 1, hk⟩ := ext_of_lt sr hk
    have e2 : ext vr (k + 1) = vr ⟨k + 1, hk⟩ := ext_of_lt vr hk
    congr 2
    · rw [Finset.sum_range_succ _ (k + 1), e1, Finset.mul_sum]
      simp only [Finset.mul_sum, exp_shift]
    · funext h
      rw [Finset.sum_range_succ _ (k + 1), e1, e2, Finset.mul_sum]
      simp only [Finset.mul_sum, ← mul_assoc, exp_shift]

@[simp] theorem ext_val {α : Type*} [Zero α] (f : Fin B → α) (b : Fin B) : ext f b.val = f b := by
  rw [ext_of_lt f b.2]

/-- A sum over blocks and positions within a block is the sum over the flattened keys. -/
theorem sum_flat (g : Fin B → Fin n → ℝ) :
    ∑ b, ∑ j, g b j = ∑ k : Fin (B * n), g (finProdFinEquiv.symm k).1 (finProdFinEquiv.symm k).2 :=
  (Fintype.sum_prod_type' g).symm.trans
    (Equiv.sum_comp finProdFinEquiv.symm (fun p : Fin B × Fin n => g p.1 p.2)).symm

/-- Softmax over reals: the quotient of the weighted sum by the plain sum of `exp (x - c)` does not depend on
    the subtracted constant `c`, and the division may be done term by term. -/
theorem real_core {ι : Type*} (t : Finset ι) (x w : ι → ℝ) (M M' : ℝ) :
    (∑ i ∈ t, Real.exp (x i - M) * w i) / (∑ i ∈ t, Real.exp (x i - M)) =
      ∑ i ∈ t, Real.exp (x i - M') / (∑ i' ∈ t, Real.exp (x i' - M')) * w i := by
  have h1 : ∀ c : ℝ, (∑ i ∈ t, Real.exp (x i - c) * w i) / (∑ i ∈ t, Real.exp (x i - c)) =
      (∑ i ∈ t, Real.exp (x i) * w i) / (∑ i ∈ t, Real.exp (x i)) := by
    intro c
    simp only [Real.exp_sub, div_mul_eq_mul_div, ← Finset.sum_div]
    exact div_div_div_cancel_right₀ (Real.exp_ne_zero c) _ _
  rw [h1 M, ← h1 M']
  simp only [div_mul_eq_mul_div, ← Finset.sum_div]

/-- MAIN THEOREM. Real scores and values, nonempty blocks, at least one block: the blocked form equals the
    plain form on the flattened keys (key `(b, j) ↦ b * n + j`). -/
theorem flash_eq_ref (hn : 0 < n) (hB : 0 < B) (s : Fin B → Fin n → EReal) (v : Fin B → Fin n → Fin H → EReal)
    (hs : ∀ b j, ∃ r : ℝ, s b j = r) (hv : ∀ b j h, ∃ r : ℝ, v b j h = r)
    (sF : Fin (B * n) → EReal) (vF : Fin (B * n) → Fin H → EReal)
    (hsF : ∀ b j (hb : b.val * n + j.val < B * n), sF ⟨b.val * n + j.val, hb⟩ = s b j)
    (hvF : ∀ b j (hb : b.val * n + j.val < B * n) h, vF ⟨b.val * n + j.val, hb⟩ h = v b j h) (h : Fin H) :
    flashRow s v h = refRow sF vF h := by
  obtain ⟨B', rfl⟩ : ∃ B', B = B' + 1 := ⟨B - 1, by omega⟩
  choose sr hsr using hs
  choose vr hvr using hv
  obtain rfl : s = fun b j => (sr b j : EReal) := funext fun b => funext fun j => hsr b j
  obtain rfl : v = fun b j h => (vr b j h : EReal) :=
    funext fun b => funext fun j => funext fun h => hvr b j h
  -- the flattened keys carry the same reals
  have hidx : ∀ p : Fin (B' + 1) × Fin n, p.1.val * n + p.2.val < (B' + 1) * n := by
    rintro ⟨b, j⟩
    calc b.val * n + j.val < b.val * n + n := by have := j.2; omega
      _ = (b.val + 1) * n := by ring
      _ ≤ (B' + 1) * n := Nat.mul_le_mul_right _ b.2
  have hfin : ∀ p : Fin (B' + 1) × Fin n, finProdFinEquiv p = ⟨p.1.val * n + p.2.val, hidx p⟩ := by
    rintro ⟨b, j⟩
    apply Fin.ext
    simp only [finProdFinEquiv_apply_val]
    ring
  let sFr : Fin ((B' + 1) * n) → ℝ := fun k => sr (finProdFinEquiv.symm k).1 (finProdFinEquiv.symm k).2
  let vFr : Fin ((B' + 1) * n) → Fin H → ℝ :=
    fun k h => vr (finProdFinEquiv.symm k).1 (finProdFinEquiv.symm k).2 h
  have hsFr : sF = fun k => (sFr k : EReal) := by
    funext k
    have := hsF (finProdFinEquiv.symm k).1 (finProdFinEquiv.symm k).2 (hidx _)
    rw [← hfin, Equiv.apply_symm_apply] at this
    exact this
  have hvFr : vF = fun k h => (vFr k h : EReal) := by
    funext k h
    have := hvF (finProdFinEquiv.symm k).1 (finProdFinEquiv.symm k).2 (hidx _) h
    rw [← hfin, Equiv.apply_symm_apply] at this
    exact this
  subst hsFr hvFr
  haveI : Nonempty (Fin ((B' + 1) * n)) := ⟨⟨0, Nat.mul_pos hB hn⟩⟩
  -- the blocked side
  obtain ⟨M, hM⟩ := run_inv hn sr vr B' le_rfl
  have hL : ∑ b ∈ Finset.range (B' + 1), ∑ j, Real.exp (ext sr b j - M) =
      ∑ k, Real.exp (sFr k - M) := by
    rw [Finset.sum_range]; simp only [ext_val]; exact sum_flat _
  have hA : ∑ b ∈ Finset.range (B' + 1), ∑ j, Real.exp (ext sr b j - M) * ext vr b j h =
      ∑ k, Real.exp (sFr k - M) * vFr k h := by
    rw [Finset.sum_range]; simp only [ext_val]
    exact sum_flat (fun b j => Real.exp (sr b j - M) * vr b j h)
  have Lpos : 0 < ∑ k, Real.exp (sFr k - M) :=
    Finset.sum_pos (fun i _ => Real.exp_pos _) Finset.univ_nonempty
  -- the plain side
  obtain ⟨Mr, hMr⟩ := rowMax_coe (Nat.mul_pos hB hn) sFr
  have Zpos : 0 < ∑ k, Real.exp (sFr k - Mr) :=
    Finset.sum_pos (fun i _ => Real.exp_pos _) Finset.univ_nonempty
  have hmax : max (⊥ : EReal) (Mr : EReal) = Mr := max_eq_right bot_le
  unfold flashRow refRow
  rw [hM, hMr, hmax]
  simp only [hL, hA, ← EReal.coe_sub, Ideal.exp_coe, ← coe_sum, Ideal.div_coe Lpos.ne',
    Ideal.div_coe Zpos.ne', ← EReal.coe_mul]
  congr 1
  rw [mul_one_div, real_core Finset.univ sFr (fun k => vFr k h) M Mr]
  simp only [mul_one_div]

/-- After at least one block of real data every component of the state is real, and the denominator is positive. -/
theorem run_real (hn : 0 < n) (s : Fin B → Fin n → EReal) (v : Fin B → Fin n → Fin H → EReal)
    (hs : ∀ b j, ∃ r : ℝ, s b j = r) (hv : ∀ b j h, ∃ r : ℝ, v b j h = r) (k : ℕ) (hk : k + 1 ≤ B) :
    ∃ (M L : ℝ) (A : Fin H → ℝ), 0 < L ∧
      run s v (k + 1) hk = ⟨(M : EReal), (L : EReal), fun h => (A h : EReal)⟩ := by
  choose sr hsr using hs
  choose vr hvr using hv
  obtain rfl : s = fun b j => (sr b j : EReal) := funext fun b => funext fun j => hsr b j
  obtain rfl : v = fun b j h => (vr b j h : EReal) :=
    funext fun b => funext fun j => funext fun h => hvr b j h
  obtain ⟨M, hM⟩ := run_inv hn sr vr k hk
  haveI : Nonempty (Fin n) := ⟨⟨0, hn⟩⟩
  exact ⟨M, _, _, Finset.sum_pos (fun b _ => Finset.sum_pos (fun j _ => Real.exp_pos _) Finset.univ_nonempty)
    ⟨0, Finset.mem_range.mpr (Nat.succ_pos k)⟩, hM⟩

end Cert.OnlineSoftmax
-- ==== Proof.KIValue1c.lean ====
/-
  Region 1 at the extended reals: the running buffers follow the blocked softmax recurrence row by row, and the output
  block of the last key tile is the normalised weighted sum projected by the output weights plus the bias.
  Row r of query tile a has, against key tile k, the scores (q_row · k_row) · scale of the 2048 keys of the tile; after
  key tile k the three buffers hold, at row r, the state of the recurrence after k + 1 blocks.
-/
import proofs.«160914_j72550587564439_2_alg».proof.Proof.KIValue1b
import proofs.«160914_j72550587564439_2_alg».proof.Proof.KIPay1
import proofs.«160914_j72550587564439_2_alg».proof.Proof.LibOnlineSoftmax

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.OnlineSoftmax

/-- One key tile absorbed, at row `r`: if the three running buffers hold a state of the recurrence at row `r`, the
    body's new contents hold the next state, the block's scores being the scaled products of the row with the tile's
    keys and its values the tile's value rows. -/
theorem step_row (v6 v9 : Vec Ideal S2048x128 .bf16) (x0 : Vec Ideal S1024x128 .bf16) (xs0 : Vec Ideal S1024x128 .f32)
    (xs1 xs2 : Vec Ideal S1024x1 .f32) (r : Fin 1024) (st : St 128)
    (h0 : ∀ h, xs0 (ix2 r h) = st.acc h) (h1 : xs1 (ix2 r (0 : Fin 1)) = st.m) (h2 : xs2 (ix2 r (0 : Fin 1)) = st.l) :
    (∀ h : Fin 128, k1_pay1 (F := Ideal) (k1_pay7 v9) (k1_pay10 v6 x0 xs1 xs1) (k1_pay11 v6 x0 xs1) xs0 (ix2 r h)
        = (step st (fun j : Fin 2048 => k1_pay8 (F := Ideal) v6 x0 (ix2 r j)) (fun j h => v9 (ix2 j h))).acc h)
    ∧ k1_pay2 (F := Ideal) (k1_pay9 v6 x0 xs1) (ix2 r (0 : Fin 1))
        = (step st (fun j : Fin 2048 => k1_pay8 (F := Ideal) v6 x0 (ix2 r j)) (fun j h => v9 (ix2 j h))).m
    ∧ k1_pay12 (F := Ideal) v6 x0 xs1 xs1 xs2 (ix2 r (0 : Fin 1))
        = (step st (fun j : Fin 2048 => k1_pay8 (F := Ideal) v6 x0 (ix2 r j)) (fun j h => v9 (ix2 j h))).l := by
  refine ⟨fun h => ?_, ?_, ?_⟩
  · rw [pay1_apply, pay7_eq, pay10_apply, pay9_apply, h0, h1]
    simp only [pay11_apply, pay9_apply, h1]
    rfl
  · rw [pay2_eq, pay9_apply, h1]; rfl
  · rw [pay12_apply, pay10_apply, pay9_apply, h1, h2]
    simp only [pay11_apply, pay9_apply, h1]
    rfl

variable (V : (c : Dev nD) → (b : Ref sig .tc) → Buf (Elt Ideal) ((c : Thread nD τ).loc b)) (c : Dev nD)

/-- The projected query, key and value arrays, the output weights and bias, as the region finds them. -/
abbrev Qa : Vec Ideal S16384x128 .bf16 := V c main_v0_0
abbrev Ka : Vec Ideal S16384x128 .bf16 := V c main_v0_1
abbrev Va : Vec Ideal S16384x128 .bf16 := V c main_v0_2
abbrev Woa : Vec Ideal S128x256 .f32 := V c main_arg9
abbrev boa : Vec Ideal S256 .f32 := V c main_arg10

/-- Row `r` of query tile `a`, and key `j` of key tile `b`, as rows of the whole arrays. -/
def qrow (a : Fin 16) (r : Fin 1024) : Fin 16384 := ⟨a.val * 1024 + r.val, by omega⟩
def krow (b : Fin 8) (j : Fin 2048) : Fin 16384 := ⟨b.val * 2048 + j.val, by omega⟩

/-- The scaled scores of a query row against the keys, tile by tile; the values, tile by tile. -/
def sB (a : Fin 16) (r : Fin 1024) : Fin 8 → Fin 2048 → EReal := fun b j =>
  (∑ h : Fin 128, Qa V c (ix2 (qrow a r) h) * Ka V c (ix2 (krow b j) h)) * Ideal.ofBits .f32 0x3DB504F3#32
def vB : Fin 8 → Fin 2048 → Fin 128 → EReal := fun b j h => Va V c (ix2 (krow b j) h)

/-- Grid point (a, k). -/
def pt (a : Fin 16) (k : ℕ) (hk : k < 8) : Fin cfg1.N := ⟨a.val * 8 + k, by rw [show cfg1.N = 128 from N_1]; omega⟩

theorem pt_div (a : Fin 16) (k : ℕ) (hk : k < 8) : (pt a k hk).val / 8 = a.val := by
  show (a.val * 8 + k) / 8 = a.val; omega
theorem pt_mod (a : Fin 16) (k : ℕ) (hk : k < 8) : (pt a k hk).val % 8 = k := by
  show (a.val * 8 + k) % 8 = k; omega

/-- The block's scores at a point are the row's scores against key tile `k`. -/
theorem tile_scores (a : Fin 16) (k : ℕ) (hk : k < 8) (r : Fin 1024) :
    (fun j : Fin 2048 => k1_pay8 (F := Ideal) (View.ld (iblk1 V c 1 (pt a k hk)) (rK (grid1.coords (pt a k hk))))
      (iblk1 V c 0 (pt a k hk)) (ix2 r j)) = sB V c a r ⟨k, hk⟩ := by
  funext j
  rw [pay8_apply]
  unfold sB
  refine congrArg (· * _) (Finset.sum_congr rfl fun h _ => ?_)
  rw [iblk1_0_apply V c (pt a k hk) (ix2 r h) (ix2 (qrow a r) h) (by rw [pt_div]; rfl) rfl,
    ldK_apply (iblk1 V c 1 (pt a k hk)) (grid1.coords (pt a k hk)) (ix2 j h) (ix2 (krow ⟨k, hk⟩ j) h)
      (by rw [coord1_1, pt_mod]; show k * 2048 + j.val = 2048 * k + j.val; omega) rfl,
    iblk1_1_apply]

/-- The block's values at a point are key tile `k`'s value rows. -/
theorem tile_values (a : Fin 16) (k : ℕ) (hk : k < 8) :
    (fun (j : Fin 2048) (h : Fin 128) => View.ld (iblk1 V c 2 (pt a k hk)) (rK (grid1.coords (pt a k hk))) (ix2 j h))
      = vB V c ⟨k, hk⟩ := by
  funext j h
  unfold vB
  rw [ldK_apply (iblk1 V c 2 (pt a k hk)) (grid1.coords (pt a k hk)) (ix2 j h) (ix2 (krow ⟨k, hk⟩ j) h)
      (by rw [coord1_1, pt_mod]; show k * 2048 + j.val = 2048 * k + j.val; omega) rfl,
    iblk1_2_apply]

theorem outsAt1_congr {n n' : ℕ} (e : n = n') (h : n < cfg1.N) (h' : n' < cfg1.N) : outsAt1 V c n h = outsAt1 V c n' h' := by
  subst e; rfl

/-- THE INVARIANT: after key tile `k` of query tile `a` the three running buffers hold, at every row `r`, the state of
    the blocked recurrence after `k + 1` blocks of that row's scores and the values. -/
theorem state_at (a : Fin 16) : ∀ (k : ℕ) (hk : k < 8) (r : Fin 1024),
    (∀ h : Fin 128, (outsAt1 V c (pt a k hk).val (pt a k hk).isLt).2.1 (ix2 r h)
        = (run (sB V c a r) (vB V c) (k + 1) (by omega)).acc h)
    ∧ (outsAt1 V c (pt a k hk).val (pt a k hk).isLt).2.2.1 (ix2 r (0 : Fin 1)) = (run (sB V c a r) (vB V c) (k + 1) (by omega)).m
    ∧ (outsAt1 V c (pt a k hk).val (pt a k hk).isLt).2.2.2 (ix2 r (0 : Fin 1)) = (run (sB V c a r) (vB V c) (k + 1) (by omega)).l
  | 0, hk, r => by
    have h0 : (pt a 0 hk).val % 8 = 0 := pt_mod a 0 hk
    have h1 : ¬(pt a 0 hk).val % 8 = 7 := by rw [h0]; decide
    rw [outsAt1_A V c (pt a 0 hk) h0 h1]
    unfold outA
    dsimp only
    rw [sout1_A_0_eq, sout1_A_1_eq, sout1_A_2_eq, run_succ, run_zero]
    have hs := step_row (View.ld (iblk1 V c 1 (pt a 0 hk)) (rK (grid1.coords (pt a 0 hk))))
      (View.ld (iblk1 V c 2 (pt a 0 hk)) (rK (grid1.coords (pt a 0 hk)))) (iblk1 V c 0 (pt a 0 hk))
      (k1_pay4 (F := Ideal)) (k1_pay5 (F := Ideal)) (k1_pay6 (F := Ideal)) r St.init
      (fun h => pay4_apply _) (pay5_apply _) (pay6_apply _)
    rw [tile_scores V c a 0 hk r, tile_values V c a 0 hk] at hs
    exact hs
  | k + 1, hk, r => by
    have ih := state_at a k (by omega) r
    have hm : (pt a (k + 1) hk).val % 8 = k + 1 := pt_mod a (k + 1) hk
    have h0 : ¬(pt a (k + 1) hk).val % 8 = 0 := by rw [hm]; omega
    have hprev : outsAt1 V c ((pt a (k + 1) hk).val - 1) (Nat.lt_of_le_of_lt (Nat.sub_le _ _) (pt a (k + 1) hk).isLt)
        = outsAt1 V c (pt a k (by omega)).val (pt a k (by omega)).isLt :=
      outsAt1_congr V c (by show a.val * 8 + (k + 1) - 1 = a.val * 8 + k; omega) _ _
    by_cases h1 : (pt a (k + 1) hk).val % 8 = 7
    · rw [outsAt1_C V c (pt a (k + 1) hk) h0 h1, hprev]
      unfold outC
      dsimp only
      rw [sout1_C_0_eq, sout1_C_1_eq, sout1_C_2_eq, run_succ]
      have hs := step_row (View.ld (iblk1 V c 1 (pt a (k + 1) hk)) (rK (grid1.coords (pt a (k + 1) hk))))
        (View.ld (iblk1 V c 2 (pt a (k + 1) hk)) (rK (grid1.coords (pt a (k + 1) hk)))) (iblk1 V c 0 (pt a (k + 1) hk))
        _ _ _ r _ ih.1 ih.2.1 ih.2.2
      rw [tile_scores V c a (k + 1) hk r, tile_values V c a (k + 1) hk] at hs
      exact hs
    · rw [outsAt1_B V c (pt a (k + 1) hk) h0 h1, hprev]
      unfold outB
      dsimp only
      rw [sout1_B_0_eq, sout1_B_1_eq, sout1_B_2_eq, run_succ]
      have hs := step_row (View.ld (iblk1 V c 1 (pt a (k + 1) hk)) (rK (grid1.coords (pt a (k + 1) hk))))
        (View.ld (iblk1 V c 2 (pt a (k + 1) hk)) (rK (grid1.coords (pt a (k + 1) hk)))) (iblk1 V c 0 (pt a (k + 1) hk))
        _ _ _ r _ ih.1 ih.2.1 ih.2.2
      rw [tile_scores V c a (k + 1) hk r, tile_values V c a (k + 1) hk] at hs
      exact hs

/-- The kernel's result at row `p`, output feature `o`: the blocked form's row, projected by the output weights, plus the bias. -/
def kernelOut (p : Fin 16384) (o : Fin 256) : EReal :=
  (∑ h : Fin 128, flashRow (sB V c ⟨p.val / 1024, by omega⟩ ⟨p.val % 1024, Nat.mod_lt _ (by decide)⟩) (vB V c) h * Woa V c (ix2 h o))
    + boa V c (ix1 o)

/-- What the last key tile of query tile `a` stores into the output block, at row `r`. -/
theorem out_last (a : Fin 16) (r : Fin 1024) (o : Fin 256) :
    (outsAt1 V c (pt a 7 (by decide)).val (pt a 7 (by decide)).isLt).1 (ix2 r o)
      = (∑ h : Fin 128, flashRow (sB V c a r) (vB V c) h * Woa V c (ix2 h o)) + boa V c (ix1 o) := by
  have hm : (pt a 7 (by decide)).val % 8 = 7 := pt_mod a 7 (by decide)
  have h0 : ¬(pt a 7 (by decide)).val % 8 = 0 := by rw [hm]; decide
  have ih := state_at V c a 6 (by decide) r
  have hprev : outsAt1 V c ((pt a 7 (by decide)).val - 1) (Nat.lt_of_le_of_lt (Nat.sub_le _ _) (pt a 7 (by decide)).isLt)
      = outsAt1 V c (pt a 6 (by decide)).val (pt a 6 (by decide)).isLt :=
    outsAt1_congr V c (by show a.val * 8 + 7 - 1 = a.val * 8 + 6; omega) _ _
  rw [outsAt1_C V c (pt a 7 (by decide)) h0 hm, hprev]
  unfold outC
  dsimp only
  rw [out1_C_5_eq, pay3_apply]
  have hs := step_row (View.ld (iblk1 V c 1 (pt a 7 (by decide))) (rK (grid1.coords (pt a 7 (by decide)))))
    (View.ld (iblk1 V c 2 (pt a 7 (by decide))) (rK (grid1.coords (pt a 7 (by decide))))) (iblk1 V c 0 (pt a 7 (by decide)))
    _ _ _ r _ ih.1 ih.2.1 ih.2.2
  rw [tile_scores V c a 7 (by decide) r, tile_values V c a 7 (by decide)] at hs
  rw [iblk1_4_apply]
  refine congrArg (· + _) (Finset.sum_congr rfl fun h _ => ?_)
  rw [iblk1_3_apply]
  refine congrArg (· * _) ?_
  exact congrArg₂ Ideal.div (hs.1 h) hs.2.2

end Cert.KernelIdeal.Hand

end
-- ==== Proof.KIValue1d.lean ====
/-
  Region 1 at the extended reals: the result array after the region. Only the last key tile of each query tile writes
  its output block back; those sixteen blocks tile the rows of the result, so the array ends holding, row by row, the
  blocked softmax row projected by the output weights plus the bias.
-/
import proofs.«160914_j72550587564439_2_alg».proof.Proof.KIValue1c

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.OnlineSoftmax

variable (V : (c : Dev nD) → (b : Ref sig .tc) → Buf (Elt Ideal) ((c : Thread nD τ).loc b)) (c : Dev nD)

/-- The kernel's result at a row written as row `r` of query tile `a`. -/
theorem kernelOut_of (p : Fin 16384) (o : Fin 256) (a : Fin 16) (r : Fin 1024) (hp : p.val = a.val * 1024 + r.val) :
    kernelOut V c p o = (∑ h : Fin 128, flashRow (sB V c a r) (vB V c) h * Woa V c (ix2 h o)) + boa V c (ix1 o) := by
  have ea : (⟨p.val / 1024, by omega⟩ : Fin 16) = a := Fin.ext (by show p.val / 1024 = a.val; omega)
  have er : (⟨p.val % 1024, Nat.mod_lt _ (by decide)⟩ : Fin 1024) = r := Fin.ext (by show p.val % 1024 = r.val; omega)
  unfold kernelOut
  rw [ea, er]

/-- What a point of the last key tile stores into the output block, at row `r`: the point named by its number. -/
theorem out_last' (t : Fin cfg1.N) (h7 : t.val % 8 = 7) (a : Fin 16) (ha : a.val = t.val / 8) (r : Fin 1024) (o : Fin 256) :
    (outsAt1 V c t.val t.isLt).1 (ix2 r o)
      = (∑ h : Fin 128, flashRow (sB V c a r) (vB V c) h * Woa V c (ix2 h o)) + boa V c (ix1 o) := by
  have e : t = pt a 7 (by decide) := Fin.ext (by show t.val = a.val * 8 + 7; omega)
  subst e
  exact out_last V c a r o

/-- The whole result array. -/
def outArr : S16384x256.Idx → Elt Ideal .f32 := fun i => kernelOut V c (i 0) (i 1)

/-- What a writing point (the last key tile of its query tile) writes back is its block of that array. -/
theorem flushed5_eq (t : Fin cfg1.N) (hf : (cfg1.win 5).flush t = true) :
    (dat1 V c).flushed 5 t = ((cfg1.win 5).blk t).view.read (Elt Ideal) (outArr V c) := by
  have h7 : t.val % 8 = 7 := (flush1_5 t).mp hf
  have hN : t.val < 128 := lt_of_lt_of_eq t.isLt (show cfg1.N = 128 from N_1)
  show (cfg1.win 5).cut (grid1.coords t) ((dat1 V c).after 5 t) = _
  rw [after1_5]
  refine funext fun (y : S1024x256.Idx) => ?_
  obtain ⟨p, q, rfl⟩ : ∃ (p : Fin 1024) (q : Fin 256), y = ix2 p q := ⟨y 0, y 1, eq_ix2 y⟩
  show (outsAt1 V c t.val t.isLt).1 (ix2 p q) = outArr V c (((cfg1.win 5).blk t).view.emb (ix2 p q))
  have e0 : ((((cfg1.win 5).blk t).view.emb (ix2 p q)) 0).val = t.val / 8 * 1024 + p.val := by
    show win1_5.index t 0 * 1024 + 1 * p.val = t.val / 8 * 1024 + p.val
    rw [(idx1_5 t).1]; omega
  have e1 : ((((cfg1.win 5).blk t).view.emb (ix2 p q)) 1).val = q.val := by
    show win1_5.index t 1 * 256 + 1 * q.val = q.val
    rw [(idx1_5 t).2]; omega
  rw [out_last' V c t h7 ⟨t.val / 8, by omega⟩ rfl p q]
  unfold outArr
  have e1' : ((((cfg1.win 5).blk t).view.emb (ix2 p q)) 1) = q := Fin.ext e1
  exact (kernelOut_of V c ((((cfg1.win 5).blk t).view.emb (ix2 p q)) 0) q ⟨t.val / 8, by omega⟩ p e0).symm.trans
    (congrArg (kernelOut V c ((((cfg1.win 5).blk t).view.emb (ix2 p q)) 0)) e1'.symm)

theorem mem_blk5 (t : Fin cfg1.N) (i : S16384x256.Idx) :
    i ∈ ((cfg1.win 5).blk t).view.set ↔ ∀ a : Fin 2, win1_5.index t a * S1024x256.size a ≤ (i a).val ∧ (i a).val < win1_5.index t a * S1024x256.size a + S1024x256.size a := by
  show i ∈ ((View.whole main_v1).slice (win1_5.rect t)).set ↔ _
  rw [View.set_slice_whole, Rect.mem_set_unit]
  exact Iff.rfl

/-- THE RESULT ARRAY after the region. -/
theorem final5 : (dat1 V c).arrAt 5 cfg1.N = outArr V c :=
  (dat1 V c).arrAt_eq_of_cover 5 (outArr V c) (flushed5_eq V c) fun i => by
    have hi0 : (i 0).val < 16384 := (i 0).isLt
    have hi1 : (i 1).val < 256 := (i 1).isLt
    refine ⟨pt ⟨(i 0).val / 1024, by omega⟩ 7 (by decide), (flush1_5 _).mpr (pt_mod _ 7 (by decide)), ?_⟩
    rw [mem_blk5]
    intro a
    match a with
    | ⟨0, _⟩ =>
      show win1_5.index (pt ⟨(i 0).val / 1024, by omega⟩ 7 (by decide)) 0 * 1024 ≤ (i 0).val
        ∧ (i 0).val < win1_5.index (pt ⟨(i 0).val / 1024, by omega⟩ 7 (by decide)) 0 * 1024 + 1024
      rw [(idx1_5 _).1, pt_div]; dsimp only; omega
    | ⟨1, _⟩ =>
      show win1_5.index (pt ⟨(i 0).val / 1024, by omega⟩ 7 (by decide)) 1 * 256 ≤ (i 1).val
        ∧ (i 1).val < win1_5.index (pt ⟨(i 0).val / 1024, by omega⟩ 7 (by decide)) 1 * 256 + 256
      rw [(idx1_5 _).2]; omega

end Cert.KernelIdeal.Hand

end
-- ==== Proof.KIR0.lean ====
/- Region 0 of @main (the q/k/v projection call), at a parameter `V` — the TensorCore's buffer contents when the
   region is entered: each window's block at a grid point, what the body leaves in the three output buffers, the
   body's triple, the pipeline's proof data and its body obligation. -/
import proofs.«160914_j72550587564439_2_alg».proof.Proof.Gen.KernelIdeal.Launch
import proofs.«160914_j72550587564439_2_alg».proof.Proof.Gen.KernelIdeal.Skeleton
import proofs.«160914_j72550587564439_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s and whose body leaves the block in place: unfetched, the block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof
    data whose array is `V`'s and whose body leaves the block in place: unfetched, the block index has not moved. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not, for any proof
    data whose array is `V`'s and whose body leaves the block in place: unfetched, the block index has not moved. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not, for any proof
    data whose array is `V`'s and whose body leaves the block in place: unfetched, the block index has not moved. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rA : Rect S2048x256 := Rect.unit (s := S2048x256) ![0, 0] S2048x256.size inb_S2048x256_S2048x256_0_0
abbrev rW : Rect S256x128 := Rect.unit (s := S256x128) ![0, 0] S256x128.size inb_S256x128_S256x128_0_0
abbrev rB : Rect S128 := Rect.unit (s := S128) ![0] S128.size inb_S128_S128_0
abbrev rO : Rect S2048x128 := Rect.unit (s := S2048x128) ![0, 0] S2048x128.size inb_S2048x128_S2048x128_0_0

/-! ## What the body leaves in each output window's buffer -/

/-- Window 9's staging buffer after the body, from the input windows' blocks: its one store, of the whole buffer. -/
def out0_9 (x0 : Vec F S2048x256 .f32) (x3 : Vec F S256x128 .f32) (x4 : Vec F S128 .f32) : Vec F S2048x128 .bf16 :=
  View.canon [⟨rO, k0_pay1 (View.ld x0 rA) (View.ld x3 rW) (View.ld x4 rB)⟩]

/-- Window 10's staging buffer after the body, from the input windows' blocks: its one store, of the whole buffer. -/
def out0_10 (x1 : Vec F S2048x256 .f32) (x5 : Vec F S256x128 .f32) (x6 : Vec F S128 .f32) : Vec F S2048x128 .bf16 :=
  View.canon [⟨rO, k0_pay2 (View.ld x1 rA) (View.ld x5 rW) (View.ld x6 rB)⟩]

/-- Window 11's staging buffer after the body, from the input windows' blocks: its one store, of the whole buffer. -/
def out0_11 (x2 : Vec F S2048x256 .f32) (x7 : Vec F S256x128 .f32) (x8 : Vec F S128 .f32) : Vec F S2048x128 .bf16 :=
  View.canon [⟨rO, k0_pay3 (View.ld x2 rA) (View.ld x7 rW) (View.ld x8 rB)⟩]

/-- A store of the whole buffer covers it. -/
theorem cover0_O (p0 : Vec F S2048x128 .bf16) (y : S2048x128.Idx) :
    ∃ pc ∈ ([⟨rO, p0⟩] : List (View.Piece (Elt F) S2048x128 .bf16)), y ∈ pc.1.set :=
  View.cover_of_tiled [⟨rO, p0⟩] S2048x128.size (by rfl) y

/-! ## The body's triple -/

set_option maxHeartbeats 4000000 in
/-- The kernel body on whole staging memrefs, the inputs' at read contents `xW` and the outputs' at anything, runs to
    the continuation holding the inputs' as they were and each output's at `out0_W` of the inputs'. -/
theorem sound_kernel0 (c : Dev nD) (E : Set ℕ) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S256x128 .f32) (harg6 : arg6.IsWhole) (arg7 : Memref sig .tc .vmem S128 .f32) (harg7 : arg7.IsWhole) (arg8 : Memref sig .tc .vmem S256x128 .f32) (harg8 : arg8.IsWhole) (arg9 : Memref sig .tc .vmem S128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole)
    (x0 : Vec F S2048x256 .f32) (x1 : Vec F S2048x256 .f32) (x2 : Vec F S2048x256 .f32) (x3 : Vec F S256x128 .f32) (x4 : Vec F S128 .f32) (x5 : Vec F S256x128 .f32) (x6 : Vec F S128 .f32) (x7 : Vec F S256x128 .f32) (x8 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x3 x4) ∗ owns (c : Thread nD τ) arg11 fullShare (out0_10 x1 x5 x6) ∗ owns (c : Thread nD τ) arg12 fullShare (out0_11 x2 x7 x8)) -∗ K ⟨⟩))
      ⊢ wp frame (wpE (defs₀ (F := F)) Variants.none c none) E (cc0__qkv_proj_kernel i arg1 harg1 arg2 harg2 arg3 harg3 arg4 harg4 arg5 harg5 arg6 harg6 arg7 harg7 arg8 harg8 arg9 harg9 arg10 harg10 arg11 harg11 arg12 harg12) K := by
  simp only [cc0__qkv_proj_kernel_eq_skeleton]; unfold cc0__qkv_proj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover0_O _)
  isplitl [H10]
  · iexists _; isplitr
    swap; · iexact H10
    ipureintro
    exact View.read_writes_eq_canon _ _ _ (cover0_O _)
  iexists _; isplitr
  swap; · iexact H11
  ipureintro
  exact View.read_writes_eq_canon _ _ _ (cover0_O _)

/-! ## The pipeline's proof data -/

/-- The proof data of pipeline 0 on core `c`: the arrays as the region finds them (`V`); after the body at
    point `t` each input's buffer at its block and each output's at `out0_W` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 3 t) (iblk0 V c 4 t)
    | ⟨10, _⟩ => out0_10 (iblk0 V c 1 t) (iblk0 V c 5 t) (iblk0 V c 6 t)
    | ⟨11, _⟩ => out0_11 (iblk0 V c 2 t) (iblk0 V c 7 t) (iblk0 V c 8 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 3 t) (iblk0 V c 4 t) := by dsimp only [dat0]
theorem after0_10 (c : Dev nD) (t : Fin cfg0.N) : (dat0 V c).after 10 t = out0_10 (iblk0 V c 1 t) (iblk0 V c 5 t) (iblk0 V c 6 t) := by dsimp only [dat0]
theorem after0_11 (c : Dev nD) (t : Fin cfg0.N) : (dat0 V c).after 11 t = out0_11 (iblk0 V c 2 t) (iblk0 V c 7 t) (iblk0 V c 8 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

set_option maxHeartbeats 1000000 in
/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ (grid0.coords t) _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Spec.lean ====
/- The specification of this attention layer, index by index over the extended reals.

   Three affine projections of the inputs give queries, keys and values (128 features each); the score of query
   row `p` against key row `j` is their inner product times a fixed scale; each query row takes the softmax of its
   16384 scores, the weighted sum of the value rows, and a last affine map to 256 output features. -/
import proofs.«160914_j72550587564439_2_alg».proof.Proof.LibOnlineSoftmax
import Idealize.ShloMosaic.Lib.ValueIdx

noncomputable section

namespace Cert.Spec

open Idealize.ShloMosaic Idealize.ShloMosaic.ValueIdx
open scoped BigOperators

/-- An affine projection to 128 features: row `r` of `x` times the matrix `W`, plus the bias `b`. -/
def proj (x : (⟨2, ![16384, 256]⟩ : Shape).Idx → EReal) (W : (⟨2, ![256, 128]⟩ : Shape).Idx → EReal)
    (b : (⟨1, ![128]⟩ : Shape).Idx → EReal) (r : Fin 16384) (h : Fin 128) : EReal :=
  (∑ k : Fin 256, x (ix2 r k) * W (ix2 k h)) + b (ix1 h)

/-- The scale of the scores, `128 ^ (-1/2)` as the single-precision word the programs carry. -/
def scale : EReal := Ideal.ofBits .f32 0x3DB504F3#32

/-- The scaled scores of query row `p` against every key row. -/
def scoreRow (qh kh : Fin 16384 → Fin 128 → EReal) (p : Fin 16384) (j : Fin 16384) : EReal :=
  (∑ h : Fin 128, qh p h * kh j h) * scale

/-- The layer's output at row `p`, feature `o`: softmax attention of the projected inputs, then the output map. -/
def refOut (x0 x1 x2 : (⟨2, ![16384, 256]⟩ : Shape).Idx → EReal)
    (x3 : (⟨2, ![256, 128]⟩ : Shape).Idx → EReal) (x4 : (⟨1, ![128]⟩ : Shape).Idx → EReal)
    (x5 : (⟨2, ![256, 128]⟩ : Shape).Idx → EReal) (x6 : (⟨1, ![128]⟩ : Shape).Idx → EReal)
    (x7 : (⟨2, ![256, 128]⟩ : Shape).Idx → EReal) (x8 : (⟨1, ![128]⟩ : Shape).Idx → EReal)
    (x9 : (⟨2, ![128, 256]⟩ : Shape).Idx → EReal) (x10 : (⟨1, ![256]⟩ : Shape).Idx → EReal)
    (p : Fin 16384) (o : Fin 256) : EReal :=
  (∑ h : Fin 128,
      Cert.OnlineSoftmax.refRow (scoreRow (proj x0 x3 x4) (proj x1 x5 x6) p) (proj x2 x7 x8) h * x9 (ix2 h o))
    + x10 (ix1 o)

/-- The layer's output as an array over the literal output shape. -/
def refArr (x0 x1 x2 : (⟨2, ![16384, 256]⟩ : Shape).Idx → EReal)
    (x3 : (⟨2, ![256, 128]⟩ : Shape).Idx → EReal) (x4 : (⟨1, ![128]⟩ : Shape).Idx → EReal)
    (x5 : (⟨2, ![256, 128]⟩ : Shape).Idx → EReal) (x6 : (⟨1, ![128]⟩ : Shape).Idx → EReal)
    (x7 : (⟨2, ![256, 128]⟩ : Shape).Idx → EReal) (x8 : (⟨1, ![128]⟩ : Shape).Idx → EReal)
    (x9 : (⟨2, ![128, 256]⟩ : Shape).Idx → EReal) (x10 : (⟨1, ![256]⟩ : Shape).Idx → EReal) :
    (⟨2, ![16384, 256]⟩ : Shape).Idx → EReal :=
  fun i => refOut x0 x1 x2 x3 x4 x5 x6 x7 x8 x9 x10 (i 0) (i 1)

/-- A projection of real entries is real: finite sums and products of reals are real. -/
theorem proj_real (x : (⟨2, ![16384, 256]⟩ : Shape).Idx → EReal) (W : (⟨2, ![256, 128]⟩ : Shape).Idx → EReal)
    (b : (⟨1, ![128]⟩ : Shape).Idx → EReal) (hx : ∀ i, ∃ r : ℝ, x i = r) (hW : ∀ i, ∃ r : ℝ, W i = r)
    (hb : ∀ i, ∃ r : ℝ, b i = r) (r : Fin 16384) (h : Fin 128) : ∃ t : ℝ, proj x W b r h = t := by
  choose xr hxr using hx
  choose Wr hWr using hW
  choose br hbr using hb
  refine ⟨(∑ k : Fin 256, xr (ix2 r k) * Wr (ix2 k h)) + br (ix1 h), ?_⟩
  unfold proj
  simp only [hxr, hWr, hbr, EReal.coe_add, EReal.coe_mul, Cert.OnlineSoftmax.coe_sum]

/-- A score of real queries and keys is real. -/
theorem scoreRow_real (qh kh : Fin 16384 → Fin 128 → EReal) (hq : ∀ p h, ∃ r : ℝ, qh p h = r)
    (hk : ∀ p h, ∃ r : ℝ, kh p h = r) (hsc : ∃ r : ℝ, scale = r) (p j : Fin 16384) :
    ∃ t : ℝ, scoreRow qh kh p j = t := by
  choose qr hqr using hq
  choose kr hkr using hk
  obtain ⟨c, hc⟩ := hsc
  refine ⟨(∑ h : Fin 128, qr p h * kr j h) * c, ?_⟩
  unfold scoreRow
  simp only [hqr, hkr, hc, EReal.coe_mul, Cert.OnlineSoftmax.coe_sum]

end Cert.Spec
-- ==== Proof.KIValue0.lean ====
/- Region 0's three output arrays in closed form over the extended reals: each is the row-tiled projection
   x · W + b of its operands, entry by entry. A grid point writes back one block of 2048 rows; the eight blocks tile the
   16384 rows, so the array after the region is the projection everywhere. -/
import proofs.«160914_j72550587564439_2_alg».proof.Proof.KIR0
import proofs.«160914_j72550587564439_2_alg».proof.Proof.LibMatmulNN
import proofs.«160914_j72550587564439_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## The body's payload at an entry -/

theorem hzero2 : (![0, 0] : Fin 2 → Nat) = fun _ => 0 := funext fun a => by fin_cases a <;> rfl
theorem hzero1 : (![0] : Fin 1 → Nat) = fun _ => 0 := funext fun a => by fin_cases a <;> rfl

/-- The bias, viewed as one row and repeated down the 2048 rows, reads at (p, q) its entry q. -/
theorem r0_bias_apply (b : Vec Ideal S128 .f32) (p : Fin 2048) (q : Fin 128) :
    broadcastTo S2048x128 (shapeCast S1x128 b shapeCasts_S128_S1x128) broadcasts_S1x128_S2048x128 (ix2 p q) = b (ix1 q) := by
  refine (broadcastTo_apply _ broadcasts_S1x128_S2048x128 (ix2 p q) (ix2 (0 : Fin 1) q) fun a => ?_).trans ?_
  · match a with
    | ⟨0, _⟩ => rfl
    | ⟨1, _⟩ => rfl
  · refine (shapeCast_addUnit_apply ![128] b shapeCasts_S128_S1x128 (ix2 (0 : Fin 1) q)).trans ?_
    exact congrArg b (funext fun a => by match a with | ⟨0, _⟩ => rfl)

/-- The first payload at entry (p, q): row p of x times column q of W, plus the bias at q (the format changes are the
    identity over the extended reals; the product accumulates into zeros). -/
theorem k0pay1_apply (x : Vec Ideal S2048x256 .f32) (W : Vec Ideal S256x128 .f32) (b : Vec Ideal S128 .f32) (p : Fin 2048) (q : Fin 128) :
    k0_pay1 x W b (ix2 p q) = (∑ k : Fin 256, x (ix2 p k) * W (ix2 k q)) + b (ix1 q) := by
  unfold k0_pay1
  rw [truncf_apply, addf_apply, r0_bias_apply]
  congr 1
  exact Cert.MatmulNN.matmul_zero_apply dot_S2048x256_S256x128_S2048x128_1_0_0_1_n_n rfl none _ _ p q
/-- The second and third payloads are the same function of their operands. -/
theorem k0pay2_apply (x : Vec Ideal S2048x256 .f32) (W : Vec Ideal S256x128 .f32) (b : Vec Ideal S128 .f32) (p : Fin 2048) (q : Fin 128) :
    k0_pay2 x W b (ix2 p q) = (∑ k : Fin 256, x (ix2 p k) * W (ix2 k q)) + b (ix1 q) := k0pay1_apply x W b p q
theorem k0pay3_apply (x : Vec Ideal S2048x256 .f32) (W : Vec Ideal S256x128 .f32) (b : Vec Ideal S128 .f32) (p : Fin 2048) (q : Fin 128) :
    k0_pay3 x W b (ix2 p q) = (∑ k : Fin 256, x (ix2 p k) * W (ix2 k q)) + b (ix1 q) := k0pay1_apply x W b p q

/-- A block's row of x, column of W and entry of b that are the arrays' at (r, ·), (·, h) and h give the projection at (r, h). -/
theorem r0_blk_proj (x : S16384x256.Idx → EReal) (W : S256x128.Idx → EReal) (b : S128.Idx → EReal)
    (xb : S2048x256.Idx → EReal) (Wb : S256x128.Idx → EReal) (bb : S128.Idx → EReal)
    (r : Fin 16384) (h : Fin 128) (p : Fin 2048) (q : Fin 128)
    (hx : ∀ k : Fin 256, xb (ix2 p k) = x (ix2 r k)) (hW : ∀ k : Fin 256, Wb (ix2 k q) = W (ix2 k h)) (hb : bb (ix1 q) = b (ix1 h)) :
    (∑ k : Fin 256, xb (ix2 p k) * Wb (ix2 k q)) + bb (ix1 q) = Cert.Spec.proj x W b r h := by
  unfold Cert.Spec.proj
  rw [hb]
  congr 1
  exact Finset.sum_congr rfl fun k _ => by rw [hx k, hW k]

/-! ## From blocks to the arrays -/

variable (V : (c : Dev nD) → (b : Ref sig .tc) → Buf (Elt Ideal) ((c : Thread nD τ).loc b))

/-- The printed index maps over the grid: point t stages rows [2048 t, 2048 (t + 1)) of each row-tiled operand and
    result, all their columns; the weights and biases whole. -/
theorem r0_idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0
    ∧ win0_7.index t (0 : Fin 2) = 0 ∧ win0_7.index t (1 : Fin 2) = 0 ∧ win0_8.index t (0 : Fin 1) = 0
    ∧ win0_9.index t (0 : Fin 2) = t.val ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

/-! ### Output window 9 -/

/-- What the window's array ends holding: the projection of its three operands. -/
abbrev r0_G9 (c : Dev nD) : S16384x128.Idx → Elt Ideal .bf16 :=
  fun i => Cert.Spec.proj (V c main_arg0) (V c main_arg3) (V c main_arg4) (i 0) (i 1)

/-- What point t writes back is block t of the projection. -/
theorem r0_flushed9_eq (c : Dev nD) (t : Fin cfg0.N) :
    (dat0 V c).flushed 9 t = ((cfg0.win 9).blk t).view.read (Elt Ideal) (r0_G9 V c) := by
  show (cfg0.win 9).cut (grid0.coords t) ((dat0 V c).after 9 t) = _
  rw [after0_9]
  unfold out0_9
  rw [View.canon_unit_zero hzero2]
  simp only [View.ld_unit_zero (S := S2048x256) hzero2, View.ld_unit_zero (S := S256x128) hzero2, View.ld_unit_zero (S := S128) hzero1]
  obtain ⟨e00, e01, e10, e11, e20, e21, e30, e31, e40, e50, e51, e60, e70, e71, e80, e90, e91, e100, e101, e110, e111⟩ := r0_idx_facts t
  funext j
  obtain ⟨p, q, rfl⟩ : ∃ (p : Fin 2048) (q : Fin 128), j = ix2 p q := ⟨j 0, j 1, eq_ix2 j⟩
  refine (k0pay1_apply _ _ _ p q).trans ?_
  show _ = Cert.Spec.proj (V c main_arg0) (V c main_arg3) (V c main_arg4) ((((cfg0.win 9).blk t).view.emb (ix2 p q)) 0) ((((cfg0.win 9).blk t).view.emb (ix2 p q)) 1)
  have hx : ∀ k : Fin 256, ((cfg0.win 0).blk t).view.emb (ix2 p k) = ix2 ((((cfg0.win 9).blk t).view.emb (ix2 p q)) 0) k := fun k => by
    funext a; apply Fin.ext
    match a with
    | ⟨0, _⟩ => show win0_0.index t (0 : Fin 2) * 2048 + 1 * p.val = win0_9.index t (0 : Fin 2) * 2048 + 1 * p.val; omega
    | ⟨1, _⟩ => show win0_0.index t (1 : Fin 2) * 256 + 1 * k.val = k.val; omega
  have hW : ∀ k : Fin 256, ((cfg0.win 3).blk t).view.emb (ix2 k q) = ix2 k ((((cfg0.win 9).blk t).view.emb (ix2 p q)) 1) := fun k => by
    funext a; apply Fin.ext
    match a with
    | ⟨0, _⟩ => show win0_3.index t (0 : Fin 2) * 256 + 1 * k.val = k.val; omega
    | ⟨1, _⟩ => show win0_3.index t (1 : Fin 2) * 128 + 1 * q.val = win0_9.index t (1 : Fin 2) * 128 + 1 * q.val; omega
  have hb : ((cfg0.win 4).blk t).view.emb (ix1 q) = ix1 ((((cfg0.win 9).blk t).view.emb (ix2 p q)) 1) := by
    funext a; apply Fin.ext
    match a with
    | ⟨0, _⟩ => show win0_4.index t (0 : Fin 1) * 128 + 1 * q.val = win0_9.index t (1 : Fin 2) * 128 + 1 * q.val; omega
  refine r0_blk_proj (V c main_arg0) (V c main_arg3) (V c main_arg4) _ _ _ _ _ p q (fun k => ?_) (fun k => ?_) ?_
  · exact congrArg (V c main_arg0) (hx k)
  · exact congrArg (V c main_arg3) (hW k)
  · exact congrArg (V c main_arg4) hb

/-- An index of the array is in point t's block iff each coordinate is in the block's range on its axis. -/
theorem r0_mem_blk9 (t : Fin cfg0.N) (i : S16384x128.Idx) :
    i ∈ ((cfg0.win 9).blk t).view.set ↔ ∀ a : Fin 2, win0_9.index t a * S2048x128.size a ≤ (i a).val ∧ (i a).val < win0_9.index t a * S2048x128.size a + S2048x128.size a := by
  show i ∈ ((View.whole main_v0_0).slice (win0_9.rect t)).set ↔ _
  rw [View.set_slice_whole, Rect.mem_set_unit]
  exact Iff.rfl

/-- Every entry is in some point's block: row r in the block of point r / 2048. -/
theorem r0_cover9 (i : S16384x128.Idx) : ∃ t : Fin cfg0.N, (cfg0.win 9).flush t = true ∧ i ∈ ((cfg0.win 9).blk t).view.set := by
  have hi0 : (i 0).val < 16384 := (i 0).isLt
  have hi1 : (i 1).val < 128 := (i 1).isLt
  let t : Fin cfg0.N := ⟨(i 0).val / 2048, by rw [show cfg0.N = 8 from N_0]; omega⟩
  have htv : t.val = (i 0).val / 2048 := rfl
  obtain ⟨e00, e01, e10, e11, e20, e21, e30, e31, e40, e50, e51, e60, e70, e71, e80, e90, e91, e100, e101, e110, e111⟩ := r0_idx_facts t
  refine ⟨t, flush0_9 t, ?_⟩
  rw [r0_mem_blk9]
  intro a
  match a with
  | ⟨0, _⟩ => show win0_9.index t (0 : Fin 2) * 2048 ≤ (i 0).val ∧ (i 0).val < win0_9.index t (0 : Fin 2) * 2048 + 2048; omega
  | ⟨1, _⟩ => show win0_9.index t (1 : Fin 2) * 128 ≤ (i 1).val ∧ (i 1).val < win0_9.index t (1 : Fin 2) * 128 + 128; omega

/-- THE ARRAY after region 0: the projection, everywhere. -/
theorem final0_9 (c : Dev nD) : (dat0 V c).arrAt 9 cfg0.N
      = fun (i : S16384x128.Idx) => Cert.Spec.proj (V c main_arg0) (V c main_arg3) (V c main_arg4) (i 0) (i 1) :=
  (dat0 V c).arrAt_eq_of_cover 9 (r0_G9 V c) (fun t _ => r0_flushed9_eq V c t) r0_cover9

/-! ### Output window 10 -/

/-- What the window's array ends holding: the projection of its three operands. -/
abbrev r0_G10 (c : Dev nD) : S16384x128.Idx → Elt Ideal .bf16 :=
  fun i => Cert.Spec.proj (V c main_arg1) (V c main_arg5) (V c main_arg6) (i 0) (i 1)

/-- What point t writes back is block t of the projection. -/
theorem r0_flushed10_eq (c : Dev nD) (t : Fin cfg0.N) :
    (dat0 V c).flushed 10 t = ((cfg0.win 10).blk t).view.read (Elt Ideal) (r0_G10 V c) := by
  show (cfg0.win 10).cut (grid0.coords t) ((dat0 V c).after 10 t) = _
  rw [after0_10]
  unfold out0_10
  rw [View.canon_unit_zero hzero2]
  simp only [View.ld_unit_zero (S := S2048x256) hzero2, View.ld_unit_zero (S := S256x128) hzero2, View.ld_unit_zero (S := S128) hzero1]
  obtain ⟨e00, e01, e10, e11, e20, e21, e30, e31, e40, e50, e51, e60, e70, e71, e80, e90, e91, e100, e101, e110, e111⟩ := r0_idx_facts t
  funext j
  obtain ⟨p, q, rfl⟩ : ∃ (p : Fin 2048) (q : Fin 128), j = ix2 p q := ⟨j 0, j 1, eq_ix2 j⟩
  refine (k0pay2_apply _ _ _ p q).trans ?_
  show _ = Cert.Spec.proj (V c main_arg1) (V c main_arg5) (V c main_arg6) ((((cfg0.win 10).blk t).view.emb (ix2 p q)) 0) ((((cfg0.win 10).blk t).view.emb (ix2 p q)) 1)
  have hx : ∀ k : Fin 256, ((cfg0.win 1).blk t).view.emb (ix2 p k) = ix2 ((((cfg0.win 10).blk t).view.emb (ix2 p q)) 0) k := fun k => by
    funext a; apply Fin.ext
    match a with
    | ⟨0, _⟩ => show win0_1.index t (0 : Fin 2) * 2048 + 1 * p.val = win0_10.index t (0 : Fin 2) * 2048 + 1 * p.val; omega
    | ⟨1, _⟩ => show win0_1.index t (1 : Fin 2) * 256 + 1 * k.val = k.val; omega
  have hW : ∀ k : Fin 256, ((cfg0.win 5).blk t).view.emb (ix2 k q) = ix2 k ((((cfg0.win 10).blk t).view.emb (ix2 p q)) 1) := fun k => by
    funext a; apply Fin.ext
    match a with
    | ⟨0, _⟩ => show win0_5.index t (0 : Fin 2) * 256 + 1 * k.val = k.val; omega
    | ⟨1, _⟩ => show win0_5.index t (1 : Fin 2) * 128 + 1 * q.val = win0_10.index t (1 : Fin 2) * 128 + 1 * q.val; omega
  have hb : ((cfg0.win 6).blk t).view.emb (ix1 q) = ix1 ((((cfg0.win 10).blk t).view.emb (ix2 p q)) 1) := by
    funext a; apply Fin.ext
    match a with
    | ⟨0, _⟩ => show win0_6.index t (0 : Fin 1) * 128 + 1 * q.val = win0_10.index t (1 : Fin 2) * 128 + 1 * q.val; omega
  refine r0_blk_proj (V c main_arg1) (V c main_arg5) (V c main_arg6) _ _ _ _ _ p q (fun k => ?_) (fun k => ?_) ?_
  · exact congrArg (V c main_arg1) (hx k)
  · exact congrArg (V c main_arg5) (hW k)
  · exact congrArg (V c main_arg6) hb

/-- An index of the array is in point t's block iff each coordinate is in the block's range on its axis. -/
theorem r0_mem_blk10 (t : Fin cfg0.N) (i : S16384x128.Idx) :
    i ∈ ((cfg0.win 10).blk t).view.set ↔ ∀ a : Fin 2, win0_10.index t a * S2048x128.size a ≤ (i a).val ∧ (i a).val < win0_10.index t a * S2048x128.size a + S2048x128.size a := by
  show i ∈ ((View.whole main_v0_1).slice (win0_10.rect t)).set ↔ _
  rw [View.set_slice_whole, Rect.mem_set_unit]
  exact Iff.rfl

/-- Every entry is in some point's block: row r in the block of point r / 2048. -/
theorem r0_cover10 (i : S16384x128.Idx) : ∃ t : Fin cfg0.N, (cfg0.win 10).flush t = true ∧ i ∈ ((cfg0.win 10).blk t).view.set := by
  have hi0 : (i 0).val < 16384 := (i 0).isLt
  have hi1 : (i 1).val < 128 := (i 1).isLt
  let t : Fin cfg0.N := ⟨(i 0).val / 2048, by rw [show cfg0.N = 8 from N_0]; omega⟩
  have htv : t.val = (i 0).val / 2048 := rfl
  obtain ⟨e00, e01, e10, e11, e20, e21, e30, e31, e40, e50, e51, e60, e70, e71, e80, e90, e91, e100, e101, e110, e111⟩ := r0_idx_facts t
  refine ⟨t, flush0_10 t, ?_⟩
  rw [r0_mem_blk10]
  intro a
  match a with
  | ⟨0, _⟩ => show win0_10.index t (0 : Fin 2) * 2048 ≤ (i 0).val ∧ (i 0).val < win0_10.index t (0 : Fin 2) * 2048 + 2048; omega
  | ⟨1, _⟩ => show win0_10.index t (1 : Fin 2) * 128 ≤ (i 1).val ∧ (i 1).val < win0_10.index t (1 : Fin 2) * 128 + 128; omega

/-- THE ARRAY after region 0: the projection, everywhere. -/
theorem final0_10 (c : Dev nD) : (dat0 V c).arrAt 10 cfg0.N
      = fun (i : S16384x128.Idx) => Cert.Spec.proj (V c main_arg1) (V c main_arg5) (V c main_arg6) (i 0) (i 1) :=
  (dat0 V c).arrAt_eq_of_cover 10 (r0_G10 V c) (fun t _ => r0_flushed10_eq V c t) r0_cover10

/-! ### Output window 11 -/

/-- What the window's array ends holding: the projection of its three operands. -/
abbrev r0_G11 (c : Dev nD) : S16384x128.Idx → Elt Ideal .bf16 :=
  fun i => Cert.Spec.proj (V c main_arg2) (V c main_arg7) (V c main_arg8) (i 0) (i 1)

/-- What point t writes back is block t of the projection. -/
theorem r0_flushed11_eq (c : Dev nD) (t : Fin cfg0.N) :
    (dat0 V c).flushed 11 t = ((cfg0.win 11).blk t).view.read (Elt Ideal) (r0_G11 V c) := by
  show (cfg0.win 11).cut (grid0.coords t) ((dat0 V c).after 11 t) = _
  rw [after0_11]
  unfold out0_11
  rw [View.canon_unit_zero hzero2]
  simp only [View.ld_unit_zero (S := S2048x256) hzero2, View.ld_unit_zero (S := S256x128) hzero2, View.ld_unit_zero (S := S128) hzero1]
  obtain ⟨e00, e01, e10, e11, e20, e21, e30, e31, e40, e50, e51, e60, e70, e71, e80, e90, e91, e100, e101, e110, e111⟩ := r0_idx_facts t
  funext j
  obtain ⟨p, q, rfl⟩ : ∃ (p : Fin 2048) (q : Fin 128), j = ix2 p q := ⟨j 0, j 1, eq_ix2 j⟩
  refine (k0pay3_apply _ _ _ p q).trans ?_
  show _ = Cert.Spec.proj (V c main_arg2) (V c main_arg7) (V c main_arg8) ((((cfg0.win 11).blk t).view.emb (ix2 p q)) 0) ((((cfg0.win 11).blk t).view.emb (ix2 p q)) 1)
  have hx : ∀ k : Fin 256, ((cfg0.win 2).blk t).view.emb (ix2 p k) = ix2 ((((cfg0.win 11).blk t).view.emb (ix2 p q)) 0) k := fun k => by
    funext a; apply Fin.ext
    match a with
    | ⟨0, _⟩ => show win0_2.index t (0 : Fin 2) * 2048 + 1 * p.val = win0_11.index t (0 : Fin 2) * 2048 + 1 * p.val; omega
    | ⟨1, _⟩ => show win0_2.index t (1 : Fin 2) * 256 + 1 * k.val = k.val; omega
  have hW : ∀ k : Fin 256, ((cfg0.win 7).blk t).view.emb (ix2 k q) = ix2 k ((((cfg0.win 11).blk t).view.emb (ix2 p q)) 1) := fun k => by
    funext a; apply Fin.ext
    match a with
    | ⟨0, _⟩ => show win0_7.index t (0 : Fin 2) * 256 + 1 * k.val = k.val; omega
    | ⟨1, _⟩ => show win0_7.index t (1 : Fin 2) * 128 + 1 * q.val = win0_11.index t (1 : Fin 2) * 128 + 1 * q.val; omega
  have hb : ((cfg0.win 8).blk t).view.emb (ix1 q) = ix1 ((((cfg0.win 11).blk t).view.emb (ix2 p q)) 1) := by
    funext a; apply Fin.ext
    match a with
    | ⟨0, _⟩ => show win0_8.index t (0 : Fin 1) * 128 + 1 * q.val = win0_11.index t (1 : Fin 2) * 128 + 1 * q.val; omega
  refine r0_blk_proj (V c main_arg2) (V c main_arg7) (V c main_arg8) _ _ _ _ _ p q (fun k => ?_) (fun k => ?_) ?_
  · exact congrArg (V c main_arg2) (hx k)
  · exact congrArg (V c main_arg7) (hW k)
  · exact congrArg (V c main_arg8) hb

/-- An index of the array is in point t's block iff each coordinate is in the block's range on its axis. -/
theorem r0_mem_blk11 (t : Fin cfg0.N) (i : S16384x128.Idx) :
    i ∈ ((cfg0.win 11).blk t).view.set ↔ ∀ a : Fin 2, win0_11.index t a * S2048x128.size a ≤ (i a).val ∧ (i a).val < win0_11.index t a * S2048x128.size a + S2048x128.size a := by
  show i ∈ ((View.whole main_v0_2).slice (win0_11.rect t)).set ↔ _
  rw [View.set_slice_whole, Rect.mem_set_unit]
  exact Iff.rfl

/-- Every entry is in some point's block: row r in the block of point r / 2048. -/
theorem r0_cover11 (i : S16384x128.Idx) : ∃ t : Fin cfg0.N, (cfg0.win 11).flush t = true ∧ i ∈ ((cfg0.win 11).blk t).view.set := by
  have hi0 : (i 0).val < 16384 := (i 0).isLt
  have hi1 : (i 1).val < 128 := (i 1).isLt
  let t : Fin cfg0.N := ⟨(i 0).val / 2048, by rw [show cfg0.N = 8 from N_0]; omega⟩
  have htv : t.val = (i 0).val / 2048 := rfl
  obtain ⟨e00, e01, e10, e11, e20, e21, e30, e31, e40, e50, e51, e60, e70, e71, e80, e90, e91, e100, e101, e110, e111⟩ := r0_idx_facts t
  refine ⟨t, flush0_11 t, ?_⟩
  rw [r0_mem_blk11]
  intro a
  match a with
  | ⟨0, _⟩ => show win0_11.index t (0 : Fin 2) * 2048 ≤ (i 0).val ∧ (i 0).val < win0_11.index t (0 : Fin 2) * 2048 + 2048; omega
  | ⟨1, _⟩ => show win0_11.index t (1 : Fin 2) * 128 ≤ (i 1).val ∧ (i 1).val < win0_11.index t (1 : Fin 2) * 128 + 128; omega

/-- THE ARRAY after region 0: the projection, everywhere. -/
theorem final0_11 (c : Dev nD) : (dat0 V c).arrAt 11 cfg0.N
      = fun (i : S16384x128.Idx) => Cert.Spec.proj (V c main_arg2) (V c main_arg7) (V c main_arg8) (i 0) (i 1) :=
  (dat0 V c).arrAt_eq_of_cover 11 (r0_G11 V c) (fun t _ => r0_flushed11_eq V c t) r0_cover11

end Cert.KernelIdeal.Hand

end
-- ==== Proof.KIRun.lean ====
/- The run of @main: two kernel regions in sequence, no host operation between them. The buffer contents at each
   boundary as a fold from the launch memory, each argument array read back through the fold to its launch contents,
   each region as a segment over the thread state "every unscoped buffer at the boundary's contents, the generator
   register at some state, nothing owed", and the frame: every weakly fair execution terminates without fault and
   every final state holds the unscoped buffers at the last boundary's contents. -/
import proofs.«160914_j72550587564439_2_alg».proof.Proof.KIR0
import proofs.«160914_j72550587564439_2_alg».proof.Proof.KIR1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch (region 0's entry). -/
abbrev W0 : Dev nD → Valuation τ sig (Elt F) := fun c b => (s₀ m ρ).mem ((c : Dev nD), b)
/-- The same read at the TensorCore's references (what region 0's proof data take). -/
abbrev V0r : (c : Dev nD) → (b : Ref sig .tc) → Buf (Elt F) ((c : Thread nD τ).loc b) := fun c b => W0 m ρ c b
/-- At region 0's exit: its arrays at what the pipeline leaves (the inputs as entered, each output's write-backs
    folded), every other buffer as entered. -/
def W2 (c : Dev nD) : Valuation τ sig (Elt F) :=
  Pipeline.withArrays spec0 c (W0 m ρ c) fun w => (dat0 (V0r m ρ) c).arrAt w cfg0.N
theorem W2_arr (c : Dev nD) (w : Fin cfg0.W) :
    W2 m ρ c (Proc.devRef .tc (Pipeline.arrRef spec0 w)) = (dat0 (V0r m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
/-- The same read at the TensorCore's references (region 0's exit contents, region 1's entry). -/
abbrev V2 : (c : Dev nD) → (b : Ref sig .tc) → Buf (Elt F) ((c : Thread nD τ).loc b) := fun c b => W2 m ρ c b
/-- At region 0's exit each of its arrays holds what the pipeline leaves and every other buffer what it held at entry. -/
theorem hF0 (c : Dev nD) (w : Fin cfg0.W) : (dat0 (V0r m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V0r m ρ c b :=
  fun b hb => W2_of_ne m ρ c b fun w e => hb (Finset.mem_image.mpr ⟨w, Finset.mem_univ _, e⟩)

/-- At region 1's exit: its arrays at what the pipeline leaves, every other buffer as entered. -/
def W4 (c : Dev nD) : Valuation τ sig (Elt F) :=
  Pipeline.withArrays spec1 c (W2 m ρ c) fun w => (dat1 (V2 m ρ) c).arrAt w cfg1.N
theorem W4_arr (c : Dev nD) (w : Fin cfg1.W) :
    W4 m ρ c (Proc.devRef .tc (Pipeline.arrRef spec1 w)) = (dat1 (V2 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W2 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
theorem hF1 (c : Dev nD) (w : Fin cfg1.W) : (dat1 (V2 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V2 m ρ c b :=
  fun b hb => W4_of_ne m ρ c b fun w e => hb (Finset.mem_image.mpr ⟨w, Finset.mem_univ _, e⟩)

/-! ### The arguments end as launched: no region writes one (a region reads it through an input window or bypasses
    it), so the fold at an argument's buffer walks back to the launch memory -/

theorem W4_main_arg0 (c : Dev nD) : W4 m ρ c (Proc.devRef .tc main_arg0) = m ((c : Thread nD τ).loc main_arg0) :=
  calc W4 m ρ c (Proc.devRef .tc main_arg0)
    _ = W2 m ρ c (Proc.devRef .tc main_arg0) := W4_of_ne m ρ c main_arg0 (by decide)
    _ = W0 m ρ c (Proc.devRef .tc main_arg0) := (W2_arr m ρ c 0).trans (((dat0 (V0r m ρ) c).arrAt_in 0 rfl _).trans (A_eq0 (V0r m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W2 m ρ c (Proc.devRef .tc main_arg1) := W4_of_ne m ρ c main_arg1 (by decide)
    _ = W0 m ρ c (Proc.devRef .tc main_arg1) := (W2_arr m ρ c 1).trans (((dat0 (V0r m ρ) c).arrAt_in 1 rfl _).trans (A_eq0 (V0r m ρ) c 1))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W2 m ρ c (Proc.devRef .tc main_arg2) := W4_of_ne m ρ c main_arg2 (by decide)
    _ = W0 m ρ c (Proc.devRef .tc main_arg2) := (W2_arr m ρ c 2).trans (((dat0 (V0r m ρ) c).arrAt_in 2 rfl _).trans (A_eq0 (V0r m ρ) c 2))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W2 m ρ c (Proc.devRef .tc main_arg3) := W4_of_ne m ρ c main_arg3 (by decide)
    _ = W0 m ρ c (Proc.devRef .tc main_arg3) := (W2_arr m ρ c 3).trans (((dat0 (V0r m ρ) c).arrAt_in 3 rfl _).trans (A_eq0 (V0r m ρ) c 3))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W2 m ρ c (Proc.devRef .tc main_arg4) := W4_of_ne m ρ c main_arg4 (by decide)
    _ = W0 m ρ c (Proc.devRef .tc main_arg4) := (W2_arr m ρ c 4).trans (((dat0 (V0r m ρ) c).arrAt_in 4 rfl _).trans (A_eq0 (V0r m ρ) c 4))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W2 m ρ c (Proc.devRef .tc main_arg5) := W4_of_ne m ρ c main_arg5 (by decide)
    _ = W0 m ρ c (Proc.devRef .tc main_arg5) := (W2_arr m ρ c 5).trans (((dat0 (V0r m ρ) c).arrAt_in 5 rfl _).trans (A_eq0 (V0r m ρ) c 5))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W2 m ρ c (Proc.devRef .tc main_arg6) := W4_of_ne m ρ c main_arg6 (by decide)
    _ = W0 m ρ c (Proc.devRef .tc main_arg6) := (W2_arr m ρ c 6).trans (((dat0 (V0r m ρ) c).arrAt_in 6 rfl _).trans (A_eq0 (V0r m ρ) c 6))
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W2 m ρ c (Proc.devRef .tc main_arg7) := W4_of_ne m ρ c main_arg7 (by decide)
    _ = W0 m ρ c (Proc.devRef .tc main_arg7) := (W2_arr m ρ c 7).trans (((dat0 (V0r m ρ) c).arrAt_in 7 rfl _).trans (A_eq0 (V0r m ρ) c 7))
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W2 m ρ c (Proc.devRef .tc main_arg8) := W4_of_ne m ρ c main_arg8 (by decide)
    _ = W0 m ρ c (Proc.devRef .tc main_arg8) := (W2_arr m ρ c 8).trans (((dat0 (V0r m ρ) c).arrAt_in 8 rfl _).trans (A_eq0 (V0r m ρ) c 8))
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W2 m ρ c (Proc.devRef .tc main_arg9) := (W4_arr m ρ c 3).trans (((dat1 (V2 m ρ) c).arrAt_in 3 rfl _).trans (A_eq1 (V2 m ρ) c 3))
    _ = W0 m ρ c (Proc.devRef .tc main_arg9) := W2_of_ne m ρ c main_arg9 (by decide)
    _ = m ((c : Thread nD τ).loc main_arg9) := rfl

theorem W4_main_arg10 (c : Dev nD) : W4 m ρ c (Proc.devRef .tc main_arg10) = m ((c : Thread nD τ).loc main_arg10) :=
  calc W4 m ρ c (Proc.devRef .tc main_arg10)
    _ = W2 m ρ c (Proc.devRef .tc main_arg10) := (W4_arr m ρ c 4).trans (((dat1 (V2 m ρ) c).arrAt_in 4 rfl _).trans (A_eq1 (V2 m ρ) c 4))
    _ = W0 m ρ c (Proc.devRef .tc main_arg10) := W2_of_ne m ρ c main_arg10 (by decide)
    _ = m ((c : Thread nD τ).loc main_arg10) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0r m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W4`, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- REGION 0 over the thread state: entered from every unscoped buffer at `W0`, left at `W2`. Its arrays split
    out of the unscoped buffers and put back at the exit contents; the generator register into the pipeline's
    invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0r m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V0r m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0r m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W4`. Its arrays split
    out of the unscoped buffers and put back at the exit contents; the generator register into the pipeline's
    invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    have h := hin1 (V2 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (dat1 (V2 m ρ) c).Φ (Fin.last cfg1.N) from rfl]
    have h := hout1 (V2 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 2 segments in order: a region per kernel call. -/
abbrev segs : List (Pipeline.Seg (pcfgs (F := F)) adm (pdats m ρ) () defs₀ 𝒱₀ L lv) :=
  [ .region (reg0 m ρ),
    .region (reg1 m ρ) ]
/-- @main is the run of the segments. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and every final state holds every unscoped buffer at the last boundary's
    contents `W4`. -/
theorem run : θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every final state has the argument arrays as launched: each argument read off `W4`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c),
      (h c _ (mem_uc main_arg10 (by decide))).trans (W4_main_arg10 m ρ c)⟩) (run m ρ)

end Cert.KernelIdeal.Hand

end
-- ==== Proof.LibRealEntries.lean ====
/-
  Reusable lemmas: arrays over the extended reals all of whose entries are real numbers.

  An extended real is either a real number or one of the two infinities.  Sums and products of real numbers are real,
  the cosine and the sine of a real number are real, a quotient of a real number by a non-zero real number is real,
  and the 32-bit float patterns whose exponent field is not all ones denote real numbers.  The operations that only
  re-index an array (a broadcast along named axes, a reshape, a transpose, a concatenation) read each result entry
  from an operand entry, so they carry "every entry is real" from the operands to the result; so do the entrywise
  product, negation, cosine, sine and quotient, and a matrix product (a finite sum of products).

  The last part is the one algebraic law the file is for: for matrices with real entries the product is associative,
  entry by entry, as an identity between extended reals — (A·B)·C = A·(B·C).  Over the extended reals this needs the
  entries to be real: with infinities a product does not distribute over a sum.
-/
import Idealize.ShloMosaic.PureOps.Ideal.Laws
import Idealize.ShloMosaic.Lib.ValueIdx

noncomputable section

namespace Cert.RealEntries

open Idealize.ShloMosaic Idealize.ShloMosaic.ValueIdx

/-! ## Real numbers among the extended reals -/

/-- The extended real is a real number. -/
def IsR (x : EReal) : Prop := ∃ r : ℝ, x = (r : EReal)

theorem IsR.coe (r : ℝ) : IsR (r : EReal) := ⟨r, rfl⟩

theorem IsR.zero : IsR 0 := ⟨0, rfl⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.neg {x : EReal} (hx : IsR x) : IsR (-x) := by
  obtain ⟨a, rfl⟩ := hx; exact ⟨-a, (EReal.coe_neg a).symm⟩

theorem IsR.sum {ι : Type*} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact (h a (Finset.mem_insert_self a s)).add (ih fun i hi => h i (Finset.mem_insert_of_mem hi))

theorem IsR.cos {x : EReal} (hx : IsR x) : IsR (Ideal.cos x) := by
  obtain ⟨a, rfl⟩ := hx; exact ⟨Real.cos a, rfl⟩

theorem IsR.sin {x : EReal} (hx : IsR x) : IsR (Ideal.sin x) := by
  obtain ⟨a, rfl⟩ := hx; exact ⟨Real.sin a, rfl⟩

/-- A real number divided by a non-zero real number. -/
theorem IsR.div {x y : EReal} (hx : IsR x) {b : ℝ} (hy : y = (b : EReal)) (hb : b ≠ 0) : IsR (Ideal.div x y) := by
  subst hy
  rw [Ideal.div_coe hb]
  exact hx.mul (IsR.coe _)

/-- A 32-bit float pattern whose exponent field is not all ones denotes a real number. -/
theorem isR_ofBits_f32 (w : BitVec 32) (h : (w.extractLsb' 23 8).toNat ≠ 255) : IsR (Ideal.ofBits .f32 w) := by
  show IsR (Ideal.ieee 8 23 w)
  unfold Ideal.ieee
  dsimp only
  rw [if_neg (by norm_num; exact h)]
  split_ifs <;> exact ⟨_, rfl⟩

/-- The pattern of 2.0 denotes the real number 2. -/
theorem ofBits_two : Ideal.ofBits .f32 0x40000000#32 = ((2 : ℝ) : EReal) := by
  simp [Ideal.ofBits, Ideal.ieee, -EReal.coe_mul]; norm_num

/-! ## Arrays of real numbers -/

variable {s t : Shape} {φ : FTy}

/-- Every entry of the array is a real number. -/
def AllReal (x : FVec Ideal s φ) : Prop := ∀ i, IsR (x i)

/-- A broadcast along named axes reads every entry from the operand. -/
theorem AllReal.of_broadcastInDim {x : FVec Ideal s φ} (hx : AllReal x) (dims : Fin s.rank → Fin t.rank)
    (h : s.BroadcastsInDim t dims) : AllReal (φ := φ) (broadcastInDim t dims h x) := by
  intro j; unfold Idealize.ShloMosaic.broadcastInDim; exact hx _

/-- A reshape reads every entry from the operand. -/
theorem AllReal.of_shapeCast {x : FVec Ideal s φ} (hx : AllReal x) (h : s.ShapeCasts t) :
    AllReal (φ := φ) (shapeCast t x h) := by
  intro j; unfold Idealize.ShloMosaic.shapeCast; exact hx _

/-- A transpose reads every entry from the operand. -/
theorem AllReal.of_transpose {x : FVec Ideal s φ} (hx : AllReal x) (perm : List (Fin s.rank)) (h : s.Transposes perm t) :
    AllReal (φ := φ) (transpose t perm x h) := by
  intro j; unfold Idealize.ShloMosaic.transpose; exact hx _

/-- A concatenation reads every entry from one of the pieces. -/
theorem AllReal.of_concatenate (a : Fin t.rank) (xs : List ((s : Shape) × (s.Idx → EReal)))
    (h : Shape.Concatenates (xs.map (·.1)) t a) (hxs : ∀ p ∈ xs, ∀ i, IsR (p.2 i)) :
    AllReal (φ := φ) (concatenate t a xs h) := by
  intro j; unfold Idealize.ShloMosaic.concatenate; dsimp only
  exact hxs _ (List.getElem_mem _) _

/-- A concatenation of two pieces. -/
theorem AllReal.of_concatenate₂ {s₁ s₂ : Shape} (a : Fin t.rank) {x : FVec Ideal s₁ φ} {y : FVec Ideal s₂ φ}
    (hx : AllReal x) (hy : AllReal y) (h : Shape.Concatenates [s₁, s₂] t a) :
    AllReal (φ := φ) (concatenate t a [⟨s₁, x⟩, ⟨s₂, y⟩] h) :=
  AllReal.of_concatenate a [⟨s₁, x⟩, ⟨s₂, y⟩] h fun p hp => by
    simp only [List.mem_cons, List.not_mem_nil, or_false] at hp
    rcases hp with rfl | rfl
    · exact hx
    · exact hy

/-- The entrywise product. -/
theorem AllReal.of_mulf {x y : FVec Ideal s φ} (hx : AllReal x) (hy : AllReal y) : AllReal (mulf x y) :=
  fun i => (hx i).mul (hy i)

/-- The entrywise negation on the host. -/
theorem AllReal.of_hostNegf {x : FVec Ideal s φ} (hx : AllReal x) : AllReal (Host.negf x) :=
  fun i => (hx i).neg

/-- The entrywise cosine on the host. -/
theorem AllReal.of_hostCos {x : FVec Ideal s φ} (hx : AllReal x) : AllReal (Host.cos x) :=
  fun i => (hx i).cos

/-- The entrywise sine on the host. -/
theorem AllReal.of_hostSin {x : FVec Ideal s φ} (hx : AllReal x) : AllReal (Host.sin x) :=
  fun i => (hx i).sin

/-- The entrywise quotient on the host by the splat of the float 2.0. -/
theorem AllReal.of_hostDivTwo {x : FVec Ideal s .f32} (hx : AllReal x) :
    AllReal (Host.divf x (constant (F := Ideal) s .f32 0x40000000#32)) :=
  fun i => (hx i).div ofBits_two (by norm_num)

/-- A table of 32-bit float patterns none of whose exponent fields is all ones. -/
theorem AllReal.ofTable (f : s.Idx → BitVec 32) (h : ∀ i, ((f i).extractLsb' 23 8).toNat ≠ 255) :
    AllReal (φ := .f32) (fun i => (FloatOps.ofBits (F := Ideal) .f32 (f i) : Ideal .f32)) :=
  fun i => isR_ofBits_f32 _ (h i)

/-! ## Matrices of real numbers -/

variable {M K N L : Nat}

/-- A matrix product of two matrices of real numbers, read at each entry as the sum over the inner index, has real
    entries. -/
theorem allReal_of_sum {x : FVec Ideal ⟨2, ![M, N]⟩ φ} (a : Fin M → Fin K → EReal) (b : Fin K → Fin N → EReal)
    (ha : ∀ p k, IsR (a p k)) (hb : ∀ k q, IsR (b k q))
    (hx : ∀ p q, x (ix2 p q) = ∑ k : Fin K, a p k * b k q) : AllReal x := by
  intro j
  obtain ⟨p, q, rfl⟩ : ∃ (p : Fin M) (q : Fin N), j = ix2 p q := ⟨j 0, j 1, eq_ix2 j⟩
  rw [hx]
  exact IsR.sum _ _ fun k _ => (ha _ k).mul (hb k _)

/-- The coercion from the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- ASSOCIATIVITY of the product of matrices of real numbers, entry by entry, over the extended reals:
    Σ_j (Σ_i A[p,i]·B[i,j])·C[j,q] = Σ_i A[p,i]·(Σ_j B[i,j]·C[j,q]). -/
theorem matmul_assoc (A : Fin M → Fin K → EReal) (B : Fin K → Fin L → EReal) (C : Fin L → Fin N → EReal)
    (hA : ∀ p i, IsR (A p i)) (hB : ∀ i j, IsR (B i j)) (hC : ∀ j q, IsR (C j q)) (p : Fin M) (q : Fin N) :
    ∑ j : Fin L, (∑ i : Fin K, A p i * B i j) * C j q = ∑ i : Fin K, A p i * ∑ j : Fin L, B i j * C j q := by
  choose a ha using hA
  choose b hb using hB
  choose c hc using hC
  simp only [ha, hb, hc, ← EReal.coe_mul, ← coe_sum]
  rw [EReal.coe_eq_coe_iff]
  simp only [Finset.sum_mul, Finset.mul_sum]
  rw [Finset.sum_comm]
  exact Finset.sum_congr rfl fun i _ => Finset.sum_congr rfl fun j _ => mul_assoc _ _ _

end Cert.RealEntries

end
-- ==== Proof.KIBridge.lean ====
/-
  The kernel's result array is the specification's. The projected queries, keys and values that the second region
  finds are the first region's results (the affine projections of the inputs); for real inputs they are real, so each
  row's scores and the values are real and the blocked softmax recurrence the second region runs, row by row, equals
  the plain softmax row; the output weights and bias bypass the first region.
-/
import proofs.«160914_j72550587564439_2_alg».proof.Proof.KIValue1d
import proofs.«160914_j72550587564439_2_alg».proof.Proof.KIValue0
import proofs.«160914_j72550587564439_2_alg».proof.Proof.KIRun
import proofs.«160914_j72550587564439_2_alg».proof.Proof.Spec
import proofs.«160914_j72550587564439_2_alg».proof.Proof.LibRealEntries

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.OnlineSoftmax Cert.Spec Cert.RealEntries

variable (m : (ℓ : Loc nD τ sig) → Buf (Elt Ideal) ℓ) (ρ : Dev nD → PrngReg) (c : Dev nD)

/-- The argument arrays, as launched. -/
abbrev ar0 : FVec Ideal S16384x256 .f32 := m ((c.tc : Thread nD τ).loc main_arg0)
abbrev ar1 : FVec Ideal S16384x256 .f32 := m ((c.tc : Thread nD τ).loc main_arg1)
abbrev ar2 : FVec Ideal S16384x256 .f32 := m ((c.tc : Thread nD τ).loc main_arg2)
abbrev ar3 : FVec Ideal S256x128 .f32 := m ((c.tc : Thread nD τ).loc main_arg3)
abbrev ar4 : FVec Ideal S128 .f32 := m ((c.tc : Thread nD τ).loc main_arg4)
abbrev ar5 : FVec Ideal S256x128 .f32 := m ((c.tc : Thread nD τ).loc main_arg5)
abbrev ar6 : FVec Ideal S128 .f32 := m ((c.tc : Thread nD τ).loc main_arg6)
abbrev ar7 : FVec Ideal S256x128 .f32 := m ((c.tc : Thread nD τ).loc main_arg7)
abbrev ar8 : FVec Ideal S128 .f32 := m ((c.tc : Thread nD τ).loc main_arg8)
abbrev ar9 : FVec Ideal S128x256 .f32 := m ((c.tc : Thread nD τ).loc main_arg9)
abbrev ar10 : FVec Ideal S256 .f32 := m ((c.tc : Thread nD τ).loc main_arg10)

/-- What the second region finds in the projected query / key / value arrays. -/
theorem Qa_eq : Qa (V2 m ρ) c = fun i : S16384x128.Idx => proj (ar0 m c) (ar3 m c) (ar4 m c) (i 0) (i 1) :=
  (W2_arr m ρ c 9).trans (final0_9 (V0r m ρ) c)
theorem Ka_eq : Ka (V2 m ρ) c = fun i : S16384x128.Idx => proj (ar1 m c) (ar5 m c) (ar6 m c) (i 0) (i 1) :=
  (W2_arr m ρ c 10).trans (final0_10 (V0r m ρ) c)
theorem Va_eq : Va (V2 m ρ) c = fun i : S16384x128.Idx => proj (ar2 m c) (ar7 m c) (ar8 m c) (i 0) (i 1) :=
  (W2_arr m ρ c 11).trans (final0_11 (V0r m ρ) c)
/-- The output weights and bias bypass the first region. -/
theorem Woa_eq : Woa (V2 m ρ) c = ar9 m c := W2_of_ne m ρ c main_arg9 (by decide)
theorem boa_eq : boa (V2 m ρ) c = ar10 m c := W2_of_ne m ρ c main_arg10 (by decide)

/-- An affine projection of real data is real. -/
theorem isR_proj {x : FVec Ideal S16384x256 .f32} {W : FVec Ideal S256x128 .f32} {b : FVec Ideal S128 .f32}
    (hx : AllReal x) (hW : AllReal W) (hb : AllReal b) (r : Fin 16384) (h : Fin 128) : IsR (proj x W b r h) :=
  IsR.add (IsR.sum _ _ fun k _ => IsR.mul (hx _) (hW _)) (hb _)

/-- The scale word is a real number. -/
theorem isR_scale : IsR (Ideal.ofBits .f32 0x3DB504F3#32) := isR_ofBits_f32 _ (by decide)

/-- THE BRIDGE: for real inputs the kernel's result array is the specification, entry by entry. -/
theorem kernelOut_eq_refOut
    (h0 : AllReal (ar0 m c)) (h1 : AllReal (ar1 m c)) (h2 : AllReal (ar2 m c)) (h3 : AllReal (ar3 m c)) (h4 : AllReal (ar4 m c))
    (h5 : AllReal (ar5 m c)) (h6 : AllReal (ar6 m c)) (h7 : AllReal (ar7 m c)) (h8 : AllReal (ar8 m c))
    (p : Fin 16384) (o : Fin 256) :
    kernelOut (V2 m ρ) c p o
      = refOut (ar0 m c) (ar1 m c) (ar2 m c) (ar3 m c) (ar4 m c) (ar5 m c) (ar6 m c) (ar7 m c) (ar8 m c) (ar9 m c) (ar10 m c) p o := by
  have hp : p.val < 16384 := p.isLt
  rw [kernelOut_of (V2 m ρ) c p o ⟨p.val / 1024, by omega⟩ ⟨p.val % 1024, Nat.mod_lt _ (by decide)⟩
    (by show p.val = p.val / 1024 * 1024 + p.val % 1024; omega)]
  unfold refOut
  rw [Woa_eq, boa_eq]
  refine congrArg (· + _) (Finset.sum_congr rfl fun h _ => congrArg (· * _) ?_)
  have hq : qrow ⟨p.val / 1024, by omega⟩ ⟨p.val % 1024, Nat.mod_lt _ (by decide)⟩ = p :=
    Fin.ext (by show p.val / 1024 * 1024 + p.val % 1024 = p.val; omega)
  refine flash_eq_ref (n := 2048) (B := 8) (H := 128) (by decide) (by decide) _ _ ?_ ?_
    (scoreRow (proj (ar0 m c) (ar3 m c) (ar4 m c)) (proj (ar1 m c) (ar5 m c) (ar6 m c)) p)
    (proj (ar2 m c) (ar7 m c) (ar8 m c)) ?_ ?_ h
  · intro b j
    unfold sB
    rw [Qa_eq, Ka_eq]
    exact IsR.mul (IsR.sum _ _ fun k _ => IsR.mul (isR_proj h0 h3 h4 _ _) (isR_proj h1 h5 h6 _ _)) isR_scale
  · intro b j k
    unfold vB
    rw [Va_eq]
    exact isR_proj h2 h7 h8 _ _
  · intro b j hb
    unfold sB scoreRow scale
    rw [Qa_eq, Ka_eq, hq]
    rfl
  · intro b j hb k
    unfold vB
    rw [Va_eq]
    rfl

end Cert.KernelIdeal.Hand

end
-- ==== Proof.Ref.lean ====
/- The reference program's result is the specification, index by index.

   Each host operation is read at an index: the three projections are row-times-matrix sums plus a bias; the
   scores are the inner products of projected query and key rows times the scale; the row maximum is the
   fold of `max` from `⊥`; the exponentials of the shifted scores are summed along the row and divided by
   that sum; the weights multiply the projected values; the last affine map gives the output. -/
import proofs.«160914_j72550587564439_2_alg».proof.Proof.Spec
import proofs.«160914_j72550587564439_2_alg».proof.Proof.Gen.ReferenceIdeal.Run
import proofs.«160914_j72550587564439_2_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open Cert.Spec Cert.OnlineSoftmax
open scoped BigOperators

variable (x0 x1 x2 : (⟨S16384x256, .f32⟩ : BufTy).Contents (Elt Ideal))
  (x3 : (⟨S256x128, .f32⟩ : BufTy).Contents (Elt Ideal)) (x4 : (⟨S128, .f32⟩ : BufTy).Contents (Elt Ideal))
  (x5 : (⟨S256x128, .f32⟩ : BufTy).Contents (Elt Ideal)) (x6 : (⟨S128, .f32⟩ : BufTy).Contents (Elt Ideal))
  (x7 : (⟨S256x128, .f32⟩ : BufTy).Contents (Elt Ideal)) (x8 : (⟨S128, .f32⟩ : BufTy).Contents (Elt Ideal))
  (x9 : (⟨S128x256, .f32⟩ : BufTy).Contents (Elt Ideal)) (x10 : (⟨S256, .f32⟩ : BufTy).Contents (Elt Ideal))

/-- Two rank-2 indices with the same coordinates are equal. -/
local macro "idx2" : tactic => `(tactic| (funext a; match a with | ⟨0, _⟩ => rfl | ⟨1, _⟩ => rfl))
/-- Two rank-1 indices with the same coordinate are equal. -/
local macro "idx1" : tactic => `(tactic| (funext a; match a with | ⟨0, _⟩ => rfl))

/-- The query projection at row `p`, feature `h`. -/
theorem proj0_at (p : Fin 16384) (h : Fin 128) :
    val_main_v3 (F := Ideal) x0 x3 x4 (ix2 p h) = proj x0 x3 x4 p h := by
  rw [val_main_v3_apply, val_main_v0_apply, val_main_v2_apply, val_main_v1_apply]
  have e1 : ∀ k : Fin 256, lidx_main_v0 (ix2 p h) k = ix2 p k := fun k => by idx2
  have e2 : ∀ k : Fin 256, ridx_main_v0 (ix2 p h) k = ix2 k h := fun k => by idx2
  have e3 : idx_main_v1 (idx_main_v2 (ix2 p h)) = ix1 h := by idx1
  simp only [e1, e2, e3, Ideal.addf_def]
  rfl

/-- The key projection at row `p`, feature `h`. -/
theorem proj1_at (p : Fin 16384) (h : Fin 128) :
    val_main_v7 (F := Ideal) x1 x5 x6 (ix2 p h) = proj x1 x5 x6 p h := by
  rw [val_main_v7_apply, val_main_v4_apply, val_main_v6_apply, val_main_v5_apply]
  have e1 : ∀ k : Fin 256, lidx_main_v4 (ix2 p h) k = ix2 p k := fun k => by idx2
  have e2 : ∀ k : Fin 256, ridx_main_v4 (ix2 p h) k = ix2 k h := fun k => by idx2
  have e3 : idx_main_v5 (idx_main_v6 (ix2 p h)) = ix1 h := by idx1
  simp only [e1, e2, e3, Ideal.addf_def]
  rfl

/-- The value projection at row `p`, feature `h`. -/
theorem proj2_at (p : Fin 16384) (h : Fin 128) :
    val_main_v11 (F := Ideal) x2 x7 x8 (ix2 p h) = proj x2 x7 x8 p h := by
  rw [val_main_v11_apply, val_main_v8_apply, val_main_v10_apply, val_main_v9_apply]
  have e1 : ∀ k : Fin 256, lidx_main_v8 (ix2 p h) k = ix2 p k := fun k => by idx2
  have e2 : ∀ k : Fin 256, ridx_main_v8 (ix2 p h) k = ix2 k h := fun k => by idx2
  have e3 : idx_main_v9 (idx_main_v10 (ix2 p h)) = ix1 h := by idx1
  simp only [e1, e2, e3, Ideal.addf_def]
  rfl

/-- The scaled score of query row `p` against key row `j`: the transposed keys are read back by rows. -/
theorem score_at (p j : Fin 16384) :
    val_main_v15 (F := Ideal) x0 x1 x3 x4 x5 x6 (ix2 p j) =
      scoreRow (proj x0 x3 x4) (proj x1 x5 x6) p j := by
  rw [val_main_v15_apply, val_main_v13_apply, val_main_v14_apply, val_main_cst_apply]
  have e1 : ∀ k : Fin 128, lidx_main_v13 (ix2 p j) k = ix2 p k := fun k => by idx2
  have e2 : ∀ k : Fin 128, idx_main_v12 (ridx_main_v13 (ix2 p j) k) = ix2 j k := fun k => by idx2
  simp only [val_main_v12_apply, e1, e2, proj0_at, proj1_at, Ideal.mulf_def, Ideal.ofBits_def]
  rfl

/-- The single-precision word of negative infinity denotes `⊥`. -/
theorem ofBits_neg_inf : Ideal.ofBits .f32 0xFF800000#32 = (⊥ : EReal) := by
  simp [Ideal.ofBits, Ideal.ieee]

/-- Reducing the second axis of a square array leaves the first. -/
theorem hred : S16384x16384.Reduces [1] S16384 := by decide

/-- Row `p` with column `k` put back is `(p, k)`. -/
theorem lift_ix (p : Fin 16384) (k : Fin (S16384x16384.size 1)) :
    hred.lift (ix1 p) k = ix2 p (⟨k.val, k.isLt⟩ : Fin 16384) := by
  funext c; apply Fin.ext
  rw [Shape.Reduces.lift_val]
  unfold Shape.Reduces.liftVal
  match c with
  | ⟨0, _⟩ => rfl
  | ⟨1, _⟩ => rfl

/-- The row maximum the reference subtracts: the fold of `max` from `⊥` over the row, under one more `max ⊥`. -/
theorem max_at (p : Fin 16384) :
    val_main_v18 (F := Ideal) x0 x1 x3 x4 x5 x6 (ix1 p) =
      max ⊥ (rowMax (scoreRow (proj x0 x3 x4) (proj x1 x5 x6) p)) := by
  rw [val_main_v18_apply, val_main_v17_apply, val_main_cst_1_apply]
  simp only [Ideal.maximumf_def, Ideal.ofBits_def, ofBits_neg_inf]
  refine congrArg (max (⊥ : EReal)) ?_
  unfold val_main_v16
  rw [Host.reduce_eq_fold_single FloatOps.maximumf _ _ reducesTo_S16384x16384_S16384_d1 hred h_S_]
  have hf : (val_main_v15 (F := Ideal) x0 x1 x3 x4 x5 x6 ∘ hred.lift (ix1 p)) =
      fun k : Fin 16384 => scoreRow (proj x0 x3 x4) (proj x1 x5 x6) p k := funext fun k => by
    show val_main_v15 (F := Ideal) x0 x1 x3 x4 x5 x6 (hred.lift (ix1 p) k) = _
    rw [lift_ix, score_at]
    rfl
  rw [hf]
  simp only [val_main_cst_0_apply, Ideal.ofBits_def, ofBits_neg_inf]
  rfl

/-- The exponential of the shifted score. -/
theorem exp_at (p j : Fin 16384) :
    val_main_v22 (F := Ideal) x0 x1 x3 x4 x5 x6 (ix2 p j) =
      Ideal.exp (scoreRow (proj x0 x3 x4) (proj x1 x5 x6) p j -
        max ⊥ (rowMax (scoreRow (proj x0 x3 x4) (proj x1 x5 x6) p))) := by
  rw [val_main_v22_apply, val_main_v21_apply, val_main_v20_apply, val_main_v19_apply]
  have e : idx_main_v19 (idx_main_v20 (ix2 p j)) = ix1 p := by idx1
  rw [e, score_at, max_at]
  rfl

/-- The row's sum of exponentials (the zero the sum starts from is dropped). -/
theorem sum_at (p : Fin 16384) :
    val_main_v23 (F := Ideal) x0 x1 x3 x4 x5 x6 (ix1 p) =
      ∑ j : Fin 16384, Ideal.exp (scoreRow (proj x0 x3 x4) (proj x1 x5 x6) p j -
        max ⊥ (rowMax (scoreRow (proj x0 x3 x4) (proj x1 x5 x6) p))) := by
  rw [val_main_v23_apply, val_main_cst_2_apply]
  have e : ∀ k : Fin 16384, idx_main_v23 (ix1 p) k = ix2 p k := fun k => by idx2
  simp only [e, exp_at, Ideal.ofBits_def, Ideal.ofBits_zero_f32, zero_add]

/-- The softmax weight of key `j` for query `p`. -/
theorem soft_at (p j : Fin 16384) :
    val_main_v26 (F := Ideal) x0 x1 x3 x4 x5 x6 (ix2 p j) =
      Ideal.div (Ideal.exp (scoreRow (proj x0 x3 x4) (proj x1 x5 x6) p j -
          max ⊥ (rowMax (scoreRow (proj x0 x3 x4) (proj x1 x5 x6) p))))
        (∑ j' : Fin 16384, Ideal.exp (scoreRow (proj x0 x3 x4) (proj x1 x5 x6) p j' -
          max ⊥ (rowMax (scoreRow (proj x0 x3 x4) (proj x1 x5 x6) p)))) := by
  rw [val_main_v26_apply, val_main_v25_apply, val_main_v24_apply]
  have e : idx_main_v24 (idx_main_v25 (ix2 p j)) = ix1 p := by idx1
  rw [e, exp_at, sum_at]
  rfl

/-- The attention output at row `p`, feature `h`, is one row of plain softmax attention. -/
theorem attn_at (p : Fin 16384) (h : Fin 128) :
    val_main_v27 (F := Ideal) x0 x1 x2 x3 x4 x5 x6 x7 x8 (ix2 p h) =
      refRow (scoreRow (proj x0 x3 x4) (proj x1 x5 x6) p) (proj x2 x7 x8) h := by
  rw [val_main_v27_apply]
  have e1 : ∀ k : Fin 16384, lidx_main_v27 (ix2 p h) k = ix2 p k := fun k => by idx2
  have e2 : ∀ k : Fin 16384, ridx_main_v27 (ix2 p h) k = ix2 k h := fun k => by idx2
  simp only [e1, e2, soft_at, proj2_at]
  rfl

/-- The reference's result at `(p, o)` is the specification there. -/
theorem out_at (p : Fin 16384) (o : Fin 256) :
    val_main_v31 (F := Ideal) x0 x1 x2 x3 x4 x5 x6 x7 x8 x9 x10 (ix2 p o) =
      refOut x0 x1 x2 x3 x4 x5 x6 x7 x8 x9 x10 p o := by
  rw [val_main_v31_apply, val_main_v28_apply, val_main_v30_apply, val_main_v29_apply]
  have e1 : ∀ k : Fin 128, lidx_main_v28 (ix2 p o) k = ix2 p k := fun k => by idx2
  have e2 : ∀ k : Fin 128, ridx_main_v28 (ix2 p o) k = ix2 k o := fun k => by idx2
  have e3 : idx_main_v29 (idx_main_v30 (ix2 p o)) = ix1 o := by idx1
  simp only [e1, e2, e3, attn_at, Ideal.addf_def]
  rfl

/-- The reference's result array is the specification's array. -/
theorem val_eq : val_main_v31 (F := Ideal) x0 x1 x2 x3 x4 x5 x6 x7 x8 x9 x10 =
    refArr x0 x1 x2 x3 x4 x5 x6 x7 x8 x9 x10 := by
  funext i
  obtain ⟨p, o, rfl⟩ : ∃ (p : Fin 16384) (o : Fin 256), i = ix2 p o := ⟨i 0, i 1, eq_ix2 i⟩
  exact out_at x0 x1 x2 x3 x4 x5 x6 x7 x8 x9 x10 p o

/-- The reference's run: every weakly fair execution terminates with the result array equal to the specification
    of the arguments' launch contents, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31) =
        refArr (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono
    (fun _ h c => ⟨(h c).1.trans ((val_main_v31_eq m c).trans (val_eq _ _ _ _ _ _ _ _ _ _ _)), (h c).2⟩)
    (Cert.ReferenceIdeal.Value.run (F := Ideal) m ρ)

end Cert.ReferenceIdeal.RefValue
-- ==== Proof.LibFiniteInputs.lean ====
/-
  A reusable lemma: what the precondition "every entry is finite" says over the extended reals.

  The precondition is written as all(|x| < +∞): the entrywise absolute value compared, by the ordered "less than", with
  the splat of the float pattern of +∞, and the comparisons reduced by "and" over every axis from the constant true.
  Over the extended reals the pattern of +∞ denotes ⊤, the absolute value of x is max x (−x), and max x (−x) < ⊤ holds
  exactly when x is neither ⊤ nor ⊥: so the reduction being true says that every entry is a real number.
-/
import proofs.«160914_j72550587564439_2_alg».proof.Proof.LibRealEntries
import Idealize.ShloMosaic.Lib.ReduceAll

noncomputable section

namespace Cert.RealEntries

open Idealize.ShloMosaic

/-- The float pattern of +∞ denotes ⊤. -/
theorem ofBits_inf : Ideal.ofBits .f32 0x7F800000#32 = ⊤ := by
  simp [Ideal.ofBits, Ideal.ieee]

/-- |x| < ⊤ says that x is a real number. -/
theorem isR_of_abs_lt_top (x : EReal) (h : Ideal.cmp .olt (max x (-x)) ⊤ = 1#1) : IsR x := by
  have h' : max x (-x) < ⊤ := by
    have h1 : Ideal.cmp .olt (max x (-x)) ⊤ = BitVec.ofBool (decide (max x (-x) < ⊤)) := rfl
    rw [h1] at h
    by_contra hn
    rw [decide_eq_false hn] at h
    exact absurd h (by decide)
  induction x using EReal.rec with
  | bot => simp at h'
  | coe r => exact ⟨r, rfl⟩
  | top => simp at h'

/-- all(|x| < +∞) reduced over every axis is true: every entry of x is a real number. -/
theorem allReal_of_all_finite {s t u : Shape} {axes : List (Fin s.rank)} [Subsingleton t.Idx] (x : FVec Ideal s .f32)
    (hb : (⟨0, ![]⟩ : Shape).BroadcastsInDim s (![] : Fin 0 → Fin s.rank)) (init : u.Idx → BitVec 1)
    (h : s.ReducesTo axes t) (hu : 0 < u.numel) (j : t.Idx)
    (e : Host.reduce IntOp.andi
        (cmpf .olt (Host.absf x) (broadcastInDim s ![] hb (constant (F := Ideal) ⟨0, ![]⟩ .f32 0x7F800000#32))) init h hu j = 1#1) :
    AllReal x := fun i => by
  have hi := Host.reduce_andi_all _ init h hu j e i
  refine isR_of_abs_lt_top (x i) ?_
  rw [← ofBits_inf]
  exact hi

end Cert.RealEntries

end
-- ==== Proof.Fin.lean ====
/-
  The precondition decoded: every one of the eleven argument arrays holds real numbers only. The predicate is the
  conjunction, array by array, of all(|x| < +∞); over the extended reals |x| < ⊤ says that x is neither infinity.
-/
import proofs.«160914_j72550587564439_2_alg».proof.Proof.Gen.Pre_finite_inputs
import proofs.«160914_j72550587564439_2_alg».proof.Proof.LibFiniteInputs
import Idealize.ShloMosaic.Lib.Affine
import Idealize.ShloMosaic.Lib.ValueIdx

noncomputable section

namespace Cert.FiniteInputs

open Idealize.ShloMosaic Cert.RealEntries Cert.Pre_finite_inputs

instance : Subsingleton S_.Idx := ⟨fun a b => funext fun d => d.elim0⟩

/-- Every argument array of a memory satisfying the precondition has real entries. -/
theorem allReal_inputs (x0 : FVec Ideal S16384x256 .f32) (x1 : FVec Ideal S16384x256 .f32) (x2 : FVec Ideal S16384x256 .f32) (x3 : FVec Ideal S256x128 .f32) (x4 : FVec Ideal S128 .f32) (x5 : FVec Ideal S256x128 .f32) (x6 : FVec Ideal S128 .f32) (x7 : FVec Ideal S256x128 .f32) (x8 : FVec Ideal S128 .f32) (x9 : FVec Ideal S128x256 .f32) (x10 : FVec Ideal S256 .f32)
    (h : Cert.Pre_finite_inputs.fn (F := Ideal) x0 x1 x2 x3 x4 x5 x6 x7 x8 x9 x10 = fun _ => 1#1) :
    AllReal x0 ∧ AllReal x1 ∧ AllReal x2 ∧ AllReal x3 ∧ AllReal x4 ∧ AllReal x5 ∧ AllReal x6 ∧ AllReal x7 ∧ AllReal x8 ∧ AllReal x9 ∧ AllReal x10 := by
  have h1 := congrFun h ValueIdx.ix0
  dsimp only [fn, fn_part1, fn_part2, fn_part3, andi] at h1
  simp only [IntOp.andi_eq_one] at h1
  obtain ⟨⟨⟨⟨⟨⟨⟨⟨⟨⟨e0, e1⟩, e2⟩, e3⟩, e4⟩, e5⟩, e6⟩, e7⟩, e8⟩, e9⟩, e10⟩ := h1
  exact ⟨allReal_of_all_finite x0 _ _ _ _ _ e0, allReal_of_all_finite x1 _ _ _ _ _ e1, allReal_of_all_finite x2 _ _ _ _ _ e2, allReal_of_all_finite x3 _ _ _ _ _ e3, allReal_of_all_finite x4 _ _ _ _ _ e4, allReal_of_all_finite x5 _ _ _ _ _ e5, allReal_of_all_finite x6 _ _ _ _ _ e6, allReal_of_all_finite x7 _ _ _ _ _ e7, allReal_of_all_finite x8 _ _ _ _ _ e8, allReal_of_all_finite x9 _ _ _ _ _ e9, allReal_of_all_finite x10 _ _ _ _ _ e10⟩

end Cert.FiniteInputs

end
-- ==== Proof.lean ====
/-
  The five claims of this certificate, assembled.

  The kernel program runs two regions: the first projects the three inputs to queries, keys and values; the second
  walks, for each tile of 1024 query rows, the eight tiles of 2048 keys, carrying per row a running maximum, a running
  normaliser and a running weighted sum of values (the blocked softmax recurrence), and at the last key tile divides,
  applies the output weights and adds the bias. The reference computes the plain softmax attention of the same
  projections. Over the extended reals, for real inputs, the blocked recurrence equals the plain softmax row, so the
  two result arrays agree entry by entry. The frames of the two kernel programs (at the word level and at the
  extended reals) are one development, generic in the float interpretation: every weakly fair execution terminates
  without fault and leaves the argument arrays unchanged. The idealization rewrote nothing.
-/
import proofs.«160914_j72550587564439_2_alg».proof.Defs
import proofs.«160914_j72550587564439_2_alg».proof.Proof.Gen.Kernel
import proofs.«160914_j72550587564439_2_alg».proof.Proof.Gen.KernelIdeal
import proofs.«160914_j72550587564439_2_alg».proof.Proof.Gen.ReferenceIdeal
import proofs.«160914_j72550587564439_2_alg».proof.Proof.Gen.Pre_finite_inputs
import proofs.«160914_j72550587564439_2_alg».proof.Proof.KRun
import proofs.«160914_j72550587564439_2_alg».proof.Proof.KIBridge
import proofs.«160914_j72550587564439_2_alg».proof.Proof.Ref
import proofs.«160914_j72550587564439_2_alg».proof.Proof.Fin
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal.Hand in
/-- Both idealized programs end with the specification's array in their result buffer. -/
theorem algebraic : Cert.algebraic_KernelIdeal_ReferenceIdeal := by
  intro m ρ m' ρ' hpre hagree
  refine ⟨fun c => outArr (V2 m ρ) c, ?_, ?_⟩
  · refine (θ_run Cert.KernelIdeal.defs _ _).mono (fun r h c => ?_) (Cert.KernelIdeal.Hand.run m ρ)
    have hc := h c
    exact ⟨(hc _ (mem_uc Cert.KernelIdeal.main_v1 (by decide))).trans ((W4_arr m ρ c 5).trans (final5 (V2 m ρ) c)),
      (hc _ (mem_uc Cert.KernelIdeal.main_arg0 (by decide))).trans (W4_main_arg0 m ρ c),
      (hc _ (mem_uc Cert.KernelIdeal.main_arg1 (by decide))).trans (W4_main_arg1 m ρ c),
      (hc _ (mem_uc Cert.KernelIdeal.main_arg2 (by decide))).trans (W4_main_arg2 m ρ c),
      (hc _ (mem_uc Cert.KernelIdeal.main_arg3 (by decide))).trans (W4_main_arg3 m ρ c),
      (hc _ (mem_uc Cert.KernelIdeal.main_arg4 (by decide))).trans (W4_main_arg4 m ρ c),
      (hc _ (mem_uc Cert.KernelIdeal.main_arg5 (by decide))).trans (W4_main_arg5 m ρ c),
      (hc _ (mem_uc Cert.KernelIdeal.main_arg6 (by decide))).trans (W4_main_arg6 m ρ c),
      (hc _ (mem_uc Cert.KernelIdeal.main_arg7 (by decide))).trans (W4_main_arg7 m ρ c),
      (hc _ (mem_uc Cert.KernelIdeal.main_arg8 (by decide))).trans (W4_main_arg8 m ρ c),
      (hc _ (mem_uc Cert.KernelIdeal.main_arg9 (by decide))).trans (W4_main_arg9 m ρ c),
      (hc _ (mem_uc Cert.KernelIdeal.main_arg10 (by decide))).trans (W4_main_arg10 m ρ c)⟩
  · refine (θ_run Cert.ReferenceIdeal.defs _ _).mono (fun _ h c => ⟨(h c).1.trans ?_, (h c).2⟩)
      (Cert.ReferenceIdeal.Value.run (F := Ideal) m' ρ')
    obtain ⟨r0, r1, r2, r3, r4, r5, r6, r7, r8, r9, r10⟩ := Cert.FiniteInputs.allReal_inputs _ _ _ _ _ _ _ _ _ _ _ (hpre c)
    rw [Cert.ReferenceIdeal.Read.val_main_v31_eq, Cert.ReferenceIdeal.RefValue.val_eq,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    funext i
    exact (kernelOut_eq_refOut m ρ c r0 r1 r2 r3 r4 r5 r6 r7 r8 (i 0) (i 1)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
